-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  IdealRules.named_const.Statement Cert.KernelIdeal.κ "inv_1000000" .f32 0x358637BD#32 ((1 / 1000000 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000 : Shape := ⟨1, ![1000000]⟩
abbrev S500000 : Shape := ⟨1, ![500000]⟩
abbrev S8000000 : Shape := ⟨1, ![8000000]⟩
abbrev S2x10 : Shape := ⟨2, ![2, 10]⟩
abbrev S10 : Shape := ⟨1, ![10]⟩
abbrev S1x10 : Shape := ⟨2, ![1, 10]⟩
abbrev S10x10 : Shape := ⟨2, ![10, 10]⟩
abbrev S10x1 : Shape := ⟨2, ![10, 1]⟩
abbrev S1 : Shape := ⟨1, ![1]⟩
abbrev S_ : Shape := ⟨0, ![]⟩

class Facts : Prop where
  bcast_S_S1000000 : S_.BroadcastsInDim S1000000 (![] : Fin 0 → Fin S1000000.rank)
  reducesTo_S1000000_S_d0 : S1000000.ReducesTo [0] S_
  h_S_ : 0 < S_.numel
  bcast_S_S500000 : S_.BroadcastsInDim S500000 (![] : Fin 0 → Fin S500000.rank)
  reducesTo_S500000_S_d0 : S500000.ReducesTo [0] S_
  bcast_S_S8000000 : S_.BroadcastsInDim S8000000 (![] : Fin 0 → Fin S8000000.rank)
  reducesTo_S8000000_S_d0 : S8000000.ReducesTo [0] S_
  bcast_S_S2x10 : S_.BroadcastsInDim S2x10 (![] : Fin 0 → Fin S2x10.rank)
  reducesTo_S2x10_S_d0_1 : S2x10.ReducesTo [0, 1] S_
  bcast_S_S10 : S_.BroadcastsInDim S10 (![] : Fin 0 → Fin S10.rank)
  reducesTo_S10_S_d0 : S10.ReducesTo [0] S_
  bcast_S_S1x10 : S_.BroadcastsInDim S1x10 (![] : Fin 0 → Fin S1x10.rank)
  reducesTo_S1x10_S_d0_1 : S1x10.ReducesTo [0, 1] S_
  bcast_S_S10x10 : S_.BroadcastsInDim S10x10 (![] : Fin 0 → Fin S10x10.rank)
  reducesTo_S10x10_S_d0_1 : S10x10.ReducesTo [0, 1] S_
  bcast_S_S10x1 : S_.BroadcastsInDim S10x1 (![] : Fin 0 → Fin S10x1.rank)
  reducesTo_S10x1_S_d0_1 : S10x1.ReducesTo [0, 1] S_
  bcast_S_S1 : S_.BroadcastsInDim S1 (![] : Fin 0 → Fin S1.rank)
  reducesTo_S1_S_d0 : S1.ReducesTo [0] S_

variable [Facts]

def fn_part5 {F : FTy → Type} [FloatOps F] (main_v83 : IVec S_ 1) (main_v84 : FVec F S1 .f32) (main_cst_32 : FVec F S_ .f32) : IVec S_ 1 :=
  let main_v85 : FVec F S1 .f32 := broadcastInDim S1 ![] bcast_S_S1 main_cst_32
  let main_v86 : IVec S1 1 := cmpf .olt main_v84 main_v85
  let main_c_33 : IVec S_ 1 := constantI S_ 1 1#1
  let main_v87 : IVec S_ 1 := (fun x v => Host.reduce IntOp.andi x v reducesTo_S1_S_d0 h_S_) main_v86 main_c_33
  let main_v88 : IVec S_ 1 := andi main_v83 main_v87
  main_v88

def fn_part4 {F : FTy → Type} [FloatOps F] (main_arg16 : FVec F S10x10 .f32) (main_arg17 : FVec F S10 .f32) (main_arg18 : FVec F S10x1 .f32) (main_arg19 : FVec F S1 .f32) (main_v63 : IVec S_ 1) (main_v67 : IVec S_ 1) : IVec S_ 1 :=
  let main_v68 : IVec S_ 1 := andi main_v63 main_v67
  let main_v69 : FVec F S10x10 .f32 := Host.absf main_arg16
  let main_cst_26 : FVec F S_ .f32 := constant S_ .f32 0x7F800000#32
  let main_v70 : FVec F S10x10 .f32 := broadcastInDim S10x10 ![] bcast_S_S10x10 main_cst_26
  let main_v71 : IVec S10x10 1 := cmpf .olt main_v69 main_v70
  let main_c_27 : IVec S_ 1 := constantI S_ 1 1#1
  let main_v72 : IVec S_ 1 := (fun x v => Host.reduce IntOp.andi x v reducesTo_S10x10_S_d0_1 h_S_) main_v71 main_c_27
  let main_v73 : IVec S_ 1 := andi main_v68 main_v72
  let main_v74 : FVec F S10 .f32 := Host.absf main_arg17
  let main_cst_28 : FVec F S_ .f32 := constant S_ .f32 0x7F800000#32
  let main_v75 : FVec F S10 .f32 := broadcastInDim S10 ![] bcast_S_S10 main_cst_28
  let main_v76 : IVec S10 1 := cmpf .olt main_v74 main_v75
  let main_c_29 : IVec S_ 1 := constantI S_ 1 1#1
  let main_v77 : IVec S_ 1 := (fun x v => Host.reduce IntOp.andi x v reducesTo_S10_S_d0 h_S_) main_v76 main_c_29
  let main_v78 : IVec S_ 1 := andi main_v73 main_v77
  let main_v79 : FVec F S10x1 .f32 := Host.absf main_arg18
  let main_cst_30 : FVec F S_ .f32 := constant S_ .f32 0x7F800000#32
  let main_v80 : FVec F S10x1 .f32 := broadcastInDim S10x1 ![] bcast_S_S10x1 main_cst_30
  let main_v81 : IVec S10x1 1 := cmpf .olt main_v79 main_v80
  let main_c_31 : IVec S_ 1 := constantI S_ 1 1#1
  let main_v82 : IVec S_ 1 := (fun x v => Host.reduce IntOp.andi x v reducesTo_S10x1_S_d0_1 h_S_) main_v81 main_c_31
  let main_v83 : IVec S_ 1 := andi main_v78 main_v82
  let main_v84 : FVec F S1 .f32 := Host.absf main_arg19
  let main_cst_32 : FVec F S_ .f32 := constant S_ .f32 0x7F800000#32
  fn_part5 (F := F) main_v83 main_v84 main_cst_32

def fn_part3 {F : FTy → Type} [FloatOps F] (main_arg13 : FVec F S10 .f32) (main_arg14 : FVec F S10x10 .f32) (main_arg15 : FVec F S10 .f32) (main_arg16 : FVec F S10x10 .f32) (main_arg17 : FVec F S10 .f32) (main_arg18 : FVec F S10x1 .f32) (main_arg19 : FVec F S1 .f32) (main_v48 : IVec S_ 1) (main_v49 : FVec F S10x10 .f32) (main_v50 : FVec F S10x10 .f32) : IVec S_ 1 :=
  let main_v51 : IVec S10x10 1 := cmpf .olt main_v49 main_v50
  let main_c_19 : IVec S_ 1 := constantI S_ 1 1#1
  let main_v52 : IVec S_ 1 := (fun x v => Host.reduce IntOp.andi x v reducesTo_S10x10_S_d0_1 h_S_) main_v51 main_c_19
  let main_v53 : IVec S_ 1 := andi main_v48 main_v52
  let main_v54 : FVec F S10 .f32 := Host.absf main_arg13
  let main_cst_20 : FVec F S_ .f32 := constant S_ .f32 0x7F800000#32
  let main_v55 : FVec F S10 .f32 := broadcastInDim S10 ![] bcast_S_S10 main_cst_20
  let main_v56 : IVec S10 1 := cmpf .olt main_v54 main_v55
  let main_c_21 : IVec S_ 1 := constantI S_ 1 1#1
  let main_v57 : IVec S_ 1 := (fun x v => Host.reduce IntOp.andi x v reducesTo_S10_S_d0 h_S_) main_v56 main_c_21
  let main_v58 : IVec S_ 1 := andi main_v53 main_v57
  let main_v59 : FVec F S10x10 .f32 := Host.absf main_arg14
  let main_cst_22 : FVec F S_ .f32 := constant S_ .f32 0x7F800000#32
  let main_v60 : FVec F S10x10 .f32 := broadcastInDim S10x10 ![] bcast_S_S10x10 main_cst_22
  let main_v61 : IVec S10x10 1 := cmpf .olt main_v59 main_v60
  let main_c_23 : IVec S_ 1 := constantI S_ 1 1#1
  let main_v62 : IVec S_ 1 := (fun x v => Host.reduce IntOp.andi x v reducesTo_S10x10_S_d0_1 h_S_) main_v61 main_c_23
  let main_v63 : IVec S_ 1 := andi main_v58 main_v62
  let main_v64 : FVec F S10 .f32 := Host.absf main_arg15
  let main_cst_24 : FVec F S_ .f32 := constant S_ .f32 0x7F800000#32
  let main_v65 : FVec F S10 .f32 := broadcastInDim S10 ![] bcast_S_S10 main_cst_24
  let main_v66 : IVec S10 1 := cmpf .olt main_v64 main_v65
  let main_c_25 : IVec S_ 1 := constantI S_ 1 1#1
  let main_v67 : IVec S_ 1 := (fun x v => Host.reduce IntOp.andi x v reducesTo_S10_S_d0 h_S_) main_v66 main_c_25
  fn_part4 (F := F) main_arg16 main_arg17 main_arg18 main_arg19 main_v63 main_v67

def fn_part2 {F : FTy → Type} [FloatOps F] (main_arg9 : FVec F S10 .f32) (main_arg10 : FVec F S10x10 .f32) (main_arg11 : FVec F S10 .f32) (main_arg12 : FVec F S10x10 .f32) (main_arg13 : FVec F S10 .f32) (main_arg14 : FVec F S10x10 .f32) (main_arg15 : FVec F S10 .f32) (main_arg16 : FVec F S10x10 .f32) (main_arg17 : FVec F S10 .f32) (main_arg18 : FVec F S10x1 .f32) (main_arg19 : FVec F S1 .f32) (main_v33 : IVec S_ 1) : IVec S_ 1 :=
  let main_v34 : FVec F S10 .f32 := Host.absf main_arg9
  let main_cst_12 : FVec F S_ .f32 := constant S_ .f32 0x7F800000#32
  let main_v35 : FVec F S10 .f32 := broadcastInDim S10 ![] bcast_S_S10 main_cst_12
  let main_v36 : IVec S10 1 := cmpf .olt main_v34 main_v35
  let main_c_13 : IVec S_ 1 := constantI S_ 1 1#1
  let main_v37 : IVec S_ 1 := (fun x v => Host.reduce IntOp.andi x v reducesTo_S10_S_d0 h_S_) main_v36 main_c_13
  let main_v38 : IVec S_ 1 := andi main_v33 main_v37
  let main_v39 : FVec F S10x10 .f32 := Host.absf main_arg10
  let main_cst_14 : FVec F S_ .f32 := constant S_ .f32 0x7F800000#32
  let main_v40 : FVec F S10x10 .f32 := broadcastInDim S10x10 ![] bcast_S_S10x10 main_cst_14
  let main_v41 : IVec S10x10 1 := cmpf .olt main_v39 main_v40
  let main_c_15 : IVec S_ 1 := constantI S_ 1 1#1
  let main_v42 : IVec S_ 1 := (fun x v => Host.reduce IntOp.andi x v reducesTo_S10x10_S_d0_1 h_S_) main_v41 main_c_15
  let main_v43 : IVec S_ 1 := andi main_v38 main_v42
  let main_v44 : FVec F S10 .f32 := Host.absf main_arg11
  let main_cst_16 : FVec F S_ .f32 := constant S_ .f32 0x7F800000#32
  let main_v45 : FVec F S10 .f32 := broadcastInDim S10 ![] bcast_S_S10 main_cst_16
  let main_v46 : IVec S10 1 := cmpf .olt main_v44 main_v45
  let main_c_17 : IVec S_ 1 := constantI S_ 1 1#1
  let main_v47 : IVec S_ 1 := (fun x v => Host.reduce IntOp.andi x v reducesTo_S10_S_d0 h_S_) main_v46 main_c_17
  let main_v48 : IVec S_ 1 := andi main_v43 main_v47
  let main_v49 : FVec F S10x10 .f32 := Host.absf main_arg12
  let main_cst_18 : FVec F S_ .f32 := constant S_ .f32 0x7F800000#32
  let main_v50 : FVec F S10x10 .f32 := broadcastInDim S10x10 ![] bcast_S_S10x10 main_cst_18
  fn_part3 (F := F) main_arg13 main_arg14 main_arg15 main_arg16 main_arg17 main_arg18 main_arg19 main_v48 main_v49 main_v50

def fn_part1 {F : FTy → Type} [FloatOps F] (main_arg6 : FVec F S2x10 .f32) (main_arg7 : FVec F S10 .f32) (main_arg8 : FVec F S1x10 .f32) (main_arg9 : FVec F S10 .f32) (main_arg10 : FVec F S10x10 .f32) (main_arg11 : FVec F S10 .f32) (main_arg12 : FVec F S10x10 .f32) (main_arg13 : FVec F S10 .f32) (main_arg14 : FVec F S10x10 .f32) (main_arg15 : FVec F S10 .f32) (main_arg16 : FVec F S10x10 .f32) (main_arg17 : FVec F S10 .f32) (main_arg18 : FVec F S10x1 .f32) (main_arg19 : FVec F S1 .f32) (main_v13 : IVec S_ 1) (main_v16 : IVec S8000000 1) : IVec S_ 1 :=
  let main_c_5 : IVec S_ 1 := constantI S_ 1 1#1
  let main_v17 : IVec S_ 1 := (fun x v => Host.reduce IntOp.andi x v reducesTo_S8000000_S_d0 h_S_) main_v16 main_c_5
  let main_v18 : IVec S_ 1 := andi main_v13 main_v17
  let main_v19 : FVec F S2x10 .f32 := Host.absf main_arg6
  let main_cst_6 : FVec F S_ .f32 := constant S_ .f32 0x7F800000#32
  let main_v20 : FVec F S2x10 .f32 := broadcastInDim S2x10 ![] bcast_S_S2x10 main_cst_6
  let main_v21 : IVec S2x10 1 := cmpf .olt main_v19 main_v20
  let main_c_7 : IVec S_ 1 := constantI S_ 1 1#1
  let main_v22 : IVec S_ 1 := (fun x v => Host.reduce IntOp.andi x v reducesTo_S2x10_S_d0_1 h_S_) main_v21 main_c_7
  let main_v23 : IVec S_ 1 := andi main_v18 main_v22
  let main_v24 : FVec F S10 .f32 := Host.absf main_arg7
  let main_cst_8 : FVec F S_ .f32 := constant S_ .f32 0x7F800000#32
  let main_v25 : FVec F S10 .f32 := broadcastInDim S10 ![] bcast_S_S10 main_cst_8
  let main_v26 : IVec S10 1 := cmpf .olt main_v24 main_v25
  let main_c_9 : IVec S_ 1 := constantI S_ 1 1#1
  let main_v27 : IVec S_ 1 := (fun x v => Host.reduce IntOp.andi x v reducesTo_S10_S_d0 h_S_) main_v26 main_c_9
  let main_v28 : IVec S_ 1 := andi main_v23 main_v27
  let main_v29 : FVec F S1x10 .f32 := Host.absf main_arg8
  let main_cst_10 : FVec F S_ .f32 := constant S_ .f32 0x7F800000#32
  let main_v30 : FVec F S1x10 .f32 := broadcastInDim S1x10 ![] bcast_S_S1x10 main_cst_10
  let main_v31 : IVec S1x10 1 := cmpf .olt main_v29 main_v30
  let main_c_11 : IVec S_ 1 := constantI S_ 1 1#1
  let main_v32 : IVec S_ 1 := (fun x v => Host.reduce IntOp.andi x v reducesTo_S1x10_S_d0_1 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_v33

def fn {F : FTy → Type} [FloatOps F] (main_arg0 : FVec F S1000000 .f32) (main_arg1 : FVec F S1000000 .f32) (main_arg2 : FVec F S500000 .f32) (main_arg3 : IVec S8000000 32) (main_arg4 : IVec S8000000 32) (main_arg5 : FVec F S8000000 .f32) (main_arg6 : FVec F S2x10 .f32) (main_arg7 : FVec F S10 .f32) (main_arg8 : FVec F S1x10 .f32) (main_arg9 : FVec F S10 .f32) (main_arg10 : FVec F S10x10 .f32) (main_arg11 : FVec F S10 .f32) (main_arg12 : FVec F S10x10 .f32) (main_arg13 : FVec F S10 .f32) (main_arg14 : FVec F S10x10 .f32) (main_arg15 : FVec F S10 .f32) (main_arg16 : FVec F S10x10 .f32) (main_arg17 : FVec F S10 .f32) (main_arg18 : FVec F S10x1 .f32) (main_arg19 : FVec F S1 .f32) : IVec S_ 1 :=
  let main_v0 : FVec F S1000000 .f32 := Host.absf main_arg0
  let main_cst : FVec F S_ .f32 := constant S_ .f32 0x7F800000#32
  let main_v1 : FVec F S1000000 .f32 := broadcastInDim S1000000 ![] bcast_S_S1000000 main_cst
  let main_v2 : IVec S1000000 1 := cmpf .olt main_v0 main_v1
  let main_c : IVec S_ 1 := constantI S_ 1 1#1
  let main_v3 : IVec S_ 1 := (fun x v => Host.reduce IntOp.andi x v reducesTo_S1000000_S_d0 h_S_) main_v2 main_c
  let main_v4 : FVec F S1000000 .f32 := Host.absf main_arg1
  let main_cst_0 : FVec F S_ .f32 := constant S_ .f32 0x7F800000#32
  let main_v5 : FVec F S1000000 .f32 := broadcastInDim S1000000 ![] bcast_S_S1000000 main_cst_0
  let main_v6 : IVec S1000000 1 := cmpf .olt main_v4 main_v5
  let main_c_1 : IVec S_ 1 := constantI S_ 1 1#1
  let main_v7 : IVec S_ 1 := (fun x v => Host.reduce IntOp.andi x v reducesTo_S1000000_S_d0 h_S_) main_v6 main_c_1
  let main_v8 : IVec S_ 1 := andi main_v3 main_v7
  let main_v9 : FVec F S500000 .f32 := Host.absf main_arg2
  let main_cst_2 : FVec F S_ .f32 := constant S_ .f32 0x7F800000#32
  let main_v10 : FVec F S500000 .f32 := broadcastInDim S500000 ![] bcast_S_S500000 main_cst_2
  let main_v11 : IVec S500000 1 := cmpf .olt main_v9 main_v10
  let main_c_3 : IVec S_ 1 := constantI S_ 1 1#1
  let main_v12 : IVec S_ 1 := (fun x v => Host.reduce IntOp.andi x v reducesTo_S500000_S_d0 h_S_) main_v11 main_c_3
  let main_v13 : IVec S_ 1 := andi main_v8 main_v12
  let main_v14 : FVec F S8000000 .f32 := Host.absf main_arg5
  let main_cst_4 : FVec F S_ .f32 := constant S_ .f32 0x7F800000#32
  let main_v15 : FVec F S8000000 .f32 := broadcastInDim S8000000 ![] bcast_S_S8000000 main_cst_4
  let main_v16 : IVec S8000000 1 := cmpf .olt main_v14 main_v15
  fn_part1 (F := F) main_arg6 main_arg7 main_arg8 main_arg9 main_arg10 main_arg11 main_arg12 main_arg13 main_arg14 main_arg15 main_arg16 main_arg17 main_arg18 main_arg19 main_v13 main_v16
-- ==== Kernel.lean ====
abbrev S1000000 : Shape := ⟨1, ![1000000]⟩
abbrev S500000 : Shape := ⟨1, ![500000]⟩
abbrev S8000000 : Shape := ⟨1, ![8000000]⟩
abbrev S2x10 : Shape := ⟨2, ![2, 10]⟩
abbrev S10 : Shape := ⟨1, ![10]⟩
abbrev S1x10 : Shape := ⟨2, ![1, 10]⟩
abbrev S10x10 : Shape := ⟨2, ![10, 10]⟩
abbrev S10x1 : Shape := ⟨2, ![10, 1]⟩
abbrev S1 : Shape := ⟨1, ![1]⟩
abbrev S_ : Shape := ⟨0, ![]⟩
abbrev S8000000x1 : Shape := ⟨2, ![8000000, 1]⟩
abbrev S1000000x1 : Shape := ⟨2, ![1000000, 1]⟩
abbrev S500000x1 : Shape := ⟨2, ![500000, 1]⟩
abbrev S1000000x10 : Shape := ⟨2, ![1000000, 10]⟩
abbrev S4000x1 : Shape := ⟨2, ![4000, 1]⟩
abbrev S4000x10 : Shape := ⟨2, ![4000, 10]⟩
abbrev S8000000x10 : Shape := ⟨2, ![8000000, 10]⟩
abbrev S500000x10 : Shape := ⟨2, ![500000, 10]⟩
abbrev S1x1 : Shape := ⟨2, ![1, 1]⟩

abbrev nBuf : Space → Nat
  | .hbm => 81
  | .vmem => 31
  | .smem => 0
  | _ => 0

abbrev bufTy : (tb : Table) → Fin (tcTables nBuf tb) → BufTy
  | .hbm, ⟨0, _⟩ => ⟨S1000000, .f32⟩
  | .hbm, ⟨1, _⟩ => ⟨S1000000, .f32⟩
  | .hbm, ⟨2, _⟩ => ⟨S500000, .f32⟩
  | .hbm, ⟨3, _⟩ => ⟨S8000000, .i32⟩
  | .hbm, ⟨4, _⟩ => ⟨S8000000, .i32⟩
  | .hbm, ⟨5, _⟩ => ⟨S8000000, .f32⟩
  | .hbm, ⟨6, _⟩ => ⟨S2x10, .f32⟩
  | .hbm, ⟨7, _⟩ => ⟨S10, .f32⟩
  | .hbm, ⟨8, _⟩ => ⟨S1x10, .f32⟩
  | .hbm, ⟨9, _⟩ => ⟨S10, .f32⟩
  | .hbm, ⟨10, _⟩ => ⟨S10x10, .f32⟩
  | .hbm, ⟨11, _⟩ => ⟨S10, .f32⟩
  | .hbm, ⟨12, _⟩ => ⟨S10x10, .f32⟩
  | .hbm, ⟨13, _⟩ => ⟨S10, .f32⟩
  | .hbm, ⟨14, _⟩ => ⟨S10x10, .f32⟩
  | .hbm, ⟨15, _⟩ => ⟨S10, .f32⟩
  | .hbm, ⟨16, _⟩ => ⟨S10x10, .f32⟩
  | .hbm, ⟨17, _⟩ => ⟨S10, .f32⟩
  | .hbm, ⟨18, _⟩ => ⟨S10x1, .f32⟩
  | .hbm, ⟨19, _⟩ => ⟨S1, .f32⟩
  | .hbm, ⟨20, _⟩ => ⟨S_, .f32⟩
  | .hbm, ⟨21, _⟩ => ⟨S8000000, .f32⟩
  | .hbm, ⟨22, _⟩ => ⟨S_, .f32⟩
  | .hbm, ⟨23, _⟩ => ⟨S1000000, .f32⟩
  | .hbm, ⟨24, _⟩ => ⟨S8000000x1, .i32⟩
  | .hbm, ⟨25, _⟩ => ⟨S1000000, .f32⟩
  | .hbm, ⟨26, _⟩ => ⟨S_, .f32⟩
  | .hbm, ⟨27, _⟩ => ⟨S1000000, .f32⟩
  | .hbm, ⟨28, _⟩ => ⟨S1000000, .f32⟩
  | .hbm, ⟨29, _⟩ => ⟨S_, .f32⟩
  | .hbm, ⟨30, _⟩ => ⟨S500000, .f32⟩
  | .hbm, ⟨31, _⟩ => ⟨S8000000x1, .i32⟩
  | .hbm, ⟨32, _⟩ => ⟨S500000, .f32⟩
  | .hbm, ⟨33, _⟩ => ⟨S_, .f32⟩
  | .hbm, ⟨34, _⟩ => ⟨S500000, .f32⟩
  | .hbm, ⟨35, _⟩ => ⟨S500000, .f32⟩
  | .hbm, ⟨36, _⟩ => ⟨S1000000x1, .f32⟩
  | .hbm, ⟨37, _⟩ => ⟨S1000000x1, .f32⟩
  | .hbm, ⟨38, _⟩ => ⟨S1000000x1, .f32⟩
  | .hbm, ⟨39, _⟩ => ⟨S500000x1, .f32⟩
  | .hbm, ⟨40, _⟩ => ⟨S1x10, .f32⟩
  | .hbm, ⟨41, _⟩ => ⟨S1000000x10, .f32⟩
  | .hbm, ⟨42, _⟩ => ⟨S_, .i32⟩
  | .hbm, ⟨43, _⟩ => ⟨S8000000, .i32⟩
  | .hbm, ⟨44, _⟩ => ⟨S8000000, .i1⟩
  | .hbm, ⟨45, _⟩ => ⟨S_, .i32⟩
  | .hbm, ⟨46, _⟩ => ⟨S8000000, .i32⟩
  | .hbm, ⟨47, _⟩ => ⟨S8000000, .i32⟩
  | .hbm, ⟨48, _⟩ => ⟨S8000000, .i32⟩
  | .hbm, ⟨49, _⟩ => ⟨S8000000x1, .i32⟩
  | .hbm, ⟨50, _⟩ => ⟨S8000000x10, .f32⟩
  | .hbm, ⟨51, _⟩ => ⟨S8000000x1, .f32⟩
  | .hbm, ⟨52, _⟩ => ⟨S8000000x10, .f32⟩
  | .hbm, ⟨53, _⟩ => ⟨S8000000x10, .f32⟩
  | .hbm, ⟨54, _⟩ => ⟨S_, .f32⟩
  | .hbm, ⟨55, _⟩ => ⟨S500000x10, .f32⟩
  | .hbm, ⟨56, _⟩ => ⟨S8000000x1, .i32⟩
  | .hbm, ⟨57, _⟩ => ⟨S500000x10, .f32⟩
  | .hbm, ⟨58, _⟩ => ⟨S1x10, .f32⟩
  | .hbm, ⟨59, _⟩ => ⟨S500000x10, .f32⟩
  | .hbm, ⟨60, _⟩ => ⟨S_, .i32⟩
  | .hbm, ⟨61, _⟩ => ⟨S8000000, .i32⟩
  | .hbm, ⟨62, _⟩ => ⟨S8000000, .i1⟩
  | .hbm, ⟨63, _⟩ => ⟨S_, .i32⟩
  | .hbm, ⟨64, _⟩ => ⟨S8000000, .i32⟩
  | .hbm, ⟨65, _⟩ => ⟨S8000000, .i32⟩
  | .hbm, ⟨66, _⟩ => ⟨S8000000, .i32⟩
  | .hbm, ⟨67, _⟩ => ⟨S8000000x1, .i32⟩
  | .hbm, ⟨68, _⟩ => ⟨S8000000x10, .f32⟩
  | .hbm, ⟨69, _⟩ => ⟨S8000000x1, .f32⟩
  | .hbm, ⟨70, _⟩ => ⟨S8000000x10, .f32⟩
  | .hbm, ⟨71, _⟩ => ⟨S8000000x10, .f32⟩
  | .hbm, ⟨72, _⟩ => ⟨S_, .f32⟩
  | .hbm, ⟨73, _⟩ => ⟨S1000000x10, .f32⟩
  | .hbm, ⟨74, _⟩ => ⟨S8000000x1, .i32⟩
  | .hbm, ⟨75, _⟩ => ⟨S1000000x10, .f32⟩
  | .hbm, ⟨76, _⟩ => ⟨S1x10, .f32⟩
  | .hbm, ⟨77, _⟩ => ⟨S1x10, .f32⟩
  | .hbm, ⟨78, _⟩ => ⟨S1x10, .f32⟩
  | .hbm, ⟨79, _⟩ => ⟨S1x1, .f32⟩
  | .hbm, ⟨80, _⟩ => ⟨S1x1, .f32⟩
  | .local _ .vmem, ⟨0, _⟩ => ⟨S4000x1, .f32⟩
  | .local _ .vmem, ⟨1, _⟩ => ⟨S4000x1, .f32⟩
  | .local _ .vmem, ⟨2, _⟩ => ⟨S4000x1, .f32⟩
  | .local _ .vmem, ⟨3, _⟩ => ⟨S4000x1, .f32⟩
  | .local _ .vmem, ⟨4, _⟩ => ⟨S4000x1, .f32⟩
  | .local _ .vmem, ⟨5, _⟩ => ⟨S4000x1, .f32⟩
  | .local _ .vmem, ⟨6, _⟩ => ⟨S2x10, .f32⟩
  | .local _ .vmem, ⟨7, _⟩ => ⟨S1x10, .f32⟩
  | .local _ .vmem, ⟨8, _⟩ => ⟨S4000x10, .f32⟩
  | .local _ .vmem, ⟨9, _⟩ => ⟨S4000x10, .f32⟩
  | .local _ .vmem, ⟨10, _⟩ => ⟨S4000x10, .f32⟩
  | .local _ .vmem, ⟨11, _⟩ => ⟨S4000x10, .f32⟩
  | .local _ .vmem, ⟨12, _⟩ => ⟨S4000x1, .f32⟩
  | .local _ .vmem, ⟨13, _⟩ => ⟨S4000x1, .f32⟩
  | .local _ .vmem, ⟨14, _⟩ => ⟨S10x10, .f32⟩
  | .local _ .vmem, ⟨15, _⟩ => ⟨S1x10, .f32⟩
  | .local _ .vmem, ⟨16, _⟩ => ⟨S4000x10, .f32⟩
  | .local _ .vmem, ⟨17, _⟩ => ⟨S4000x10, .f32⟩
  | .local _ .vmem, ⟨18, _⟩ => ⟨S4000x10, .f32⟩
  | .local _ .vmem, ⟨19, _⟩ => ⟨S4000x10, .f32⟩
  | .local _ .vmem, ⟨20, _⟩ => ⟨S4000x1, .f32⟩
  | .local _ .vmem, ⟨21, _⟩ => ⟨S4000x1, .f32⟩
  | .local _ .vmem, ⟨22, _⟩ => ⟨S10x10, .f32⟩
  | .local _ .vmem, ⟨23, _⟩ => ⟨S1x10, .f32⟩
  | .local _ .vmem, ⟨24, _⟩ => ⟨S10x10, .f32⟩
  | .local _ .vmem, ⟨25, _⟩ => ⟨S1x10, .f32⟩
  | .local _ .vmem, ⟨26, _⟩ => ⟨S10x10, .f32⟩
  | .local _ .vmem, ⟨27, _⟩ => ⟨S1x10, .f32⟩
  | .local _ .vmem, ⟨28, _⟩ => ⟨S10x1, .f32⟩
  | .local _ .vmem, ⟨29, _⟩ => ⟨S1x1, .f32⟩
  | .local _ .vmem, ⟨30, _⟩ => ⟨S1x1, .f32⟩
  | _, _ => ⟨S1000000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_cst : Ref sig .tc := ⟨.hbm, 20, rfl⟩
abbrev main_v0 : Ref sig .tc := ⟨.hbm, 21, rfl⟩
abbrev main_cst_0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_cst_1 : Ref sig .tc := ⟨.hbm, 26, rfl⟩
abbrev main_v4 : Ref sig .tc := ⟨.hbm, 27, rfl⟩
abbrev main_v5 : Ref sig .tc := ⟨.hbm, 28, rfl⟩
abbrev main_cst_2 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_cst_3 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_c : Ref sig .tc := ⟨.hbm, 42, rfl⟩
abbrev main_v17 : Ref sig .tc := ⟨.hbm, 43, rfl⟩
abbrev main_v18 : Ref sig .tc := ⟨.hbm, 44, rfl⟩
abbrev main_c_4 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_cst_5 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_c_6 : Ref sig .tc := ⟨.hbm, 60, rfl⟩
abbrev main_v32 : Ref sig .tc := ⟨.hbm, 61, rfl⟩
abbrev main_v33 : Ref sig .tc := ⟨.hbm, 62, rfl⟩
abbrev main_c_7 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_cst_8 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg7_0 : Ref sig .tc := ⟨.vmem, 27, rfl⟩
abbrev cc2_stg8_0 : Ref sig .tc := ⟨.vmem, 28, rfl⟩
abbrev cc2_stg9_0 : Ref sig .tc := ⟨.vmem, 29, rfl⟩
abbrev cc2_stg10_0 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem4_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem7_0 : DmaSem sig := 27
abbrev cc2_sem8_0 : DmaSem sig := 28
abbrev cc2_sem9_0 : DmaSem sig := 29
abbrev cc2_sem10_0 : DmaSem sig := 30

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2x10 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x10 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x10 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![125], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x10 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S10x10 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x10 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4000x10 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![250], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S4000x10 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S10x10 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x10 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S10x10 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x10 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S10x10 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x10 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S10x1 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x1 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1x1 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

class Facts₀ : Prop where
  bcast_S_S8000000 : S_.BroadcastsInDim S8000000 (![] : Fin 0 → Fin S8000000.rank)
  bcast_S_S1000000 : S_.BroadcastsInDim S1000000 (![] : Fin 0 → Fin S1000000.rank)
  bcast_S8000000_S8000000x1_0 : S8000000.BroadcastsInDim S8000000x1 (![0] : Fin 1 → Fin S8000000x1.rank)
  bcast_S_S500000 : S_.BroadcastsInDim S500000 (![] : Fin 0 → Fin S500000.rank)
  shapeCasts_S1000000_S1000000x1 : S1000000.ShapeCasts S1000000x1
  shapeCasts_S500000_S500000x1 : S500000.ShapeCasts S500000x1
  shapeCasts_S10_S1x10 : S10.ShapeCasts S1x10
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  inb_S2x10_S2x10_0_0 : ∀ a, (![0, 0] : Fin 2 → Nat) a + S2x10.size a ≤ S2x10.size a
  h_S2x10 : 0 < S2x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  slices_S2x10_o0_0_S1x10 : S2x10.Slices ![0, 0] S1x10
  broadcasts_S4000x1_S4000x10 : S4000x1.Broadcasts S4000x10
  broadcasts_S1x10_S4000x10 : S1x10.Broadcasts S4000x10
  slices_S2x10_o1_0_S1x10 : S2x10.Slices ![1, 0] S1x10
  inb_S4000x10_S4000x10_0_0 : ∀ a, (![0, 0] : Fin 2 → Nat) a + S4000x10.size a ≤ S4000x10.size a
  h_S4000x10 : 0 < S4000x10.numel
  bcast_S8000000x1_S8000000x10_0_1 : S8000000x1.BroadcastsInDim S8000000x10 (![0, 1] : Fin 2 → Fin S8000000x10.rank)
  bcast_S_S500000x10 : S_.BroadcastsInDim S500000x10 (![] : Fin 0 → Fin S500000x10.rank)
  shapeCasts_S4000x10_S4000x10 : S4000x10.ShapeCasts S4000x10
  inb_S10x10_S10x10_0_0 : ∀ a, (![0, 0] : Fin 2 → Nat) a + S10x10.size a ≤ S10x10.size a
  h_S10x10 : 0 < S10x10.numel
  bcast_S_S1000000x10 : S_.BroadcastsInDim S1000000x10 (![] : Fin 0 → Fin S1000000x10.rank)
  shapeCasts_S1_S1x1 : S1.ShapeCasts S1x1
  inb_S1x1_S1x1_0_0 : ∀ a, (![0, 0] : Fin 2 → Nat) a + S1x1.size a ≤ S1x1.size a
  h_S1x1 : 0 < S1x1.numel
  inb_S10x1_S10x1_0_0 : ∀ a, (![0, 0] : Fin 2 → Nat) a + S10x1.size a ≤ S10x1.size a
  h_S10x1 : 0 < S10x1.numel
  shapeCasts_S1x1_S1x1 : S1x1.ShapeCasts S1x1
  broadcasts_S1x1_S4000x1 : S1x1.Broadcasts S4000x1
  reduces_S4000x1_S1 : S4000x1.Reduces [0] S1
  scatter_S1000000_S8000000x1_S8000000_n_0_0_1_wf : ScatterDims.WF S1000000 S8000000x1 S8000000 [] [0] [0] 1
  scatter_S500000_S8000000x1_S8000000_n_0_0_1_wf : ScatterDims.WF S500000 S8000000x1 S8000000 [] [0] [0] 1
  gather_S1000000x10_S8000000x1_S8000000x10_1_0_n_n_0_1_110_wf : GatherDims.WF S1000000x10 S8000000x1 S8000000x10 [1] [0] [] [0] [] 1 ![1, 10]
  scatter_S500000x10_S8000000x1_S8000000x10_1_0_0_1_wf : ScatterDims.WF S500000x10 S8000000x1 S8000000x10 [1] [0] [0] 1
  dot_S4000x10_S10x10_S4000x10_1_0_0_1_n_n_wf : DotDims.WF S4000x10 S10x10 S4000x10 [1] [0] [0] [1] [] []
  gather_S500000x10_S8000000x1_S8000000x10_1_0_n_n_0_1_110_wf : GatherDims.WF S500000x10 S8000000x1 S8000000x10 [1] [0] [] [0] [] 1 ![1, 10]
  scatter_S1000000x10_S8000000x1_S8000000x10_1_0_0_1_wf : ScatterDims.WF S1000000x10 S8000000x1 S8000000x10 [1] [0] [0] 1
  dot_S4000x10_S10x1_S4000x1_1_0_0_1_n_n_wf : DotDims.WF S4000x10 S10x1 S4000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x1.size a ≤ S1000000x1.size a
  hwx0_0 : ∀ i : grid0.Coords, EltTy.bits .f32 = 32 ∨ (Rect.block (s := S1000000x1) S4000x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x1.size a ≤ S1000000x1.size a
  hwx0_1 : ∀ i : grid0.Coords, EltTy.bits .f32 = 32 ∨ (Rect.block (s := S1000000x1) S4000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S1000000x1.size a
  hwx0_2 : ∀ i : grid0.Coords, EltTy.bits .f32 = 32 ∨ (Rect.block (s := S1000000x1) S4000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2x10.size a ≤ S2x10.size a
  hwx0_3 : ∀ i : grid0.Coords, EltTy.bits .f32 = 32 ∨ (Rect.block (s := S2x10) S2x10.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x10.size a ≤ S1x10.size a
  hwx0_4 : ∀ i : grid0.Coords, EltTy.bits .f32 = 32 ∨ (Rect.block (s := S1x10) S1x10.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x10.size a ≤ S1000000x10.size a
  hwx0_5 : ∀ i : grid0.Coords, EltTy.bits .f32 = 32 ∨ (Rect.block (s := S1000000x10) S4000x10.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x10.size a ≤ S500000x10.size a
  hwx1_0 : ∀ i : grid1.Coords, EltTy.bits .f32 = 32 ∨ (Rect.block (s := S500000x10) S4000x10.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x1.size a ≤ S500000x1.size a
  hwx1_1 : ∀ i : grid1.Coords, EltTy.bits .f32 = 32 ∨ (Rect.block (s := S500000x1) S4000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S10x10.size a ≤ S10x10.size a
  hwx1_2 : ∀ i : grid1.Coords, EltTy.bits .f32 = 32 ∨ (Rect.block (s := S10x10) S10x10.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x10.size a ≤ S1x10.size a
  hwx1_3 : ∀ i : grid1.Coords, EltTy.bits .f32 = 32 ∨ (Rect.block (s := S1x10) S1x10.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x10.size a ≤ S500000x10.size a
  hwx1_4 : ∀ i : grid1.Coords, EltTy.bits .f32 = 32 ∨ (Rect.block (s := S500000x10) S4000x10.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x10.size a ≤ S1000000x10.size a
  hwx2_0 : ∀ i : grid2.Coords, EltTy.bits .f32 = 32 ∨ (Rect.block (s := S1000000x10) S4000x10.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x1.size a ≤ S1000000x1.size a
  hwx2_1 : ∀ i : grid2.Coords, EltTy.bits .f32 = 32 ∨ (Rect.block (s := S1000000x1) S4000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S10x10.size a ≤ S10x10.size a
  hwx2_2 : ∀ i : grid2.Coords, EltTy.bits .f32 = 32 ∨ (Rect.block (s := S10x10) S10x10.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x10.size a ≤ S1x10.size a
  hwx2_3 : ∀ i : grid2.Coords, EltTy.bits .f32 = 32 ∨ (Rect.block (s := S1x10) S1x10.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S10x10.size a ≤ S10x10.size a
  hwx2_4 : ∀ i : grid2.Coords, EltTy.bits .f32 = 32 ∨ (Rect.block (s := S10x10) S10x10.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x10.size a ≤ S1x10.size a
  hwx2_5 : ∀ i : grid2.Coords, EltTy.bits .f32 = 32 ∨ (Rect.block (s := S1x10) S1x10.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S10x10.size a ≤ S10x10.size a
  hwx2_6 : ∀ i : grid2.Coords, EltTy.bits .f32 = 32 ∨ (Rect.block (s := S10x10) S10x10.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x10.size a ≤ S1x10.size a
  hwx2_7 : ∀ i : grid2.Coords, EltTy.bits .f32 = 32 ∨ (Rect.block (s := S1x10) S1x10.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S10x1.size a ≤ S10x1.size a
  hwx2_8 : ∀ i : grid2.Coords, EltTy.bits .f32 = 32 ∨ (Rect.block (s := S10x1) S10x1.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x1.size a ≤ S1x1.size a
  hwx2_9 : ∀ i : grid2.Coords, EltTy.bits .f32 = 32 ∨ (Rect.block (s := S1x1) S1x1.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S1x1.size a ≤ S1x1.size a
  hwx2_10 : ∀ i : grid2.Coords, EltTy.bits .f32 = 32 ∨ (Rect.block (s := S1x1) S1x1.size (cc2_transform_10 i) (hinb2_10 i)).WholeWords (EltTy.packing .f32)

variable [Facts₀]

def scatter_S1000000_S8000000x1_S8000000_n_0_0_1 : ScatterDims S1000000 S8000000x1 S8000000 where
  updateWindowDims := []
  insertedWindowDims := [0]
  scatterDimsToOperandDims := [0]
  indexVectorDim := 1
  wf := scatter_S1000000_S8000000x1_S8000000_n_0_0_1_wf
def scatter_S500000_S8000000x1_S8000000_n_0_0_1 : ScatterDims S500000 S8000000x1 S8000000 where
  updateWindowDims := []
  insertedWindowDims := [0]
  scatterDimsToOperandDims := [0]
  indexVectorDim := 1
  wf := scatter_S500000_S8000000x1_S8000000_n_0_0_1_wf
def gather_S1000000x10_S8000000x1_S8000000x10_1_0_n_n_0_1_110 : GatherDims S1000000x10 S8000000x1 S8000000x10 where
  offsetDims := [1]
  collapsedSliceDims := [0]
  operandBatchingDims := []
  startIndicesBatchingDims := []
  startIndexMap := [0]
  indexVectorDim := 1
  sliceSizes := ![1, 10]
  wf := gather_S1000000x10_S8000000x1_S8000000x10_1_0_n_n_0_1_110_wf
def scatter_S500000x10_S8000000x1_S8000000x10_1_0_0_1 : ScatterDims S500000x10 S8000000x1 S8000000x10 where
  updateWindowDims := [1]
  insertedWindowDims := [0]
  scatterDimsToOperandDims := [0]
  indexVectorDim := 1
  wf := scatter_S500000x10_S8000000x1_S8000000x10_1_0_0_1_wf
def dot_S4000x10_S10x10_S4000x10_1_0_0_1_n_n : DotDims S4000x10 S10x10 S4000x10 where
  lhsContracting := [1]
  rhsContracting := [0]
  lhsNonContracting := [0]
  rhsNonContracting := [1]
  lhsBatch := []
  rhsBatch := []
  wf := dot_S4000x10_S10x10_S4000x10_1_0_0_1_n_n_wf
def gather_S500000x10_S8000000x1_S8000000x10_1_0_n_n_0_1_110 : GatherDims S500000x10 S8000000x1 S8000000x10 where
  offsetDims := [1]
  collapsedSliceDims := [0]
  operandBatchingDims := []
  startIndicesBatchingDims := []
  startIndexMap := [0]
  indexVectorDim := 1
  sliceSizes := ![1, 10]
  wf := gather_S500000x10_S8000000x1_S8000000x10_1_0_n_n_0_1_110_wf
def scatter_S1000000x10_S8000000x1_S8000000x10_1_0_0_1 : ScatterDims S1000000x10 S8000000x1 S8000000x10 where
  updateWindowDims := [1]
  insertedWindowDims := [0]
  scatterDimsToOperandDims := [0]
  indexVectorDim := 1
  wf := scatter_S1000000x10_S8000000x1_S8000000x10_1_0_0_1_wf
def dot_S4000x10_S10x1_S4000x1_1_0_0_1_n_n : DotDims S4000x10 S10x1 S4000x1 where
  lhsContracting := [1]
  rhsContracting := [0]
  lhsNonContracting := [0]
  rhsNonContracting := [1]
  lhsBatch := []
  rhsBatch := []
  wf := dot_S4000x10_S10x1_S4000x1_1_0_0_1_n_n_wf

abbrev win0_0 : Pipeline.Window sig grid0 :=
  Pipeline.Window.ofSpec (Memref.whole main_v11) S4000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S4000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S2x10.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S1x10.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16) S4000x10.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v29) S4000x10.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S4000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg12) S10x10.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v30) S1x10.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v31) S4000x10.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v44) S4000x10.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v13) S4000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg12) S10x10.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v45) S1x10.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg14) S10x10.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v46) S1x10.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg16) S10x10.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v47) S1x10.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_arg18) S10x1.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v48) S1x1.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v49) S1x1.size cc2_transform_10 reads2_10 true true 1 stage2_10 sem2_10
    hrank2 hreads2_10 hinb2_10 nbuf2_10 (Memref.isWhole_whole _) hwx2_10 hstage2_10

abbrev win2 : Fin 11 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | ⟨_ + 11, h⟩ => absurd h (Nat.not_lt.2 (Nat.le_add_left _ _))
abbrev spec2 : Fin 11 → Pipeline.WinSpec sig grid2.rank := fun w => (win2 w).toWinSpec

class Facts : Prop extends Facts₀ where

variable [Facts]
-- ==== ReferenceIdeal.lean ====
abbrev S1000000 : Shape := ⟨1, ![1000000]⟩
abbrev S500000 : Shape := ⟨1, ![500000]⟩
abbrev S8000000 : Shape := ⟨1, ![8000000]⟩
abbrev S2x10 : Shape := ⟨2, ![2, 10]⟩
abbrev S10 : Shape := ⟨1, ![10]⟩
abbrev S1x10 : Shape := ⟨2, ![1, 10]⟩
abbrev S10x10 : Shape := ⟨2, ![10, 10]⟩
abbrev S10x1 : Shape := ⟨2, ![10, 1]⟩
abbrev S1 : Shape := ⟨1, ![1]⟩
abbrev S1000000x1 : Shape := ⟨2, ![1000000, 1]⟩
abbrev S1000000x2 : Shape := ⟨2, ![1000000, 2]⟩
abbrev S500000x1 : Shape := ⟨2, ![500000, 1]⟩
abbrev S1000000x10 : Shape := ⟨2, ![1000000, 10]⟩
abbrev S_ : Shape := ⟨0, ![]⟩
abbrev S500000x10 : Shape := ⟨2, ![500000, 10]⟩
abbrev S8000000x1 : Shape := ⟨2, ![8000000, 1]⟩
abbrev S8000000x10 : Shape := ⟨2, ![8000000, 10]⟩
abbrev S1x1 : Shape := ⟨2, ![1, 1]⟩

abbrev nBuf : Space → Nat
  | .hbm => 140
  | .vmem => 0
  | .smem => 0
  | _ => 0

abbrev hbmTy0_0 (i : Nat) : BufTy := match i % 128 with
  | 0 => ⟨S1000000, .f32⟩
  | 1 => ⟨S1000000, .f32⟩
  | 2 => ⟨S500000, .f32⟩
  | 3 => ⟨S8000000, .i32⟩
  | 4 => ⟨S8000000, .i32⟩
  | 5 => ⟨S8000000, .f32⟩
  | 6 => ⟨S2x10, .f32⟩
  | 7 => ⟨S10, .f32⟩
  | 8 => ⟨S1x10, .f32⟩
  | 9 => ⟨S10, .f32⟩
  | 10 => ⟨S10x10, .f32⟩
  | 11 => ⟨S10, .f32⟩
  | 12 => ⟨S10x10, .f32⟩
  | 13 => ⟨S10, .f32⟩
  | 14 => ⟨S10x10, .f32⟩
  | 15 => ⟨S10, .f32⟩
  | 16 => ⟨S10x10, .f32⟩
  | 17 => ⟨S10, .f32⟩
  | 18 => ⟨S10x1, .f32⟩
  | 19 => ⟨S1, .f32⟩
  | 20 => ⟨S1000000x1, .f32⟩
  | 21 => ⟨S1000000x1, .f32⟩
  | 22 => ⟨S1000000x2, .f32⟩
  | 23 => ⟨S500000x1, .f32⟩
  | 24 => ⟨S1000000x10, .f32⟩
  | 25 => ⟨S1x10, .f32⟩
  | 26 => ⟨S1000000x10, .f32⟩
  | 27 => ⟨S1000000x10, .f32⟩
  | 28 => ⟨S_, .f32⟩
  | 29 => ⟨S1000000x10, .f32⟩
  | 30 => ⟨S1000000x10, .f32⟩
  | 31 => ⟨S500000x10, .f32⟩
  | 32 => ⟨S1x10, .f32⟩
  | 33 => ⟨S500000x10, .f32⟩
  | 34 => ⟨S500000x10, .f32⟩
  | 35 => ⟨S_, .f32⟩
  | 36 => ⟨S500000x10, .f32⟩
  | 37 => ⟨S500000x10, .f32⟩
  | 38 => ⟨S_, .f32⟩
  | 39 => ⟨S8000000, .f32⟩
  | 40 => ⟨S_, .f32⟩
  | 41 => ⟨S1000000, .f32⟩
  | 42 => ⟨S8000000x1, .i32⟩
  | 43 => ⟨S1000000, .f32⟩
  | 44 => ⟨S_, .f32⟩
  | 45 => ⟨S1000000, .f32⟩
  | 46 => ⟨S1000000, .f32⟩
  | 47 => ⟨S_, .f32⟩
  | 48 => ⟨S500000, .f32⟩
  | 49 => ⟨S8000000x1, .i32⟩
  | 50 => ⟨S500000, .f32⟩
  | 51 => ⟨S_, .f32⟩
  | 52 => ⟨S500000, .f32⟩
  | 53 => ⟨S500000, .f32⟩
  | 54 => ⟨S1000000, .f32⟩
  | 55 => ⟨S1000000x1, .f32⟩
  | 56 => ⟨S1000000x10, .f32⟩
  | 57 => ⟨S1000000x10, .f32⟩
  | 58 => ⟨S_, .i32⟩
  | 59 => ⟨S8000000, .i32⟩
  | 60 => ⟨S8000000, .i1⟩
  | 61 => ⟨S_, .i32⟩
  | 62 => ⟨S8000000, .i32⟩
  | 63 => ⟨S8000000, .i32⟩
  | 64 => ⟨S8000000, .i32⟩
  | 65 => ⟨S8000000x1, .i32⟩
  | 66 => ⟨S8000000x10, .f32⟩
  | 67 => ⟨S8000000x1, .f32⟩
  | 68 => ⟨S8000000x10, .f32⟩
  | 69 => ⟨S8000000x10, .f32⟩
  | 70 => ⟨S_, .f32⟩
  | 71 => ⟨S500000x10, .f32⟩
  | 72 => ⟨S8000000x1, .i32⟩
  | 73 => ⟨S500000x10, .f32⟩
  | 74 => ⟨S500000, .f32⟩
  | 75 => ⟨S500000x1, .f32⟩
  | 76 => ⟨S500000x10, .f32⟩
  | 77 => ⟨S500000x10, .f32⟩
  | 78 => ⟨S500000x10, .f32⟩
  | 79 => ⟨S1x10, .f32⟩
  | 80 => ⟨S500000x10, .f32⟩
  | 81 => ⟨S500000x10, .f32⟩
  | 82 => ⟨S_, .f32⟩
  | 83 => ⟨S500000x10, .f32⟩
  | 84 => ⟨S500000x10, .f32⟩
  | 85 => ⟨S500000, .f32⟩
  | 86 => ⟨S500000x1, .f32⟩
  | 87 => ⟨S500000x10, .f32⟩
  | 88 => ⟨S500000x10, .f32⟩
  | 89 => ⟨S_, .i32⟩
  | 90 => ⟨S8000000, .i32⟩
  | 91 => ⟨S8000000, .i1⟩
  | 92 => ⟨S_, .i32⟩
  | 93 => ⟨S8000000, .i32⟩
  | 94 => ⟨S8000000, .i32⟩
  | 95 => ⟨S8000000, .i32⟩
  | 96 => ⟨S8000000x1, .i32⟩
  | 97 => ⟨S8000000x10, .f32⟩
  | 98 => ⟨S8000000x1, .f32⟩
  | 99 => ⟨S8000000x10, .f32⟩
  | 100 => ⟨S8000000x10, .f32⟩
  | 101 => ⟨S_, .f32⟩
  | 102 => ⟨S1000000x10, .f32⟩
  | 103 => ⟨S8000000x1, .i32⟩
  | 104 => ⟨S1000000x10, .f32⟩
  | 105 => ⟨S1000000, .f32⟩
  | 106 => ⟨S1000000x1, .f32⟩
  | 107 => ⟨S1000000x10, .f32⟩
  | 108 => ⟨S1000000x10, .f32⟩
  | 109 => ⟨S1000000x10, .f32⟩
  | 110 => ⟨S1x10, .f32⟩
  | 111 => ⟨S1000000x10, .f32⟩
  | 112 => ⟨S1000000x10, .f32⟩
  | 113 => ⟨S_, .f32⟩
  | 114 => ⟨S1000000x10, .f32⟩
  | 115 => ⟨S1000000x10, .f32⟩
  | 116 => ⟨S1000000x10, .f32⟩
  | 117 => ⟨S1x10, .f32⟩
  | 118 => ⟨S1000000x10, .f32⟩
  | 119 => ⟨S1000000x10, .f32⟩
  | 120 => ⟨S_, .f32⟩
  | 121 => ⟨S1000000x10, .f32⟩
  | 122 => ⟨S1000000x10, .f32⟩
  | 123 => ⟨S1000000x10, .f32⟩
  | 124 => ⟨S1x10, .f32⟩
  | 125 => ⟨S1000000x10, .f32⟩
  | 126 => ⟨S1000000x10, .f32⟩
  | 127 => ⟨S_, .f32⟩
  | _ => ⟨S1000000, .f32⟩

abbrev hbmTy0_1 (i : Nat) : BufTy := match i % 128 with
  | 0 => ⟨S1000000x10, .f32⟩
  | 1 => ⟨S1000000x10, .f32⟩
  | 2 => ⟨S1000000x1, .f32⟩
  | 3 => ⟨S1x1, .f32⟩
  | 4 => ⟨S1000000x1, .f32⟩
  | 5 => ⟨S1000000x1, .f32⟩
  | 6 => ⟨S_, .f32⟩
  | 7 => ⟨S1, .f32⟩
  | 8 => ⟨S1x1, .f32⟩
  | 9 => ⟨S_, .f32⟩
  | 10 => ⟨S1x1, .f32⟩
  | 11 => ⟨S1x1, .f32⟩
  | _ => ⟨S1000000, .f32⟩

abbrev hbmTy (i : Nat) : BufTy := match i / 128 with
  | 0 => hbmTy0_0 i
  | 1 => hbmTy0_1 i
  | _ => ⟨S1000000, .f32⟩

abbrev bufTy : (tb : Table) → Fin (tcTables nBuf tb) → BufTy
  | .hbm, ⟨i, _⟩ => hbmTy i
  | _, _ => ⟨S1000000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_call0_cst : Ref sig .tc := ⟨.hbm, 28, rfl⟩
abbrev main_call0_v0 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_call1_cst : Ref sig .tc := ⟨.hbm, 35, rfl⟩
abbrev main_call1_v0 : Ref sig .tc := ⟨.hbm, 36, rfl⟩
abbrev main_v13 : Ref sig .tc := ⟨.hbm, 37, rfl⟩
abbrev main_cst : Ref sig .tc := ⟨.hbm, 38, rfl⟩
abbrev main_v14 : Ref sig .tc := ⟨.hbm, 39, rfl⟩
abbrev main_cst_0 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_cst_1 : Ref sig .tc := ⟨.hbm, 44, rfl⟩
abbrev main_v18 : Ref sig .tc := ⟨.hbm, 45, rfl⟩
abbrev main_v19 : Ref sig .tc := ⟨.hbm, 46, rfl⟩
abbrev main_cst_2 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_cst_3 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_c : Ref sig .tc := ⟨.hbm, 58, rfl⟩
abbrev main_v29 : Ref sig .tc := ⟨.hbm, 59, rfl⟩
abbrev main_v30 : Ref sig .tc := ⟨.hbm, 60, rfl⟩
abbrev main_c_4 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_cst_5 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_call2_cst : Ref sig .tc := ⟨.hbm, 82, rfl⟩
abbrev main_call2_v0 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_c_6 : Ref sig .tc := ⟨.hbm, 89, rfl⟩
abbrev main_v55 : Ref sig .tc := ⟨.hbm, 90, rfl⟩
abbrev main_v56 : Ref sig .tc := ⟨.hbm, 91, rfl⟩
abbrev main_c_7 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_cst_8 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_call3_cst : Ref sig .tc := ⟨.hbm, 113, rfl⟩
abbrev main_call3_v0 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_call4_cst : Ref sig .tc := ⟨.hbm, 120, rfl⟩
abbrev main_call4_v0 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_call5_cst : Ref sig .tc := ⟨.hbm, 127, rfl⟩
abbrev main_call5_v0 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_cst_9 : Ref sig .tc := ⟨.hbm, 134, rfl⟩
abbrev main_v91 : Ref sig .tc := ⟨.hbm, 135, rfl⟩
abbrev main_v92 : Ref sig .tc := ⟨.hbm, 136, rfl⟩
abbrev main_cst_10 : Ref sig .tc := ⟨.hbm, 137, rfl⟩
abbrev main_v93 : Ref sig .tc := ⟨.hbm, 138, rfl⟩
abbrev main_v94 : Ref sig .tc := ⟨.hbm, 139, rfl⟩

abbrev nD : Nat := 1
abbrev τ : Topo := Topo.v7x

variable {F : FTy → Type} [FloatOps F]

class Facts₀ : Prop where
  bcast_S1000000_S1000000x1_0 : S1000000.BroadcastsInDim S1000000x1 (![0] : Fin 1 → Fin S1000000x1.rank)
  concatenates_S1000000x1_S1000000x1_S1000000x2_d1 : Shape.Concatenates [S1000000x1, S1000000x1] S1000000x2 1
  shapeCasts_S500000_S500000x1 : S500000.ShapeCasts S500000x1
  bcast_S10_S1x10_1 : S10.BroadcastsInDim S1x10 (![1] : Fin 1 → Fin S1x10.rank)
  bcast_S1x10_S1000000x10_0_1 : S1x10.BroadcastsInDim S1000000x10 (![0, 1] : Fin 2 → Fin S1000000x10.rank)
  bcast_S_S1000000x10 : S_.BroadcastsInDim S1000000x10 (![] : Fin 0 → Fin S1000000x10.rank)
  bcast_S1x10_S500000x10_0_1 : S1x10.BroadcastsInDim S500000x10 (![0, 1] : Fin 2 → Fin S500000x10.rank)
  bcast_S_S500000x10 : S_.BroadcastsInDim S500000x10 (![] : Fin 0 → Fin S500000x10.rank)
  bcast_S_S8000000 : S_.BroadcastsInDim S8000000 (![] : Fin 0 → Fin S8000000.rank)
  bcast_S_S1000000 : S_.BroadcastsInDim S1000000 (![] : Fin 0 → Fin S1000000.rank)
  bcast_S8000000_S8000000x1_0 : S8000000.BroadcastsInDim S8000000x1 (![0] : Fin 1 → Fin S8000000x1.rank)
  bcast_S_S500000 : S_.BroadcastsInDim S500000 (![] : Fin 0 → Fin S500000.rank)
  bcast_S1000000x1_S1000000x10_0_1 : S1000000x1.BroadcastsInDim S1000000x10 (![0, 1] : Fin 2 → Fin S1000000x10.rank)
  bcast_S8000000x1_S8000000x10_0_1 : S8000000x1.BroadcastsInDim S8000000x10 (![0, 1] : Fin 2 → Fin S8000000x10.rank)
  bcast_S500000_S500000x1_0 : S500000.BroadcastsInDim S500000x1 (![0] : Fin 1 → Fin S500000x1.rank)
  bcast_S500000x1_S500000x10_0_1 : S500000x1.BroadcastsInDim S500000x10 (![0, 1] : Fin 2 → Fin S500000x10.rank)
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  reducesTo_S1000000x1_S1_d0 : S1000000x1.ReducesTo [0] S1
  h_S_ : 0 < S_.numel
  bcast_S_S1x1 : S_.BroadcastsInDim S1x1 (![] : Fin 0 → Fin S1x1.rank)
  dot_S1000000x2_S2x10_S1000000x10_1_0_0_1_n_n_wf : DotDims.WF S1000000x2 S2x10 S1000000x10 [1] [0] [0] [1] [] []
  dot_S500000x1_S1x10_S500000x10_1_0_0_1_n_n_wf : DotDims.WF S500000x1 S1x10 S500000x10 [1] [0] [0] [1] [] []
  scatter_S1000000_S8000000x1_S8000000_n_0_0_1_wf : ScatterDims.WF S1000000 S8000000x1 S8000000 [] [0] [0] 1
  scatter_S500000_S8000000x1_S8000000_n_0_0_1_wf : ScatterDims.WF S500000 S8000000x1 S8000000 [] [0] [0] 1
  gather_S1000000x10_S8000000x1_S8000000x10_1_0_n_n_0_1_110_wf : GatherDims.WF S1000000x10 S8000000x1 S8000000x10 [1] [0] [] [0] [] 1 ![1, 10]
  scatter_S500000x10_S8000000x1_S8000000x10_1_0_0_1_wf : ScatterDims.WF S500000x10 S8000000x1 S8000000x10 [1] [0] [0] 1
  dot_S500000x10_S10x10_S500000x10_1_0_0_1_n_n_wf : DotDims.WF S500000x10 S10x10 S500000x10 [1] [0] [0] [1] [] []
  gather_S500000x10_S8000000x1_S8000000x10_1_0_n_n_0_1_110_wf : GatherDims.WF S500000x10 S8000000x1 S8000000x10 [1] [0] [] [0] [] 1 ![1, 10]
  scatter_S1000000x10_S8000000x1_S8000000x10_1_0_0_1_wf : ScatterDims.WF S1000000x10 S8000000x1 S8000000x10 [1] [0] [0] 1
  dot_S1000000x10_S10x10_S1000000x10_1_0_0_1_n_n_wf : DotDims.WF S1000000x10 S10x10 S1000000x10 [1] [0] [0] [1] [] []
  dot_S1000000x10_S10x1_S1000000x1_1_0_0_1_n_n_wf : DotDims.WF S1000000x10 S10x1 S1000000x1 [1] [0] [0] [1] [] []

variable [Facts₀]

def dot_S1000000x2_S2x10_S1000000x10_1_0_0_1_n_n : DotDims S1000000x2 S2x10 S1000000x10 where
  lhsContracting := [1]
  rhsContracting := [0]
  lhsNonContracting := [0]
  rhsNonContracting := [1]
  lhsBatch := []
  rhsBatch := []
  wf := dot_S1000000x2_S2x10_S1000000x10_1_0_0_1_n_n_wf
def dot_S500000x1_S1x10_S500000x10_1_0_0_1_n_n : DotDims S500000x1 S1x10 S500000x10 where
  lhsContracting := [1]
  rhsContracting := [0]
  lhsNonContracting := [0]
  rhsNonContracting := [1]
  lhsBatch := []
  rhsBatch := []
  wf := dot_S500000x1_S1x10_S500000x10_1_0_0_1_n_n_wf
def scatter_S1000000_S8000000x1_S8000000_n_0_0_1 : ScatterDims S1000000 S8000000x1 S8000000 where
  updateWindowDims := []
  insertedWindowDims := [0]
  scatterDimsToOperandDims := [0]
  indexVectorDim := 1
  wf := scatter_S1000000_S8000000x1_S8000000_n_0_0_1_wf
def scatter_S500000_S8000000x1_S8000000_n_0_0_1 : ScatterDims S500000 S8000000x1 S8000000 where
  updateWindowDims := []
  insertedWindowDims := [0]
  scatterDimsToOperandDims := [0]
  indexVectorDim := 1
  wf := scatter_S500000_S8000000x1_S8000000_n_0_0_1_wf
def gather_S1000000x10_S8000000x1_S8000000x10_1_0_n_n_0_1_110 : GatherDims S1000000x10 S8000000x1 S8000000x10 where
  offsetDims := [1]
  collapsedSliceDims := [0]
  operandBatchingDims := []
  startIndicesBatchingDims := []
  startIndexMap := [0]
  indexVectorDim := 1
  sliceSizes := ![1, 10]
  wf := gather_S1000000x10_S8000000x1_S8000000x10_1_0_n_n_0_1_110_wf
def scatter_S500000x10_S8000000x1_S8000000x10_1_0_0_1 : ScatterDims S500000x10 S8000000x1 S8000000x10 where
  updateWindowDims := [1]
  insertedWindowDims := [0]
  scatterDimsToOperandDims := [0]
  indexVectorDim := 1
  wf := scatter_S500000x10_S8000000x1_S8000000x10_1_0_0_1_wf
def dot_S500000x10_S10x10_S500000x10_1_0_0_1_n_n : DotDims S500000x10 S10x10 S500000x10 where
  lhsContracting := [1]
  rhsContracting := [0]
  lhsNonContracting := [0]
  rhsNonContracting := [1]
  lhsBatch := []
  rhsBatch := []
  wf := dot_S500000x10_S10x10_S500000x10_1_0_0_1_n_n_wf
def gather_S500000x10_S8000000x1_S8000000x10_1_0_n_n_0_1_110 : GatherDims S500000x10 S8000000x1 S8000000x10 where
  offsetDims := [1]
  collapsedSliceDims := [0]
  operandBatchingDims := []
  startIndicesBatchingDims := []
  startIndexMap := [0]
  indexVectorDim := 1
  sliceSizes := ![1, 10]
  wf := gather_S500000x10_S8000000x1_S8000000x10_1_0_n_n_0_1_110_wf
def scatter_S1000000x10_S8000000x1_S8000000x10_1_0_0_1 : ScatterDims S1000000x10 S8000000x1 S8000000x10 where
  updateWindowDims := [1]
  insertedWindowDims := [0]
  scatterDimsToOperandDims := [0]
  indexVectorDim := 1
  wf := scatter_S1000000x10_S8000000x1_S8000000x10_1_0_0_1_wf
def dot_S1000000x10_S10x10_S1000000x10_1_0_0_1_n_n : DotDims S1000000x10 S10x10 S1000000x10 where
  lhsContracting := [1]
  rhsContracting := [0]
  lhsNonContracting := [0]
  rhsNonContracting := [1]
  lhsBatch := []
  rhsBatch := []
  wf := dot_S1000000x10_S10x10_S1000000x10_1_0_0_1_n_n_wf
def dot_S1000000x10_S10x1_S1000000x1_1_0_0_1_n_n : DotDims S1000000x10 S10x1 S1000000x1 where
  lhsContracting := [1]
  rhsContracting := [0]
  lhsNonContracting := [0]
  rhsNonContracting := [1]
  lhsBatch := []
  rhsBatch := []
  wf := dot_S1000000x10_S10x1_S1000000x1_1_0_0_1_n_n_wf

class Facts : Prop extends Facts₀ where

variable [Facts]
-- ==== Proof.Spec.lean ====
/-
  The mathematics of the two-hop graph network, over the extended reals, as functions of whole arrays.

  A node table has ten features per node. One dense layer sends a row `a` to `(∑ k, a k · W (k, q)) + b q`. The
  network is: embed every variable node from its two scalars, clip at zero and scale by the inverse square root of its
  degree; pass along the edges (a gather, a scale by the edge weight, a sum per destination — the same operation in
  both programs, never opened here); at the constraint nodes scale by the inverse square root of the degree, apply a
  dense layer, clip at zero and scale again; pass back along the edges; at the variable nodes scale, then three dense
  layers each clipped at zero, a last dense layer to one number per node, and the mean of those numbers.

  Also here: a sum over `A · B` consecutive positions is the sum over `A` tiles of the sums over the `B` positions of
  each tile, and the float words for zero and for one million as extended reals.
-/
import Idealize.ShloMosaic.Lib.ValueIdx
import Idealize.ShloMosaic.PureOps.Ideal.Laws

noncomputable section

open scoped BigOperators

namespace Cert.Gnn

open Idealize.ShloMosaic Idealize.ShloMosaic.ValueIdx

/-- The float word `+0.0` as an extended real. -/
abbrev z32 : EReal := Ideal.ofBits .f32 0x00000000#32

/-- `+0.0` denotes `0`. -/
theorem z32_eq : z32 = 0 := Ideal.ofBits_zero_f32

/-- The float word `1000000.0` denotes the real million. -/
theorem ofBits_million : Ideal.ofBits .f32 0x49742400#32 = ((1000000 : ℝ) : EReal) := by
  simp [Ideal.ofBits, Ideal.ieee, -EReal.coe_mul]; norm_num

/-- The reciprocal of a million, as an extended real. -/
abbrev invMillion : EReal := ((1 / 1000000 : ℝ) : EReal)

/-- Dividing by the word `1000000.0` is multiplying by the reciprocal of a million, on every extended real. -/
theorem div_million (x : EReal) : Ideal.div x (Ideal.ofBits .f32 0x49742400#32) = x * invMillion := by
  rw [ofBits_million, Ideal.div_coe (by norm_num : (1000000 : ℝ) ≠ 0)]

variable {N : Nat}

/-- One dense layer on a row of ten features: `(∑ k, a k · W (k, q)) + b q`. -/
def dense (a : Fin 10 → EReal) (W : (⟨2, ![10, 10]⟩ : Shape).Idx → EReal) (b : (⟨1, ![10]⟩ : Shape).Idx → EReal)
    (q : Fin 10) : EReal :=
  (∑ k : Fin 10, a k * W (ix2 k q)) + b (ix1 q)

/-- The embedding of the variable nodes: `max (c n · Wv (0, q) + x n · Wv (1, q) + bv q, 0) · rsqrt (d n)`. -/
def embed (c x d : (⟨1, ![N]⟩ : Shape).Idx → EReal) (Wv : (⟨2, ![2, 10]⟩ : Shape).Idx → EReal)
    (bv : (⟨1, ![10]⟩ : Shape).Idx → EReal) : (⟨2, ![N, 10]⟩ : Shape).Idx → EReal :=
  fun i => max (c (ix1 (i 0)) * Wv (ix2 (0 : Fin 2) (i 1)) + x (ix1 (i 0)) * Wv (ix2 (1 : Fin 2) (i 1)) + bv (ix1 (i 1))) z32
    * Ideal.rsqrt (d (ix1 (i 0)))

/-- A node's aggregated row scaled by the inverse square root of its degree, through a dense layer, clipped at zero. -/
def hidden (agg : (⟨2, ![N, 10]⟩ : Shape).Idx → EReal) (d : (⟨1, ![N]⟩ : Shape).Idx → EReal)
    (W : (⟨2, ![10, 10]⟩ : Shape).Idx → EReal) (b : (⟨1, ![10]⟩ : Shape).Idx → EReal) :
    (⟨2, ![N, 10]⟩ : Shape).Idx → EReal :=
  fun i => max (dense (fun k => agg (ix2 (i 0) k) * Ideal.rsqrt (d (ix1 (i 0)))) W b (i 1)) z32

/-- The same, scaled once more by the inverse square root of the degree (ready for the next hop). -/
def conv (agg : (⟨2, ![N, 10]⟩ : Shape).Idx → EReal) (d : (⟨1, ![N]⟩ : Shape).Idx → EReal)
    (W : (⟨2, ![10, 10]⟩ : Shape).Idx → EReal) (b : (⟨1, ![10]⟩ : Shape).Idx → EReal) :
    (⟨2, ![N, 10]⟩ : Shape).Idx → EReal :=
  fun i => hidden agg d W b i * Ideal.rsqrt (d (ix1 (i 0)))

/-- A dense layer on every row of a table, clipped at zero. -/
def layer (h : (⟨2, ![N, 10]⟩ : Shape).Idx → EReal) (W : (⟨2, ![10, 10]⟩ : Shape).Idx → EReal)
    (b : (⟨1, ![10]⟩ : Shape).Idx → EReal) : (⟨2, ![N, 10]⟩ : Shape).Idx → EReal :=
  fun i => max (dense (fun k => h (ix2 (i 0) k)) W b (i 1)) z32

/-- The last dense layer: one number per node. -/
def logit (h : (⟨2, ![N, 10]⟩ : Shape).Idx → EReal) (Wo : (⟨2, ![10, 1]⟩ : Shape).Idx → EReal)
    (bo : (⟨1, ![1]⟩ : Shape).Idx → EReal) (n : Fin N) : EReal :=
  (∑ k : Fin 10, h (ix2 n k) * Wo (ix2 k (0 : Fin 1))) + bo (ix1 (0 : Fin 1))

/-- The per-node output of the variable side: scale, four dense layers, the first three clipped at zero. -/
def score (agg : (⟨2, ![N, 10]⟩ : Shape).Idx → EReal) (d : (⟨1, ![N]⟩ : Shape).Idx → EReal)
    (W2 : (⟨2, ![10, 10]⟩ : Shape).Idx → EReal) (b2 : (⟨1, ![10]⟩ : Shape).Idx → EReal)
    (W3 : (⟨2, ![10, 10]⟩ : Shape).Idx → EReal) (b3 : (⟨1, ![10]⟩ : Shape).Idx → EReal)
    (W4 : (⟨2, ![10, 10]⟩ : Shape).Idx → EReal) (b4 : (⟨1, ![10]⟩ : Shape).Idx → EReal)
    (W5 : (⟨2, ![10, 1]⟩ : Shape).Idx → EReal) (b5 : (⟨1, ![1]⟩ : Shape).Idx → EReal) (n : Fin N) : EReal :=
  logit (layer (layer (hidden agg d W2 b2) W3 b3) W4 b4) W5 b5 n

/-- The mean over a million nodes, as the sum from the zero word times the reciprocal of a million. -/
def mean (s : Fin 1000000 → EReal) : EReal := (z32 + ∑ n : Fin 1000000, s n) * invMillion

/-! ## A sum over consecutive tiles -/

/-- Position `r` of tile `t`, tiles of `B` positions. -/
def tileRow {A B : Nat} (t : Fin A) (r : Fin B) : Fin (A * B) :=
  ⟨B * t.val + r.val, by
    have ht := t.isLt; have hr := r.isLt
    calc B * t.val + r.val < B * t.val + B := Nat.add_lt_add_left hr _
      _ = B * (t.val + 1) := by ring
      _ ≤ B * A := Nat.mul_le_mul_left _ ht
      _ = A * B := Nat.mul_comm _ _⟩

/-- A sum over `A · B` positions is the sum over the `A` tiles of the sums over each tile's `B` positions. -/
theorem sum_tiles {M : Type*} [AddCommMonoid M] {A B : Nat} (f : Fin (A * B) → M) :
    ∑ n, f n = ∑ t : Fin A, ∑ r : Fin B, f (tileRow t r) := by
  rw [← Fintype.sum_prod_type (f := fun p : Fin A × Fin B => f (tileRow p.1 p.2))]
  refine (Fintype.sum_equiv finProdFinEquiv _ _ fun p => ?_).symm
  refine congrArg f (Fin.ext ?_)
  show B * p.1.val + p.2.val = p.2.val + B * p.1.val
  exact Nat.add_comm _ _

end Cert.Gnn

end
-- ==== Proof.LibColumn.lean ====
/-
  General facts about a column of row values, read at an entry.

  * A vector of length `M` viewed as an `M × 1` column reads, at `(p, 0)`, the vector at `p` (`col_apply`).
  * An `M × 1` column repeated along `N` lanes reads, at `(p, q)`, the column at `(p, 0)` (`colBroadcast_apply`).
  * Summing an `M × 1` column down its rows gives, at the one entry, the sum of the column's entries (`colSum_apply`).
-/
import Idealize.ShloMosaic.Lib.ValueIdx
import Idealize.ShloMosaic.Lib.Pipeline.Value
import Idealize.ShloMosaic.PureOps.Ideal.Laws

noncomputable section

open scoped BigOperators

namespace Cert.Lib.Column

open Idealize.ShloMosaic Idealize.ShloMosaic.ValueIdx

variable {α : Type} {M N : Nat}

/-- A vector of length `M` viewed as an `M × 1` column: at `(p, 0)`, the vector at `p`. -/
theorem col_apply (v : (⟨1, ![M]⟩ : Shape).Idx → α) (hc : (⟨1, ![M]⟩ : Shape).ShapeCasts ⟨2, ![M, 1]⟩) (p : Fin M) :
    shapeCast ⟨2, ![M, 1]⟩ v hc (ix2 p (0 : Fin 1)) = v (ix1 p) := by
  refine shapeCast_apply v hc (ix2 p (0 : Fin 1)) (ix1 p) ?_
  rw [Shape.rowMajor_val_one, Shape.rowMajor_val_two]
  show p.val = p.val * 1 + 0
  omega

/-- An `M × 1` column repeated along `N` lanes: at `(p, q)`, the column at `(p, 0)`. -/
theorem colBroadcast_apply (v : (⟨2, ![M, 1]⟩ : Shape).Idx → α) (hb : (⟨2, ![M, 1]⟩ : Shape).Broadcasts ⟨2, ![M, N]⟩)
    (p : Fin M) (q : Fin N) :
    broadcastTo ⟨2, ![M, N]⟩ v hb (ix2 p q) = v (ix2 p (0 : Fin 1)) := by
  refine broadcastTo_apply _ hb (ix2 p q) (ix2 p (0 : Fin 1)) (fun a => ?_)
  match a with
  | ⟨0, _⟩ =>
    show p.val = if M = 1 then 0 else p.val
    split
    · have := p.isLt; omega
    · rfl
  | ⟨1, _⟩ => exact (if_pos rfl).symm

/-- Over the one entry of the result, the index with `k` put on the row axis is `(k, 0)`. -/
theorem lift_col (h : (⟨2, ![M, 1]⟩ : Shape).Reduces [0] ⟨1, ![1]⟩) (k : Fin M) :
    h.lift (ix1 (0 : Fin 1)) k = ix2 k (0 : Fin 1) := by
  funext a
  apply Fin.ext
  match a with
  | ⟨0, _⟩ => rfl
  | ⟨1, _⟩ => rfl

/-- The sum of an `M × 1` column down its rows. -/
theorem colSum_apply {φ : FTy} (src : FVec Ideal ⟨2, ![M, 1]⟩ φ) (acc : BitVec φ.bits)
    (h : (⟨2, ![M, 1]⟩ : Shape).Reduces [0] ⟨1, ![1]⟩) (hφ : FKind.Formats φ) (hacc : acc = FKind.add.neutral φ hφ) :
    multiReduction .add [0] ⟨1, ![1]⟩ src acc h hφ hacc (ix1 (0 : Fin 1)) = ∑ k : Fin M, src (ix2 k (0 : Fin 1)) := by
  rw [Ideal.multiReduction_add_single]
  exact Finset.sum_congr rfl fun k _ => congrArg src (lift_col h k)

end Cert.Lib.Column

end
-- ==== Proof.Region0.lean ====
/-
  The first region: the embedding of the variable nodes, tile by tile.

  Point `t` of 250 reads rows `4000·t … 4000·t + 3999` of the two scalar columns and of the degree column, the whole
  `2 × 10` weight and the `1 × 10` bias row, and writes rows `4000·t …` of the `1000000 × 10` table: at `(n, q)`,
  `max (c n · Wv (0, q) + x n · Wv (1, q) + bv q, 0) · rsqrt (d n)`. The 250 blocks tile the table, so after the region
  the table is that function of the five arrays as the region found them.
-/
import proofs.«179143_j2843268349978_2_alg».proof.Proof.Gen.KernelIdeal.Frame
import proofs.«179143_j2843268349978_2_alg».proof.Proof.Spec
import proofs.«179143_j2843268349978_2_alg».proof.Proof.LibColumn
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelSide.Region0

open Idealize.ShloMosaic Idealize.ShloMosaic.TcCoe Idealize.ShloMosaic.ValueIdx Idealize.SL.Sem
open Idealize.ShloMosaic.Pipeline (Dat)
open Cert.KernelIdeal Cert.KernelIdeal.Gen Cert.Gnn

theorem hz : (![0, 0] : Fin 2 → Nat) = fun _ => 0 := funext fun a => by fin_cases a <;> rfl

/-- The embedding over the region's own arrays: the scalars and the degree as columns, the bias as a row. -/
def G (a0 a1 a2 : S1000000x1.Idx → EReal) (a3 : S2x10.Idx → EReal) (a4 : S1x10.Idx → EReal) : S1000000x10.Idx → EReal :=
  fun i => max (a0 (ix2 (i 0) (0 : Fin 1)) * a3 (ix2 (0 : Fin 2) (i 1)) + a1 (ix2 (i 0) (0 : Fin 1)) * a3 (ix2 (1 : Fin 2) (i 1))
      + a4 (ix2 (0 : Fin 1) (i 1))) z32 * Ideal.rsqrt (a2 (ix2 (i 0) (0 : Fin 1)))

/-- The body's arithmetic on a tile, at row `p` and feature `q`. -/
theorem pay_apply (v0 v2 v20 : Vec Ideal S4000x1 .f32) (v4 : Vec Ideal S2x10 .f32) (v5 : Vec Ideal S1x10 .f32)
    (p : Fin 4000) (q : Fin 10) :
    k0_pay1 v0 v2 v4 v5 v20 (ix2 p q)
      = max (v0 (ix2 p (0 : Fin 1)) * v4 (ix2 (0 : Fin 2) q) + v2 (ix2 p (0 : Fin 1)) * v4 (ix2 (1 : Fin 2) q)
          + v5 (ix2 (0 : Fin 1) q)) z32 * Ideal.rsqrt (v20 (ix2 p (0 : Fin 1))) := by
  unfold k0_pay1
  simp only [shapeCast_self]
  rw [mulf_apply, maximumf_apply, addf_apply, addf_apply, mulf_apply, mulf_apply, broadcast_apply,
    Cert.Lib.Column.colBroadcast_apply, Cert.Lib.Column.colBroadcast_apply, Cert.Lib.Column.colBroadcast_apply,
    broadcastTo_1b_ab_apply, broadcastTo_1b_ab_apply, broadcastTo_1b_ab_apply,
    slice2_axis0_apply 0 v4 _ (0 : Fin 1) q (0 : Fin 2) rfl, slice2_axis0_apply 1 v4 _ (0 : Fin 1) q (1 : Fin 2) rfl]
  rfl

/-- A tile's entry is the table's entry, when the tile's rows are the table's rows from `n - p` on and the small
    operands are held whole. -/
theorem tile_eq (v0 v2 v20 : Vec Ideal S4000x1 .f32) (v4 : Vec Ideal S2x10 .f32) (v5 : Vec Ideal S1x10 .f32)
    (a0 a1 a2 : S1000000x1.Idx → EReal) (p : Fin 4000) (q : Fin 10) (n : Fin 1000000)
    (h0 : v0 (ix2 p (0 : Fin 1)) = a0 (ix2 n (0 : Fin 1))) (h1 : v2 (ix2 p (0 : Fin 1)) = a1 (ix2 n (0 : Fin 1)))
    (h2 : v20 (ix2 p (0 : Fin 1)) = a2 (ix2 n (0 : Fin 1))) :
    k0_pay1 v0 v2 v4 v5 v20 (ix2 p q) = G a0 a1 a2 v4 v5 (ix2 n q) := by
  rw [pay_apply, h0, h1, h2]
  rfl

/-- Over columns that are reshaped vectors and a bias row that is a reshaped vector, it is the embedding. -/
theorem G_spec (c x d : S1000000.Idx → EReal) (Wv : S2x10.Idx → EReal) (bv : S10.Idx → EReal) :
    G (shapeCast S1000000x1 c shapeCasts_S1000000_S1000000x1) (shapeCast S1000000x1 x shapeCasts_S1000000_S1000000x1)
      (shapeCast S1000000x1 d shapeCasts_S1000000_S1000000x1) Wv (shapeCast S1x10 bv shapeCasts_S10_S1x10)
      = embed c x d Wv bv := by
  funext i
  obtain ⟨n, q, rfl⟩ : ∃ (n : Fin 1000000) (q : Fin 10), i = ix2 n q := ⟨i 0, i 1, eq_ix2 i⟩
  show max (shapeCast S1000000x1 c shapeCasts_S1000000_S1000000x1 (ix2 n (0 : Fin 1)) * Wv (ix2 (0 : Fin 2) q)
        + shapeCast S1000000x1 x shapeCasts_S1000000_S1000000x1 (ix2 n (0 : Fin 1)) * Wv (ix2 (1 : Fin 2) q)
        + shapeCast S1x10 bv shapeCasts_S10_S1x10 (ix2 (0 : Fin 1) q)) z32
      * Ideal.rsqrt (shapeCast S1000000x1 d shapeCasts_S1000000_S1000000x1 (ix2 n (0 : Fin 1)))
    = max (c (ix1 n) * Wv (ix2 (0 : Fin 2) q) + x (ix1 n) * Wv (ix2 (1 : Fin 2) q) + bv (ix1 q)) z32 * Ideal.rsqrt (d (ix1 n))
  rw [Cert.Lib.Column.col_apply, Cert.Lib.Column.col_apply, Cert.Lib.Column.col_apply, shapeCast_a_1a_apply]

variable (V : (c : Dev nD) → (b : Ref sig .tc) → Buf (Elt Ideal) ((c : Thread nD τ).loc b))

/-- The index maps over the grid: the three columns and the table move with the point, the small operands stay. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `p` of a column's block at point `t` is row `4000·t + p` of the column. -/
theorem col_block (c : Dev nD) (t : Fin cfg0.N) (p : Fin 4000) (n : Fin 1000000) (hn : n.val = 4000 * t.val + p.val) :
    iblk0 V c 0 t (ix2 p (0 : Fin 1)) = V c main_v11 (ix2 n (0 : Fin 1))
    ∧ iblk0 V c 1 t (ix2 p (0 : Fin 1)) = V c main_v12 (ix2 n (0 : Fin 1))
    ∧ iblk0 V c 2 t (ix2 p (0 : Fin 1)) = V c main_v13 (ix2 n (0 : Fin 1)) := by
  obtain ⟨e0, e1, e2, e3, e4, e5, -⟩ := idx_facts t
  refine ⟨?_, ?_, ?_⟩
  · show V c main_v11 (((cfg0.win 0).blk t).view.emb (ix2 p (0 : Fin 1))) = V c main_v11 (ix2 n (0 : Fin 1))
    refine congrArg (V c main_v11) (funext fun a => Fin.ext ?_)
    match a with
    | ⟨0, _⟩ => show win0_0.index t (0 : Fin 2) * 4000 + 1 * p.val = n.val; omega
    | ⟨1, _⟩ => show win0_0.index t (1 : Fin 2) * 1 + 1 * 0 = 0; omega
  · show V c main_v12 (((cfg0.win 1).blk t).view.emb (ix2 p (0 : Fin 1))) = V c main_v12 (ix2 n (0 : Fin 1))
    refine congrArg (V c main_v12) (funext fun a => Fin.ext ?_)
    match a with
    | ⟨0, _⟩ => show win0_1.index t (0 : Fin 2) * 4000 + 1 * p.val = n.val; omega
    | ⟨1, _⟩ => show win0_1.index t (1 : Fin 2) * 1 + 1 * 0 = 0; omega
  · show V c main_v13 (((cfg0.win 2).blk t).view.emb (ix2 p (0 : Fin 1))) = V c main_v13 (ix2 n (0 : Fin 1))
    refine congrArg (V c main_v13) (funext fun a => Fin.ext ?_)
    match a with
    | ⟨0, _⟩ => show win0_2.index t (0 : Fin 2) * 4000 + 1 * p.val = n.val; omega
    | ⟨1, _⟩ => show win0_2.index t (1 : Fin 2) * 1 + 1 * 0 = 0; omega

/-- The weight's block at every point is the weight. -/
theorem weight_block (c : Dev nD) (t : Fin cfg0.N) : iblk0 V c 3 t = V c main_arg6 := by
  obtain ⟨-, -, -, -, -, -, e6, e7, -⟩ := idx_facts t
  funext y
  show V c main_arg6 (((cfg0.win 3).blk t).view.emb y) = V c main_arg6 y
  refine congrArg (V c main_arg6) (funext fun a => Fin.ext ?_)
  match a with
  | ⟨0, _⟩ => show win0_3.index t (0 : Fin 2) * 2 + 1 * (y 0).val = (y 0).val; omega
  | ⟨1, _⟩ => show win0_3.index t (1 : Fin 2) * 10 + 1 * (y 1).val = (y 1).val; omega

/-- The bias row's block at every point is the bias row. -/
theorem bias_block (c : Dev nD) (t : Fin cfg0.N) : iblk0 V c 4 t = V c main_v15 := by
  obtain ⟨-, -, -, -, -, -, -, -, e8, e9, -⟩ := idx_facts t
  funext y
  show V c main_v15 (((cfg0.win 4).blk t).view.emb y) = V c main_v15 y
  refine congrArg (V c main_v15) (funext fun a => Fin.ext ?_)
  match a with
  | ⟨0, _⟩ => show win0_4.index t (0 : Fin 2) * 1 + 1 * (y 0).val = (y 0).val; omega
  | ⟨1, _⟩ => show win0_4.index t (1 : Fin 2) * 10 + 1 * (y 1).val = (y 1).val; omega

/-- What point `t` writes back is block `t` of the embedding of the region's arrays. -/
theorem flushed_eq (c : Dev nD) (t : Fin cfg0.N) :
    (dat0 V c).flushed 5 t = ((cfg0.win 5).blk t).view.read (Elt Ideal)
      (G (V c main_v11) (V c main_v12) (V c main_v13) (V c main_arg6) (V c main_v15)) := by
  show (cfg0.win 5).cut (grid0.coords t) ((dat0 V c).after 5 t) = _
  rw [after0_5]
  unfold out0_5
  rw [View.canon_unit_zero hz]
  simp only [View.ld_unit_zero (S := S4000x1) hz, View.ld_unit_zero (S := S2x10) hz, View.ld_unit_zero (S := S1x10) hz]
  rw [weight_block V c t, bias_block V c t]
  obtain ⟨-, -, -, -, -, -, -, -, -, -, e10, e11⟩ := idx_facts t
  funext j
  have hp : (j 0).val < 4000 := (j 0).isLt
  have ht : t.val < 250 := lt_of_lt_of_eq t.isLt N_0
  obtain ⟨h0, h1, h2⟩ := col_block V c t ⟨(j 0).val, hp⟩ ⟨4000 * t.val + (j 0).val, by omega⟩ rfl
  refine (congrArg _ (eq_ix2 j)).trans ((tile_eq _ _ _ _ _ _ _ _ ⟨(j 0).val, hp⟩ (j 1) ⟨4000 * t.val + (j 0).val, by omega⟩ h0 h1 h2).trans ?_)
  show G _ _ _ _ _ _ = G _ _ _ _ _ (((cfg0.win 5).blk t).view.emb j)
  refine congrArg (G _ _ _ _ _) (funext fun a => Fin.ext ?_)
  match a with
  | ⟨0, _⟩ => show 4000 * t.val + (j 0).val = win0_5.index t (0 : Fin 2) * 4000 + 1 * (j 0).val; omega
  | ⟨1, _⟩ => show (j 1).val = win0_5.index t (1 : Fin 2) * 10 + 1 * (j 1).val; omega

/-- An index of the table is in point `t`'s block iff each coordinate is in the block's range on its axis. -/
theorem mem_blk (t : Fin cfg0.N) (i : S1000000x10.Idx) :
    i ∈ ((cfg0.win 5).blk t).view.set ↔ ∀ a : Fin 2, win0_5.index t a * S4000x10.size a ≤ (i a).val
      ∧ (i a).val < win0_5.index t a * S4000x10.size a + S4000x10.size a := by
  show i ∈ ((View.whole main_v16).slice (win0_5.rect t)).set ↔ _
  rw [View.set_slice_whole, Rect.mem_set_unit]
  exact Iff.rfl

/-- Every row of the table lies in the block of the point `row / 4000`. -/
theorem cover (i : S1000000x10.Idx) : ∃ t : Fin cfg0.N, (cfg0.win 5).flush t = true ∧ i ∈ ((cfg0.win 5).blk t).view.set := by
  have hi0 : (i 0).val < 1000000 := (i 0).isLt
  have hi1 : (i 1).val < 10 := (i 1).isLt
  have hN : cfg0.N = 250 := N_0
  refine ⟨⟨(i 0).val / 4000, by rw [hN]; omega⟩, flush0_5 _, ?_⟩
  rw [mem_blk]
  obtain ⟨-, -, -, -, -, -, -, -, -, -, e10, e11⟩ := idx_facts ⟨(i 0).val / 4000, by rw [hN]; omega⟩
  intro a
  match a with
  | ⟨0, _⟩ =>
    show win0_5.index _ (0 : Fin 2) * 4000 ≤ (i 0).val ∧ (i 0).val < win0_5.index _ (0 : Fin 2) * 4000 + 4000
    rw [e10]; dsimp only; omega
  | ⟨1, _⟩ =>
    show win0_5.index _ (1 : Fin 2) * 10 ≤ (i 1).val ∧ (i 1).val < win0_5.index _ (1 : Fin 2) * 10 + 10
    rw [e11]; omega

/-- The table after the region: the embedding of the region's arrays. -/
theorem final (c : Dev nD) : (dat0 V c).arrAt 5 cfg0.N
    = G (V c main_v11) (V c main_v12) (V c main_v13) (V c main_arg6) (V c main_v15) :=
  (dat0 V c).arrAt_eq_of_cover 5 _ (fun t _ => flushed_eq V c t) cover

end Cert.KernelSide.Region0

end
-- ==== Proof.LibPlainDot.lean ====
/-
  A plain matrix product read at one entry.

  For the dimension numbers of an `M × K` by `K × N` product (the left operand contracted on its columns, the
  right on its rows, no batch axis) the entry at row `p`, column `q` of a `tpu.matmul` into the zero
  accumulator, and of the host's `dot_general`, is at the ideal values the sum over `k` of the left operand at
  `(p, k)` times the right operand at `(k, q)`. The contraction index of the dimension numbers is re-indexed by
  its one coordinate, so the sum runs over the literal `Fin K`.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {M K N : Nat}

/-- The left operand's index at output entry `(p, q)` and contraction position `k` is `(p, k)`. -/
theorem lhsIdx_plain (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 p q) _).trans hk

/-- The right operand's index at output entry `(p, q)` and contraction position `k` is `(k, q)`. -/
theorem rhsIdx_plain (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single rfl (ix2 p q) _).trans hk
  | ⟨1, _⟩ => rfl

/-- A `tpu.matmul` into the zero accumulator, at entry `(p, q)`. -/
theorem matmul_zero_apply {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  exact Finset.sum_congr rfl fun k _ => by rw [lhsIdx_plain, rhsIdx_plain]

/-- The host's `dot_general`, at entry `(p, q)`. -/
theorem dotGeneral_apply {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) := by
  rw [Ideal.dotGeneral_apply, ← Equiv.sum_comp (contrEquiv1 (DotDims.plain M K N) K rfl rfl).symm]
  exact Finset.sum_congr rfl fun k _ => by rw [lhsIdx_plain, rhsIdx_plain]

end Cert.Lib.PlainDot

end
-- ==== Proof.Region1.lean ====
/-
  The second region: the constraint nodes' layer, tile by tile.

  Point `t` of 125 reads rows `4000·t … 4000·t + 3999` of the aggregated `500000 × 10` table and of the degree column, the
  whole `10 × 10` weight and the `1 × 10` bias row, and writes the same rows of the result: at `(n, q)`,
  `max ((∑ k, (agg (n, k) · rsqrt (d n)) · W (k, q)) + b q, 0) · rsqrt (d n)`. The 125 blocks tile the table.
-/
import proofs.«179143_j2843268349978_2_alg».proof.Proof.Gen.KernelIdeal.Frame
import proofs.«179143_j2843268349978_2_alg».proof.Proof.Spec
import proofs.«179143_j2843268349978_2_alg».proof.Proof.LibColumn
import proofs.«179143_j2843268349978_2_alg».proof.Proof.LibPlainDot
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelSide.Region1

open Idealize.ShloMosaic Idealize.ShloMosaic.TcCoe Idealize.ShloMosaic.ValueIdx Idealize.SL.Sem
open Idealize.ShloMosaic.Pipeline (Dat)
open Cert.KernelIdeal Cert.KernelIdeal.Gen Cert.Gnn

theorem hz : (![0, 0] : Fin 2 → Nat) = fun _ => 0 := funext fun a => by fin_cases a <;> rfl

/-- The layer over the region's own arrays: the degree as a column, the bias as a row. -/
def G (a0 : S500000x10.Idx → EReal) (a1 : S500000x1.Idx → EReal) (a2 : S10x10.Idx → EReal) (a3 : S1x10.Idx → EReal) :
    S500000x10.Idx → EReal :=
  fun i => max ((∑ k : Fin 10, (a0 (ix2 (i 0) k) * Ideal.rsqrt (a1 (ix2 (i 0) (0 : Fin 1)))) * a2 (ix2 k (i 1)))
      + a3 (ix2 (0 : Fin 1) (i 1))) z32 * Ideal.rsqrt (a1 (ix2 (i 0) (0 : Fin 1)))

/-- The printed contraction is the plain one: rows by columns. -/
theorem dot_eq : dot_S4000x10_S10x10_S4000x10_1_0_0_1_n_n = DotDims.plain 4000 10 10 := rfl

/-- The body's arithmetic on a tile, at row `p` and feature `q`. -/
theorem pay_apply (v0 : Vec Ideal S4000x1 .f32) (v3 : Vec Ideal S4000x10 .f32) (v7 : Vec Ideal S10x10 .f32)
    (v9 : Vec Ideal S1x10 .f32) (p : Fin 4000) (q : Fin 10) :
    k1_pay1 v0 v3 v7 v9 (ix2 p q)
      = max ((∑ k : Fin 10, (v3 (ix2 p k) * Ideal.rsqrt (v0 (ix2 p (0 : Fin 1)))) * v7 (ix2 k q)) + v9 (ix2 (0 : Fin 1) q)) z32
        * Ideal.rsqrt (v0 (ix2 p (0 : Fin 1))) := by
  unfold k1_pay1
  simp only [shapeCast_self, matmul]
  rw [mulf_apply, maximumf_apply, addf_apply, broadcast_apply, Cert.Lib.Column.colBroadcast_apply,
    broadcastTo_1b_ab_apply, dot_eq, Cert.Lib.PlainDot.matmul_zero_apply]
  simp only [mulf_apply, Cert.Lib.Column.colBroadcast_apply]
  rfl

/-- A tile's entry is the table's entry, when the tile's rows are the table's rows from `n - p` on and the small
    operands are held whole. -/
theorem tile_eq (v0 : Vec Ideal S4000x1 .f32) (v3 : Vec Ideal S4000x10 .f32) (v7 : Vec Ideal S10x10 .f32) (v9 : Vec Ideal S1x10 .f32)
    (a0 : S500000x10.Idx → EReal) (a1 : S500000x1.Idx → EReal) (p : Fin 4000) (q : Fin 10) (n : Fin 500000)
    (h0 : ∀ k : Fin 10, v3 (ix2 p k) = a0 (ix2 n k)) (h1 : v0 (ix2 p (0 : Fin 1)) = a1 (ix2 n (0 : Fin 1))) :
    k1_pay1 v0 v3 v7 v9 (ix2 p q) = G a0 a1 v7 v9 (ix2 n q) := by
  rw [pay_apply, h1]
  simp only [h0]
  rfl

/-- Over a degree column that is a reshaped vector and a bias row that is a reshaped vector, it is the layer. -/
theorem G_spec (agg : S500000x10.Idx → EReal) (d : S500000.Idx → EReal) (W : S10x10.Idx → EReal) (b : S10.Idx → EReal) :
    G agg (shapeCast S500000x1 d shapeCasts_S500000_S500000x1) W (shapeCast S1x10 b shapeCasts_S10_S1x10) = conv agg d W b := by
  funext i
  obtain ⟨n, q, rfl⟩ : ∃ (n : Fin 500000) (q : Fin 10), i = ix2 n q := ⟨i 0, i 1, eq_ix2 i⟩
  show max ((∑ k : Fin 10, (agg (ix2 n k) * Ideal.rsqrt (shapeCast S500000x1 d shapeCasts_S500000_S500000x1 (ix2 n (0 : Fin 1)))) * W (ix2 k q))
        + shapeCast S1x10 b shapeCasts_S10_S1x10 (ix2 (0 : Fin 1) q)) z32
      * Ideal.rsqrt (shapeCast S500000x1 d shapeCasts_S500000_S500000x1 (ix2 n (0 : Fin 1)))
    = max ((∑ k : Fin 10, (agg (ix2 n k) * Ideal.rsqrt (d (ix1 n))) * W (ix2 k q)) + b (ix1 q)) z32 * Ideal.rsqrt (d (ix1 n))
  rw [Cert.Lib.Column.col_apply, shapeCast_a_1a_apply]

variable (V : (c : Dev nD) → (b : Ref sig .tc) → Buf (Elt Ideal) ((c : Thread nD τ).loc b))

/-- The index maps over the grid: the table, the column and the result move with the point, the small operands stay. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Row `p` of the table's and of the column's block at point `t` is row `4000·t + p`. -/
theorem row_block (c : Dev nD) (t : Fin cfg1.N) (p : Fin 4000) (n : Fin 500000) (hn : n.val = 4000 * t.val + p.val) :
    (∀ k : Fin 10, iblk1 V c 0 t (ix2 p k) = V c main_v29 (ix2 n k))
    ∧ iblk1 V c 1 t (ix2 p (0 : Fin 1)) = V c main_v14 (ix2 n (0 : Fin 1)) := by
  obtain ⟨e0, e1, e2, e3, -⟩ := idx_facts t
  refine ⟨fun k => ?_, ?_⟩
  · show V c main_v29 (((cfg1.win 0).blk t).view.emb (ix2 p k)) = V c main_v29 (ix2 n k)
    refine congrArg (V c main_v29) (funext fun a => Fin.ext ?_)
    match a with
    | ⟨0, _⟩ => show win1_0.index t (0 : Fin 2) * 4000 + 1 * p.val = n.val; omega
    | ⟨1, _⟩ => show win1_0.index t (1 : Fin 2) * 10 + 1 * k.val = k.val; omega
  · show V c main_v14 (((cfg1.win 1).blk t).view.emb (ix2 p (0 : Fin 1))) = V c main_v14 (ix2 n (0 : Fin 1))
    refine congrArg (V c main_v14) (funext fun a => Fin.ext ?_)
    match a with
    | ⟨0, _⟩ => show win1_1.index t (0 : Fin 2) * 4000 + 1 * p.val = n.val; omega
    | ⟨1, _⟩ => show win1_1.index t (1 : Fin 2) * 1 + 1 * 0 = 0; omega

/-- The weight's block at every point is the weight. -/
theorem weight_block (c : Dev nD) (t : Fin cfg1.N) : iblk1 V c 2 t = V c main_arg12 := by
  obtain ⟨-, -, -, -, e4, e5, -⟩ := idx_facts t
  funext y
  show V c main_arg12 (((cfg1.win 2).blk t).view.emb y) = V c main_arg12 y
  refine congrArg (V c main_arg12) (funext fun a => Fin.ext ?_)
  match a with
  | ⟨0, _⟩ => show win1_2.index t (0 : Fin 2) * 10 + 1 * (y 0).val = (y 0).val; omega
  | ⟨1, _⟩ => show win1_2.index t (1 : Fin 2) * 10 + 1 * (y 1).val = (y 1).val; omega

/-- The bias row's block at every point is the bias row. -/
theorem bias_block (c : Dev nD) (t : Fin cfg1.N) : iblk1 V c 3 t = V c main_v30 := by
  obtain ⟨-, -, -, -, -, -, e6, e7, -⟩ := idx_facts t
  funext y
  show V c main_v30 (((cfg1.win 3).blk t).view.emb y) = V c main_v30 y
  refine congrArg (V c main_v30) (funext fun a => Fin.ext ?_)
  match a with
  | ⟨0, _⟩ => show win1_3.index t (0 : Fin 2) * 1 + 1 * (y 0).val = (y 0).val; omega
  | ⟨1, _⟩ => show win1_3.index t (1 : Fin 2) * 10 + 1 * (y 1).val = (y 1).val; omega

/-- What point `t` writes back is block `t` of the layer of the region's arrays. -/
theorem flushed_eq (c : Dev nD) (t : Fin cfg1.N) :
    (dat1 V c).flushed 4 t = ((cfg1.win 4).blk t).view.read (Elt Ideal)
      (G (V c main_v29) (V c main_v14) (V c main_arg12) (V c main_v30)) := by
  show (cfg1.win 4).cut (grid1.coords t) ((dat1 V c).after 4 t) = _
  rw [after1_4]
  unfold out1_4
  rw [View.canon_unit_zero hz]
  simp only [View.ld_unit_zero (S := S4000x1) hz, View.ld_unit_zero (S := S4000x10) hz, View.ld_unit_zero (S := S10x10) hz,
    View.ld_unit_zero (S := S1x10) hz]
  rw [weight_block V c t, bias_block V c t]
  obtain ⟨-, -, -, -, -, -, -, -, e8, e9⟩ := idx_facts t
  funext j
  have hp : (j 0).val < 4000 := (j 0).isLt
  have ht : t.val < 125 := lt_of_lt_of_eq t.isLt N_1
  obtain ⟨h0, h1⟩ := row_block V c t ⟨(j 0).val, hp⟩ ⟨4000 * t.val + (j 0).val, by omega⟩ rfl
  refine (congrArg _ (eq_ix2 j)).trans ((tile_eq _ _ _ _ _ _ ⟨(j 0).val, hp⟩ (j 1) ⟨4000 * t.val + (j 0).val, by omega⟩ h0 h1).trans ?_)
  show G _ _ _ _ _ = G _ _ _ _ (((cfg1.win 4).blk t).view.emb j)
  refine congrArg (G _ _ _ _) (funext fun a => Fin.ext ?_)
  match a with
  | ⟨0, _⟩ => show 4000 * t.val + (j 0).val = win1_4.index t (0 : Fin 2) * 4000 + 1 * (j 0).val; omega
  | ⟨1, _⟩ => show (j 1).val = win1_4.index t (1 : Fin 2) * 10 + 1 * (j 1).val; omega

/-- An index of the table is in point `t`'s block iff each coordinate is in the block's range on its axis. -/
theorem mem_blk (t : Fin cfg1.N) (i : S500000x10.Idx) :
    i ∈ ((cfg1.win 4).blk t).view.set ↔ ∀ a : Fin 2, win1_4.index t a * S4000x10.size a ≤ (i a).val
      ∧ (i a).val < win1_4.index t a * S4000x10.size a + S4000x10.size a := by
  show i ∈ ((View.whole main_v31).slice (win1_4.rect t)).set ↔ _
  rw [View.set_slice_whole, Rect.mem_set_unit]
  exact Iff.rfl

/-- Every row of the table lies in the block of the point `row / 4000`. -/
theorem cover (i : S500000x10.Idx) : ∃ t : Fin cfg1.N, (cfg1.win 4).flush t = true ∧ i ∈ ((cfg1.win 4).blk t).view.set := by
  have hi0 : (i 0).val < 500000 := (i 0).isLt
  have hi1 : (i 1).val < 10 := (i 1).isLt
  have hN : cfg1.N = 125 := N_1
  refine ⟨⟨(i 0).val / 4000, by rw [hN]; omega⟩, flush1_4 _, ?_⟩
  rw [mem_blk]
  obtain ⟨-, -, -, -, -, -, -, -, e8, e9⟩ := idx_facts ⟨(i 0).val / 4000, by rw [hN]; omega⟩
  intro a
  match a with
  | ⟨0, _⟩ =>
    show win1_4.index _ (0 : Fin 2) * 4000 ≤ (i 0).val ∧ (i 0).val < win1_4.index _ (0 : Fin 2) * 4000 + 4000
    rw [e8]; dsimp only; omega
  | ⟨1, _⟩ =>
    show win1_4.index _ (1 : Fin 2) * 10 ≤ (i 1).val ∧ (i 1).val < win1_4.index _ (1 : Fin 2) * 10 + 10
    rw [e9]; omega

/-- The table after the region: the layer of the region's arrays. -/
theorem final (c : Dev nD) : (dat1 V c).arrAt 4 cfg1.N
    = G (V c main_v29) (V c main_v14) (V c main_arg12) (V c main_v30) :=
  (dat1 V c).arrAt_eq_of_cover 4 _ (fun t _ => flushed_eq V c t) cover

end Cert.KernelSide.Region1

end
-- ==== Proof.LibRegionOp.lean ====
/-
  General facts about a kernel region read as ONE host operation.

  A region's run leaves its arrays at what the write-backs make of them and every other buffer as it was. When
  the region has one output array, whose final contents are a function of the entry contents of the input
  arrays, and its input arrays end as entered, this is exactly what a single host operation computing that
  function into the output array leaves: `withArrays_eq_result`. A run of host operations interleaved with
  regions is then one fold of operations, and a buffer's contents after it are read operation by operation.

  Also: the value an operation with a LITERAL family of five or of seven operands leaves in its result, with
  each operand's contents named at its own reference (the library states this for four operands), and operations of
  five and of seven operands with a curried function, whose result is the function of the operands' contents.
-/
import Idealize.ShloMosaic.Lib.StableHlo.Run
import Idealize.ShloMosaic.Lib.Pipeline.FrameSuffix
import Idealize.ShloMosaic.Lib.Pipeline.Value

noncomputable section

namespace Cert.Lib.RegionOp

open Idealize.ShloMosaic Idealize.ShloMosaic.TcCoe

variable {nD : Nat} {τ : Topo} {sig : RefSig} {Val : EltTy → Type}

/-- The contents a region leaves — its arrays at `A`, every other buffer at `V` — are what an operation `op`
    writing only the output array leaves of `V`, when the output array ends at the operation's value and every
    other array of the region ends as entered. -/
theorem withArrays_eq_result {gr W : Nat} (win : Fin W → Pipeline.WinSpec sig gr)
    (hinj : Function.Injective (Pipeline.arrRef win)) (c : Dev nD) (V : Valuation τ sig Val)
    (A : (w : Fin W) → Buf Val ((win w).arr.view.loc (c.tc : Thread nD τ)))
    (op : HloOp τ sig Val) (wo : Fin W)
    (hw : op.writes = {Proc.devRef .tc (Pipeline.arrRef win wo)})
    (hout : A wo = op.result V (Proc.devRef .tc (Pipeline.arrRef win wo)))
    (hin : ∀ w, w ≠ wo → A w = V (Proc.devRef .tc (Pipeline.arrRef win w))) :
    Pipeline.withArrays win c V A = op.result V := by
  funext b
  by_cases h : ∃ w, Proc.devRef .tc (Pipeline.arrRef win w) = b
  · obtain ⟨w, rfl⟩ := h
    rw [Pipeline.withArrays_arr win hinj]
    by_cases hwo : w = wo
    · subst hwo; exact hout
    · rw [hin w hwo, op.result_of_not_mem V (by
        rw [hw, Finset.mem_singleton]; exact fun e => hwo (hinj (Proc.devRef_injective _ e)))]
  · unfold Pipeline.withArrays
    rw [dif_neg h, op.result_of_not_mem V (by
      rw [hw, Finset.mem_singleton]; exact fun e => h ⟨wo, e.symm⟩)]

section Families

variable {x0 x1 x2 x3 x4 x5 x6 y : Ref sig .tc}

/-- The result of an operation on a literal family of five operands, each operand's contents at its own reference. -/
theorem nary5_result'
    (f : ((k : Fin 5) → ((![x0, x1, x2, x3, x4] : Fin 5 → Ref sig .tc) k).ty.Contents Val) → y.ty.Contents Val) (hxs hy)
    (F : Valuation τ sig Val) :
    (StableHlo.nary (τ := τ) ![x0, x1, x2, x3, x4] y f hxs hy).result F (no_index (Proc.devRef .tc y))
      = f (Fin.cons (F (Proc.devRef .tc x0)) (Fin.cons (F (Proc.devRef .tc x1)) (Fin.cons (F (Proc.devRef .tc x2))
          (Fin.cons (F (Proc.devRef .tc x3)) (Fin.cons (F (Proc.devRef .tc x4)) (fun i => i.elim0)))))) := by
  rw [StableHlo.nary_result']; congr 1; funext k; fin_cases k <;> rfl

/-- The result of an operation on a literal family of seven operands, each operand's contents at its own reference. -/
theorem nary7_result'
    (f : ((k : Fin 7) → ((![x0, x1, x2, x3, x4, x5, x6] : Fin 7 → Ref sig .tc) k).ty.Contents Val) → y.ty.Contents Val) (hxs hy)
    (F : Valuation τ sig Val) :
    (StableHlo.nary (τ := τ) ![x0, x1, x2, x3, x4, x5, x6] y f hxs hy).result F (no_index (Proc.devRef .tc y))
      = f (Fin.cons (F (Proc.devRef .tc x0)) (Fin.cons (F (Proc.devRef .tc x1)) (Fin.cons (F (Proc.devRef .tc x2))
          (Fin.cons (F (Proc.devRef .tc x3)) (Fin.cons (F (Proc.devRef .tc x4)) (Fin.cons (F (Proc.devRef .tc x5))
          (Fin.cons (F (Proc.devRef .tc x6)) (fun i => i.elim0)))))))) := by
  rw [StableHlo.nary_result']; congr 1; funext k; fin_cases k <;> rfl

end Families

section Curried

/-- An operation of 5 operands into `y`, its function curried: `y` takes `G` of the operands' contents. -/
def op5 (x0 x1 x2 x3 x4 y : Ref sig .tc) (G : x0.ty.Contents Val → x1.ty.Contents Val → x2.ty.Contents Val → x3.ty.Contents Val → x4.ty.Contents Val → y.ty.Contents Val)
    (hxs : ∀ k, ((![x0, x1, x2, x3, x4] : Fin 5 → Ref sig .tc) k).space ≠ .host ∧ (((![x0, x1, x2, x3, x4] : Fin 5 → Ref sig .tc) k : Ref sig .tc) : DevRef τ sig).isScoped = false)
    (hy : y.space ≠ .host ∧ (y : DevRef τ sig).isScoped = false) : HloOp τ sig Val :=
  StableHlo.nary ![x0, x1, x2, x3, x4] y (fun u => G (u 0) (u 1) (u 2) (u 3) (u 4)) hxs hy

/-- What it leaves in its result: `G` of the operands' contents, each at its own reference. -/
theorem op5_result' (x0 x1 x2 x3 x4 y : Ref sig .tc) (G : x0.ty.Contents Val → x1.ty.Contents Val → x2.ty.Contents Val → x3.ty.Contents Val → x4.ty.Contents Val → y.ty.Contents Val) (hxs) (hy) (F : Valuation τ sig Val) :
    (op5 (τ := τ) x0 x1 x2 x3 x4 y G hxs hy).result F (no_index (Proc.devRef .tc y)) = G (F (Proc.devRef .tc x0)) (F (Proc.devRef .tc x1)) (F (Proc.devRef .tc x2)) (F (Proc.devRef .tc x3)) (F (Proc.devRef .tc x4)) := by
  unfold op5
  rw [StableHlo.nary_result']
  rfl

/-- Every other buffer it leaves alone. -/
theorem op5_result_ne' (x0 x1 x2 x3 x4 y : Ref sig .tc) (G : x0.ty.Contents Val → x1.ty.Contents Val → x2.ty.Contents Val → x3.ty.Contents Val → x4.ty.Contents Val → y.ty.Contents Val) (hxs) (hy) (F : Valuation τ sig Val)
    {r : Ref sig .tc} (h : r ≠ y) :
    (op5 (τ := τ) x0 x1 x2 x3 x4 y G hxs hy).result F (no_index (Proc.devRef .tc r)) = F (Proc.devRef .tc r) := by
  unfold op5
  exact StableHlo.nary_result_ne' _ _ _ _ _ h

/-- It writes its result buffer only. -/
theorem op5_writes (x0 x1 x2 x3 x4 y : Ref sig .tc) (G : x0.ty.Contents Val → x1.ty.Contents Val → x2.ty.Contents Val → x3.ty.Contents Val → x4.ty.Contents Val → y.ty.Contents Val) (hxs) (hy) :
    (op5 (τ := τ) x0 x1 x2 x3 x4 y G hxs hy).writes = {Proc.devRef .tc y} := rfl

/-- An operation of 7 operands into `y`, its function curried: `y` takes `G` of the operands' contents. -/
def op7 (x0 x1 x2 x3 x4 x5 x6 y : Ref sig .tc) (G : x0.ty.Contents Val → x1.ty.Contents Val → x2.ty.Contents Val → x3.ty.Contents Val → x4.ty.Contents Val → x5.ty.Contents Val → x6.ty.Contents Val → y.ty.Contents Val)
    (hxs : ∀ k, ((![x0, x1, x2, x3, x4, x5, x6] : Fin 7 → Ref sig .tc) k).space ≠ .host ∧ (((![x0, x1, x2, x3, x4, x5, x6] : Fin 7 → Ref sig .tc) k : Ref sig .tc) : DevRef τ sig).isScoped = false)
    (hy : y.space ≠ .host ∧ (y : DevRef τ sig).isScoped = false) : HloOp τ sig Val :=
  StableHlo.nary ![x0, x1, x2, x3, x4, x5, x6] y (fun u => G (u 0) (u 1) (u 2) (u 3) (u 4) (u 5) (u 6)) hxs hy

/-- What it leaves in its result: `G` of the operands' contents, each at its own reference. -/
theorem op7_result' (x0 x1 x2 x3 x4 x5 x6 y : Ref sig .tc) (G : x0.ty.Contents Val → x1.ty.Contents Val → x2.ty.Contents Val → x3.ty.Contents Val → x4.ty.Contents Val → x5.ty.Contents Val → x6.ty.Contents Val → y.ty.Contents Val) (hxs) (hy) (F : Valuation τ sig Val) :
    (op7 (τ := τ) x0 x1 x2 x3 x4 x5 x6 y G hxs hy).result F (no_index (Proc.devRef .tc y)) = G (F (Proc.devRef .tc x0)) (F (Proc.devRef .tc x1)) (F (Proc.devRef .tc x2)) (F (Proc.devRef .tc x3)) (F (Proc.devRef .tc x4)) (F (Proc.devRef .tc x5)) (F (Proc.devRef .tc x6)) := by
  unfold op7
  rw [StableHlo.nary_result']
  rfl

/-- Every other buffer it leaves alone. -/
theorem op7_result_ne' (x0 x1 x2 x3 x4 x5 x6 y : Ref sig .tc) (G : x0.ty.Contents Val → x1.ty.Contents Val → x2.ty.Contents Val → x3.ty.Contents Val → x4.ty.Contents Val → x5.ty.Contents Val → x6.ty.Contents Val → y.ty.Contents Val) (hxs) (hy) (F : Valuation τ sig Val)
    {r : Ref sig .tc} (h : r ≠ y) :
    (op7 (τ := τ) x0 x1 x2 x3 x4 x5 x6 y G hxs hy).result F (no_index (Proc.devRef .tc r)) = F (Proc.devRef .tc r) := by
  unfold op7
  exact StableHlo.nary_result_ne' _ _ _ _ _ h

/-- It writes its result buffer only. -/
theorem op7_writes (x0 x1 x2 x3 x4 x5 x6 y : Ref sig .tc) (G : x0.ty.Contents Val → x1.ty.Contents Val → x2.ty.Contents Val → x3.ty.Contents Val → x4.ty.Contents Val → x5.ty.Contents Val → x6.ty.Contents Val → y.ty.Contents Val) (hxs) (hy) :
    (op7 (τ := τ) x0 x1 x2 x3 x4 x5 x6 y G hxs hy).writes = {Proc.devRef .tc y} := rfl

end Curried

end Cert.Lib.RegionOp

end
-- ==== Proof.Fold.lean ====
/-
  The kernel's result array, read back through the whole program.

  A region leaves its one output table at a function of its input arrays and every other buffer as it was: that is what
  one operation on whole arrays leaves. So the buffer contents at the last region's entry are one fold of operations over
  the launch memory, and each array the last region reads is read off that fold operation by operation: the aggregated
  table is the second pass along the edges over the constraint nodes' layer, itself over the first pass along the edges
  over the embedding; the degree column, the weights and the bias rows are reshaped arguments. The two passes along the
  edges and the two degree arrays are named here by the host operations that compute them, and never opened.
-/
import proofs.«179143_j2843268349978_2_alg».proof.Proof.Gen.KernelIdeal.Frame
import proofs.«179143_j2843268349978_2_alg».proof.Proof.Spec
import proofs.«179143_j2843268349978_2_alg».proof.Proof.Region0
import proofs.«179143_j2843268349978_2_alg».proof.Proof.Region1
import proofs.«179143_j2843268349978_2_alg».proof.Proof.LibRegionOp
import Idealize.ShloMosaic.Lib.StableHlo.Run
import Idealize.ShloMosaic.Lib.Pipeline.Value

set_option maxRecDepth 16384

noncomputable section

namespace Cert.KernelSide

open Idealize.ShloMosaic Idealize.ShloMosaic.TcCoe Idealize.SL.Sem Idealize.ShloMosaic.StableHlo
open Idealize.ShloMosaic.Pipeline (Dat)
open Cert.KernelIdeal Cert.KernelIdeal.Gen Cert.Gnn

/-- A variable node's degree: the count of the edges that name it, at least one. -/
def degVar (src : S8000000.Idx → BitVec 32) : S1000000.Idx → EReal :=
  maximumf (Host.scatterAdd scatter_S1000000_S8000000x1_S8000000_n_0_0_1
      (broadcastInDim S1000000 ![] bcast_S_S1000000 (constant (F := Ideal) S_ .f32 0x00000000#32))
      (broadcastInDim S8000000x1 ![0] bcast_S8000000_S8000000x1_0 src)
      (broadcastInDim S8000000 ![] bcast_S_S8000000 (constant (F := Ideal) S_ .f32 0x3F800000#32)))
    (broadcastInDim S1000000 ![] bcast_S_S1000000 (constant (F := Ideal) S_ .f32 0x3F800000#32))

/-- A constraint node's degree. -/
def degCon (dst : S8000000.Idx → BitVec 32) : S500000.Idx → EReal :=
  maximumf (Host.scatterAdd scatter_S500000_S8000000x1_S8000000_n_0_0_1
      (broadcastInDim S500000 ![] bcast_S_S500000 (constant (F := Ideal) S_ .f32 0x00000000#32))
      (broadcastInDim S8000000x1 ![0] bcast_S8000000_S8000000x1_0 dst)
      (broadcastInDim S8000000 ![] bcast_S_S8000000 (constant (F := Ideal) S_ .f32 0x3F800000#32)))
    (broadcastInDim S500000 ![] bcast_S_S500000 (constant (F := Ideal) S_ .f32 0x3F800000#32))

/-- The first pass along the edges: each edge takes its variable node's row, scales it by the edge's weight, and the rows
    are summed per constraint node. -/
def hop1 (h : S1000000x10.Idx → EReal) (src dst : S8000000.Idx → BitVec 32) (w : S8000000.Idx → EReal) :
    S500000x10.Idx → EReal :=
  Host.scatterAdd scatter_S500000x10_S8000000x1_S8000000x10_1_0_0_1
    (broadcastInDim S500000x10 ![] bcast_S_S500000x10 (constant (F := Ideal) S_ .f32 0x00000000#32))
    (broadcastInDim S8000000x1 ![0] bcast_S8000000_S8000000x1_0 dst)
    (mulf (Host.gather gather_S1000000x10_S8000000x1_S8000000x10_1_0_n_n_0_1_110 h
        (broadcastInDim S8000000x1 ![0] bcast_S8000000_S8000000x1_0
          (select (cmpi .slt src (broadcastInDim S8000000 ![] bcast_S_S8000000 (constantI S_ 32 0#32)))
            (addi src (broadcastInDim S8000000 ![] bcast_S_S8000000 (constantI S_ 32 1000000#32))) src)))
      (broadcastInDim S8000000x10 ![0, 1] bcast_S8000000x1_S8000000x10_0_1
        (broadcastInDim S8000000x1 ![0] bcast_S8000000_S8000000x1_0 w)))

/-- The second pass along the edges, back from the constraint nodes to the variable nodes. -/
def hop2 (h : S500000x10.Idx → EReal) (src dst : S8000000.Idx → BitVec 32) (w : S8000000.Idx → EReal) :
    S1000000x10.Idx → EReal :=
  Host.scatterAdd scatter_S1000000x10_S8000000x1_S8000000x10_1_0_0_1
    (broadcastInDim S1000000x10 ![] bcast_S_S1000000x10 (constant (F := Ideal) S_ .f32 0x00000000#32))
    (broadcastInDim S8000000x1 ![0] bcast_S8000000_S8000000x1_0 src)
    (mulf (Host.gather gather_S500000x10_S8000000x1_S8000000x10_1_0_n_n_0_1_110 h
        (broadcastInDim S8000000x1 ![0] bcast_S8000000_S8000000x1_0
          (select (cmpi .slt dst (broadcastInDim S8000000 ![] bcast_S_S8000000 (constantI S_ 32 0#32)))
            (addi dst (broadcastInDim S8000000 ![] bcast_S_S8000000 (constantI S_ 32 500000#32))) dst)))
      (broadcastInDim S8000000x10 ![0, 1] bcast_S8000000x1_S8000000x10_0_1
        (broadcastInDim S8000000x1 ![0] bcast_S8000000_S8000000x1_0 w)))

variable (m : (ℓ : Loc nD τ sig) → Buf (Elt Ideal) ℓ) (ρ : Dev nD → PrngReg)

/-- The first region as one operation on whole arrays. -/
def op0 : HloOp τ sig (Elt Ideal) :=
  Cert.Lib.RegionOp.op5 main_v11 main_v12 main_v13 main_arg6 main_v15 main_v16 Region0.G (by decide) ⟨by decide, rfl⟩

/-- The second region as one operation on whole arrays. -/
def op1 : HloOp τ sig (Elt Ideal) :=
  StableHlo.quaternary main_v29 main_v14 main_arg12 main_v30 main_v31 Region1.G

/-- What the first region leaves is what that operation leaves of the contents it was entered with. -/
theorem W2_eq (c : Dev nD) : W2 (F := Ideal) m ρ c = op0.result (W1 m ρ c) := by
  unfold W2
  refine Cert.Lib.RegionOp.withArrays_eq_result spec0 launch0.win.arr_inj c (W1 m ρ c) _ op0 5 rfl ?_ ?_
  · rw [Region0.final]
    exact (Cert.Lib.RegionOp.op5_result' (τ := τ) main_v11 main_v12 main_v13 main_arg6 main_v15 main_v16 Region0.G _ _ (W1 m ρ c)).symm
  · intro w hw
    rw [(dat0 (V1 m ρ) c).arrAt_in w (by
      match w, hw with
      | ⟨0, _⟩, _ => rfl
      | ⟨1, _⟩, _ => rfl
      | ⟨2, _⟩, _ => rfl
      | ⟨3, _⟩, _ => rfl
      | ⟨4, _⟩, _ => rfl
      | ⟨5, _⟩, hw => exact absurd rfl hw) _]
    rfl

/-- What the second region leaves is what that operation leaves of the contents it was entered with. -/
theorem W4_eq (c : Dev nD) : W4 (F := Ideal) m ρ c = op1.result (W3 m ρ c) := by
  unfold W4
  refine Cert.Lib.RegionOp.withArrays_eq_result spec1 launch1.win.arr_inj c (W3 m ρ c) _ op1 4 rfl ?_ ?_
  · rw [Region1.final]
    exact (StableHlo.quaternary_result' (τ := τ) (a := main_v29) (b := main_v14) (c := main_arg12) (e := main_v30) (y := main_v31)
      Region1.G _ _ _ _ _ (W3 m ρ c)).symm
  · intro w hw
    rw [(dat1 (V3 m ρ) c).arrAt_in w (by
      match w, hw with
      | ⟨0, _⟩, _ => rfl
      | ⟨1, _⟩, _ => rfl
      | ⟨2, _⟩, _ => rfl
      | ⟨3, _⟩, _ => rfl
      | ⟨4, _⟩, hw => exact absurd rfl hw) _]
    rfl

/-- The contents at the last region's entry: one fold of operations over the launch memory. -/
theorem W5_eq (c : Dev nD) : W5 (F := Ideal) m ρ c
    = after hostOps2 (op1.result (after hostOps1 (op0.result (after hostOps0 (W0 m ρ c))))) := by
  show after hostOps2 (W4 m ρ c) = _
  rw [W4_eq]
  show after hostOps2 (op1.result (after hostOps1 (W2 m ρ c))) = _
  rw [W2_eq]

end Cert.KernelSide

/-- Reads the program's fold of operations back at a buffer, the two regions' operations included. -/
macro "read_program" : tactic =>
  `(tactic| (simp (disch := decide) only [Cert.KernelIdeal.Gen.hostOps0, Cert.KernelIdeal.Gen.hostOps1, Cert.KernelIdeal.Gen.hostOps2,
      Idealize.ShloMosaic.StableHlo.after_cons, Idealize.ShloMosaic.StableHlo.after_nil,
      Idealize.ShloMosaic.StableHlo.nullary_result', Idealize.ShloMosaic.StableHlo.unary_result', Idealize.ShloMosaic.StableHlo.binary_result',
      Idealize.ShloMosaic.StableHlo.ternary_result', Idealize.ShloMosaic.StableHlo.quaternary_result', Idealize.ShloMosaic.StableHlo.reshape_result',
      Idealize.ShloMosaic.StableHlo.nullary_result_ne', Idealize.ShloMosaic.StableHlo.unary_result_ne', Idealize.ShloMosaic.StableHlo.binary_result_ne',
      Idealize.ShloMosaic.StableHlo.ternary_result_ne', Idealize.ShloMosaic.StableHlo.quaternary_result_ne', Idealize.ShloMosaic.StableHlo.reshape_result_ne',
      Cert.Lib.RegionOp.op5_result', Cert.Lib.RegionOp.op5_result_ne']))

namespace Cert.KernelSide

open Idealize.ShloMosaic Idealize.ShloMosaic.TcCoe Idealize.SL.Sem Idealize.ShloMosaic.StableHlo
open Idealize.ShloMosaic.Pipeline (Dat)
open Cert.KernelIdeal Cert.KernelIdeal.Gen Cert.Gnn

variable (m : (ℓ : Loc nD τ sig) → Buf (Elt Ideal) ℓ) (ρ : Dev nD → PrngReg)

/-- The aggregated table the last region reads: the second pass over the constraint nodes' layer over the first pass over
    the embedding. -/
theorem V5_agg (c : Dev nD) : V5 m ρ c main_v44
    = hop2 (Region1.G (hop1 (Region0.G (shapeCast S1000000x1 (m ((c.tc : Thread nD τ).loc main_arg0)) shapeCasts_S1000000_S1000000x1)
          (shapeCast S1000000x1 (m ((c.tc : Thread nD τ).loc main_arg1)) shapeCasts_S1000000_S1000000x1)
          (shapeCast S1000000x1 (degVar (m ((c.tc : Thread nD τ).loc main_arg3))) shapeCasts_S1000000_S1000000x1)
          (m ((c.tc : Thread nD τ).loc main_arg6)) (shapeCast S1x10 (m ((c.tc : Thread nD τ).loc main_arg7)) shapeCasts_S10_S1x10))
        (m ((c.tc : Thread nD τ).loc main_arg3)) (m ((c.tc : Thread nD τ).loc main_arg4)) (m ((c.tc : Thread nD τ).loc main_arg5)))
        (shapeCast S500000x1 (degCon (m ((c.tc : Thread nD τ).loc main_arg4))) shapeCasts_S500000_S500000x1)
        (m ((c.tc : Thread nD τ).loc main_arg12)) (shapeCast S1x10 (m ((c.tc : Thread nD τ).loc main_arg13)) shapeCasts_S10_S1x10))
      (m ((c.tc : Thread nD τ).loc main_arg3)) (m ((c.tc : Thread nD τ).loc main_arg4)) (m ((c.tc : Thread nD τ).loc main_arg5)) := by
  show W5 m ρ c (Proc.devRef .tc main_v44) = _
  rw [W5_eq]
  unfold op0 op1
  read_program
  rfl

/-- The degree column the last region reads. -/
theorem V5_deg (c : Dev nD) : V5 m ρ c main_v13
    = shapeCast S1000000x1 (degVar (m ((c.tc : Thread nD τ).loc main_arg3))) shapeCasts_S1000000_S1000000x1 := by
  show W5 m ρ c (Proc.devRef .tc main_v13) = _
  rw [W5_eq]
  unfold op0 op1
  read_program
  rfl

/-- The weights the last region reads are arguments. -/
theorem V5_weights (c : Dev nD) : V5 m ρ c main_arg12 = (m ((c.tc : Thread nD τ).loc main_arg12)) ∧ V5 m ρ c main_arg14 = (m ((c.tc : Thread nD τ).loc main_arg14))
    ∧ V5 m ρ c main_arg16 = (m ((c.tc : Thread nD τ).loc main_arg16)) ∧ V5 m ρ c main_arg18 = (m ((c.tc : Thread nD τ).loc main_arg18)) := by
  refine ⟨?_, ?_, ?_, ?_⟩
  all_goals
    show W5 m ρ c (Proc.devRef .tc _) = _
    rw [W5_eq]
    unfold op0 op1
    read_program

/-- The bias rows the last region reads are reshaped arguments. -/
theorem V5_biases (c : Dev nD) : V5 m ρ c main_v45 = shapeCast S1x10 (m ((c.tc : Thread nD τ).loc main_arg13)) shapeCasts_S10_S1x10
    ∧ V5 m ρ c main_v46 = shapeCast S1x10 (m ((c.tc : Thread nD τ).loc main_arg15)) shapeCasts_S10_S1x10
    ∧ V5 m ρ c main_v47 = shapeCast S1x10 (m ((c.tc : Thread nD τ).loc main_arg17)) shapeCasts_S10_S1x10
    ∧ V5 m ρ c main_v48 = shapeCast S1x1 (m ((c.tc : Thread nD τ).loc main_arg19)) shapeCasts_S1_S1x1 := by
  refine ⟨?_, ?_, ?_, ?_⟩
  all_goals
    show W5 m ρ c (Proc.devRef .tc _) = _
    rw [W5_eq]
    unfold op0 op1
    read_program
    rfl

end Cert.KernelSide

end
-- ==== Proof.Region2.lean ====
/-
  The last region of the kernel, read as mathematics.

  The region visits the million variable nodes in 250 tiles of 4000 rows. At each tile it scales the tile's rows of
  the aggregated table by the inverse square root of the row's degree, applies three dense layers each clipped at
  zero and a last dense layer to one number per row, and adds the sum of those 4000 numbers into a one-by-one block
  that it carries from tile to tile: the first tile starts the block at the zero word, the last tile multiplies the
  block by the reciprocal of a million.

  Here: what each of the three kinds of tile leaves in the block, as a term of the tile's input blocks; that a
  tile's contribution is the sum over the tile's rows of the specification's per-node output (the per-node output
  reads only its own row of the table and its own degree, and the tile's blocks are those rows); that the block
  after tile `n` holds zero plus the first `n + 1` tile sums (induction on `n`, sums of extended reals regrouped by
  commutativity and associativity only); and so that the result array ends holding the mean of the per-node
  output over the million rows.
-/
import proofs.«179143_j2843268349978_2_alg».proof.Proof.Gen.KernelIdeal.Frame
import proofs.«179143_j2843268349978_2_alg».proof.Proof.Spec
import proofs.«179143_j2843268349978_2_alg».proof.Proof.LibPlainDot
import proofs.«179143_j2843268349978_2_alg».proof.Proof.LibColumn
import Idealize.ShloMosaic.Lib.ValueIdx
import Idealize.ShloMosaic.Lib.ValueLayout
import Idealize.ShloMosaic.Lib.Pipeline.Value
import Idealize.ShloMosaic.Lib.Tactic
import Idealize.ShloMosaic.PureOps.Ideal.Laws
import Idealize.ShloMosaic.PureOps.IdealRules

noncomputable section

open scoped BigOperators
open Idealize.ShloMosaic Idealize.ShloMosaic.TcCoe Idealize.SL.Sem Idealize.ShloMosaic.ValueIdx
open Idealize.ShloMosaic.Pipeline (Dat)

namespace Cert.KernelSide.Region2

open Cert.KernelIdeal Cert.KernelIdeal.Gen

/-! ## What each kind of tile leaves in the carried block -/

theorem hz : (![0, 0] : Fin 2 → Nat) = fun _ => 0 := funext fun a => by fin_cases a <;> rfl

section Pieces

variable {F : FTy → Type} [FloatOps F] [Named F]

/-- What one grid point adds to the running block: the block it finds plus the sum, down the tile's four thousand rows, of the
    last dense layer applied to the three clipped dense layers of the scaled tile. -/
abbrev step (x0 : Vec F S4000x10 .f32) (x1 : Vec F S4000x1 .f32) (x2 : Vec F S10x10 .f32) (x3 : Vec F S1x10 .f32) (x4 : Vec F S10x10 .f32) (x5 : Vec F S1x10 .f32) (x6 : Vec F S10x10 .f32) (x7 : Vec F S1x10 .f32) (x8 : Vec F S10x1 .f32) (x9 : Vec F S1x1 .f32) (acc : Vec F S1x1 .f32) : Vec F S1x1 .f32 :=
  k2_pay1 (k2_pay4 x1 x0 x2 x3 x4 x5 x6 x7) x8 x9 acc

theorem out_B (c : Dev nD) (i : grid2.Coords) (arg1 : Memref sig .tc .vmem S4000x10 .f32) (harg1 : arg1.IsWhole) (arg2 : Memref sig .tc .vmem S4000x1 .f32) (harg2 : arg2.IsWhole) (arg3 : Memref sig .tc .vmem S10x10 .f32) (harg3 : arg3.IsWhole) (arg4 : Memref sig .tc .vmem S1x10 .f32) (harg4 : arg4.IsWhole) (arg5 : Memref sig .tc .vmem S10x10 .f32) (harg5 : arg5.IsWhole) (arg6 : Memref sig .tc .vmem S1x10 .f32) (harg6 : arg6.IsWhole) (arg7 : Memref sig .tc .vmem S10x10 .f32) (harg7 : arg7.IsWhole) (arg8 : Memref sig .tc .vmem S1x10 .f32) (harg8 : arg8.IsWhole) (arg9 : Memref sig .tc .vmem S10x1 .f32) (harg9 : arg9.IsWhole) (arg10 : Memref sig .tc .vmem S1x1 .f32) (harg10 : arg10.IsWhole) (arg11 : Memref sig .tc .vmem S1x1 .f32) (harg11 : arg11.IsWhole) (hc0 : ¬cond2_0 i) (hc1 : ¬cond2_1 i)
    (x0 : Vec F S4000x10 .f32) (x1 : Vec F S4000x1 .f32) (x2 : Vec F S10x10 .f32) (x3 : Vec F S1x10 .f32) (x4 : Vec F S10x10 .f32) (x5 : Vec F S1x10 .f32) (x6 : Vec F S10x10 .f32) (x7 : Vec F S1x10 .f32) (x8 : Vec F S10x1 .f32) (x9 : Vec F S1x1 .f32) (xo10 : Vec F S1x1 .f32) :
    out2_B_10 c i arg1 harg1 arg2 harg2 arg3 harg3 arg4 harg4 arg5 harg5 arg6 harg6 arg7 harg7 arg8 harg8 arg9 harg9 arg10 harg10 arg11 harg11 hc0 hc1 x0 x1 x2 x3 x4 x5 x6 x7 x8 x9 xo10 = step x0 x1 x2 x3 x4 x5 x6 x7 x8 x9 xo10 := by
  unfold out2_B_10
  rw [View.read_writes_eq_canon _ _ _ (cover2_B_10 c i arg1 harg1 arg2 harg2 arg3 harg3 arg4 harg4 arg5 harg5 arg6 harg6 arg7 harg7 arg8 harg8 arg9 harg9 arg10 harg10 arg11 harg11 hc0 hc1 x0 x1 x2 x3 x4 x5 x6 x7 x8 x9 xo10)]
  unfold kernelRun2_B
  dsimp only
  sl_unfold_words
  rw [View.canon_unit_zero (S := S1x1) hz]
  simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S4000x10) hz, View.ld_unit_zero (S := S4000x1) hz, View.ld_unit_zero (S := S10x10) hz, View.ld_unit_zero (S := S1x10) hz, View.ld_unit_zero (S := S10x1) hz, View.ld_unit_zero (S := S1x1) hz]

theorem out_A (c : Dev nD) (i : grid2.Coords) (arg1 : Memref sig .tc .vmem S4000x10 .f32) (harg1 : arg1.IsWhole) (arg2 : Memref sig .tc .vmem S4000x1 .f32) (harg2 : arg2.IsWhole) (arg3 : Memref sig .tc .vmem S10x10 .f32) (harg3 : arg3.IsWhole) (arg4 : Memref sig .tc .vmem S1x10 .f32) (harg4 : arg4.IsWhole) (arg5 : Memref sig .tc .vmem S10x10 .f32) (harg5 : arg5.IsWhole) (arg6 : Memref sig .tc .vmem S1x10 .f32) (harg6 : arg6.IsWhole) (arg7 : Memref sig .tc .vmem S10x10 .f32) (harg7 : arg7.IsWhole) (arg8 : Memref sig .tc .vmem S1x10 .f32) (harg8 : arg8.IsWhole) (arg9 : Memref sig .tc .vmem S10x1 .f32) (harg9 : arg9.IsWhole) (arg10 : Memref sig .tc .vmem S1x1 .f32) (harg10 : arg10.IsWhole) (arg11 : Memref sig .tc .vmem S1x1 .f32) (harg11 : arg11.IsWhole) (hc0 : cond2_0 i) (hc1 : ¬cond2_1 i)
    (x0 : Vec F S4000x10 .f32) (x1 : Vec F S4000x1 .f32) (x2 : Vec F S10x10 .f32) (x3 : Vec F S1x10 .f32) (x4 : Vec F S10x10 .f32) (x5 : Vec F S1x10 .f32) (x6 : Vec F S10x10 .f32) (x7 : Vec F S1x10 .f32) (x8 : Vec F S10x1 .f32) (x9 : Vec F S1x1 .f32) :
    out2_A_10 c i arg1 harg1 arg2 harg2 arg3 harg3 arg4 harg4 arg5 harg5 arg6 harg6 arg7 harg7 arg8 harg8 arg9 harg9 arg10 harg10 arg11 harg11 hc0 hc1 x0 x1 x2 x3 x4 x5 x6 x7 x8 x9 = step x0 x1 x2 x3 x4 x5 x6 x7 x8 x9 (k2_pay3 (F := F)) := by
  unfold out2_A_10
  rw [View.read_writes_eq_canon _ _ _ (cover2_A_10 c i arg1 harg1 arg2 harg2 arg3 harg3 arg4 harg4 arg5 harg5 arg6 harg6 arg7 harg7 arg8 harg8 arg9 harg9 arg10 harg10 arg11 harg11 hc0 hc1 x0 x1 x2 x3 x4 x5 x6 x7 x8 x9)]
  unfold kernelRun2_A
  dsimp only
  sl_unfold_words
  rw [View.canon_cons_unit_zero (S := S1x1) hz, View.readCov_unit_zero (S := S1x1) _ hz]
  simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S4000x10) hz, View.ld_unit_zero (S := S4000x1) hz, View.ld_unit_zero (S := S10x10) hz, View.ld_unit_zero (S := S1x10) hz, View.ld_unit_zero (S := S10x1) hz, View.ld_unit_zero (S := S1x1) hz]

theorem out_C (c : Dev nD) (i : grid2.Coords) (arg1 : Memref sig .tc .vmem S4000x10 .f32) (harg1 : arg1.IsWhole) (arg2 : Memref sig .tc .vmem S4000x1 .f32) (harg2 : arg2.IsWhole) (arg3 : Memref sig .tc .vmem S10x10 .f32) (harg3 : arg3.IsWhole) (arg4 : Memref sig .tc .vmem S1x10 .f32) (harg4 : arg4.IsWhole) (arg5 : Memref sig .tc .vmem S10x10 .f32) (harg5 : arg5.IsWhole) (arg6 : Memref sig .tc .vmem S1x10 .f32) (harg6 : arg6.IsWhole) (arg7 : Memref sig .tc .vmem S10x10 .f32) (harg7 : arg7.IsWhole) (arg8 : Memref sig .tc .vmem S1x10 .f32) (harg8 : arg8.IsWhole) (arg9 : Memref sig .tc .vmem S10x1 .f32) (harg9 : arg9.IsWhole) (arg10 : Memref sig .tc .vmem S1x1 .f32) (harg10 : arg10.IsWhole) (arg11 : Memref sig .tc .vmem S1x1 .f32) (harg11 : arg11.IsWhole) (hc0 : ¬cond2_0 i) (hc1 : cond2_1 i)
    (x0 : Vec F S4000x10 .f32) (x1 : Vec F S4000x1 .f32) (x2 : Vec F S10x10 .f32) (x3 : Vec F S1x10 .f32) (x4 : Vec F S10x10 .f32) (x5 : Vec F S1x10 .f32) (x6 : Vec F S10x10 .f32) (x7 : Vec F S1x10 .f32) (x8 : Vec F S10x1 .f32) (x9 : Vec F S1x1 .f32) (xo10 : Vec F S1x1 .f32) :
    out2_C_10 c i arg1 harg1 arg2 harg2 arg3 harg3 arg4 harg4 arg5 harg5 arg6 harg6 arg7 harg7 arg8 harg8 arg9 harg9 arg10 harg10 arg11 harg11 hc0 hc1 x0 x1 x2 x3 x4 x5 x6 x7 x8 x9 xo10 = k2_pay2 (step x0 x1 x2 x3 x4 x5 x6 x7 x8 x9 xo10) := by
  unfold out2_C_10
  rw [View.read_writes_eq_canon _ _ _ (cover2_C_10 c i arg1 harg1 arg2 harg2 arg3 harg3 arg4 harg4 arg5 harg5 arg6 harg6 arg7 harg7 arg8 harg8 arg9 harg9 arg10 harg10 arg11 harg11 hc0 hc1 x0 x1 x2 x3 x4 x5 x6 x7 x8 x9 xo10)]
  unfold kernelRun2_C
  dsimp only
  sl_unfold_words
  rw [View.canon_cons_unit_zero (S := S1x1) hz, View.readCov_unit_zero (S := S1x1) _ hz]
  simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S4000x10) hz, View.ld_unit_zero (S := S4000x1) hz, View.ld_unit_zero (S := S10x10) hz, View.ld_unit_zero (S := S1x10) hz, View.ld_unit_zero (S := S10x1) hz, View.ld_unit_zero (S := S1x1) hz]

end Pieces

/-! ## The arithmetic of one tile, over the extended reals -/

section Tile

open Cert.Gnn

/-- A bias held as a one-row block, as a vector of ten. -/
def rowOf (x : Vec Ideal S1x10 .f32) : S10.Idx → EReal := fun i => x (ix2 (0 : Fin 1) (i 0))

/-- A column block of four thousand degrees, as a vector. -/
def colOf (x : Vec Ideal S4000x1 .f32) : (⟨1, ![4000]⟩ : Shape).Idx → EReal := fun i => x (ix2 (i 0) (0 : Fin 1))

/-- The last bias held as a one-by-one block, as a vector of one. -/
def oneOf (x : Vec Ideal S1x1 .f32) : S1.Idx → EReal := fun i => x (ix2 (0 : Fin 1) (i 0))

theorem dot10 : dot_S4000x10_S10x10_S4000x10_1_0_0_1_n_n = DotDims.plain 4000 10 10 := rfl
theorem dot1 : dot_S4000x10_S10x1_S4000x1_1_0_0_1_n_n = DotDims.plain 4000 10 1 := rfl

variable {N : Nat}

theorem hidden_apply (agg : (⟨2, ![N, 10]⟩ : Shape).Idx → EReal) (d : (⟨1, ![N]⟩ : Shape).Idx → EReal)
    (W : S10x10.Idx → EReal) (b : S10.Idx → EReal) (n : Fin N) (q : Fin 10) :
    hidden agg d W b (ix2 n q)
      = max ((∑ k : Fin 10, agg (ix2 n k) * Ideal.rsqrt (d (ix1 n)) * W (ix2 k q)) + b (ix1 q)) z32 := rfl

theorem layer_apply (h : (⟨2, ![N, 10]⟩ : Shape).Idx → EReal) (W : S10x10.Idx → EReal) (b : S10.Idx → EReal)
    (n : Fin N) (q : Fin 10) :
    layer h W b (ix2 n q) = max ((∑ k : Fin 10, h (ix2 n k) * W (ix2 k q)) + b (ix1 q)) z32 := rfl

theorem logit_apply (h : (⟨2, ![N, 10]⟩ : Shape).Idx → EReal) (Wo : S10x1.Idx → EReal) (bo : S1.Idx → EReal) (n : Fin N) :
    logit h Wo bo n = (∑ k : Fin 10, h (ix2 n k) * Wo (ix2 k (0 : Fin 1))) + bo (ix1 (0 : Fin 1)) := rfl

/-- One dense layer of the tile with its clip at zero, at an entry. -/
theorem denseRelu_apply (h : FVec Ideal S4000x10 .f32) (W : FVec Ideal S10x10 .f32) (x : FVec Ideal S1x10 .f32)
    (p : Fin 4000) (q : Fin 10) :
    maximumf (addf (matmul dot_S4000x10_S10x10_S4000x10_1_0_0_1_n_n none h W (constant S4000x10 .f32 0x00000000#32))
        (broadcastTo S4000x10 (shapeCast S1x10 x shapeCasts_S1x10_S1x10) broadcasts_S1x10_S4000x10))
      (broadcast S4000x10 (Scalar.ofBits .f32 0x00000000#32)) (ix2 p q)
      = max ((∑ k : Fin 10, h (ix2 p k) * W (ix2 k q)) + x (ix2 (0 : Fin 1) q)) z32 := by
  rw [maximumf_apply, addf_apply, shapeCast_self, broadcastTo_1b_ab_apply]
  refine congrArg₂ max (congrArg₂ (· + ·) ?_ rfl) rfl
  exact Cert.Lib.PlainDot.matmul_zero_apply none h W p q

/-- The scaled tile at an entry: the aggregated row times the inverse square root of the row's degree. -/
theorem scaled_apply (x0 : FVec Ideal S4000x10 .f32) (x1 : FVec Ideal S4000x1 .f32) (p : Fin 4000) (k : Fin 10) :
    mulf (shapeCast S4000x10 x0 shapeCasts_S4000x10_S4000x10)
        (broadcastTo S4000x10 (rsqrt (shapeCast S4000x1 x1 shapeCasts_S4000x1_S4000x1)) broadcasts_S4000x1_S4000x10) (ix2 p k)
      = x0 (ix2 p k) * Ideal.rsqrt (x1 (ix2 p (0 : Fin 1))) := by
  rw [mulf_apply, shapeCast_self, shapeCast_self, Cert.Lib.Column.colBroadcast_apply]
  rfl

/-- The three clipped dense layers of a tile are the specification's three layers of the tile's own rows. -/
theorem pay4_apply (x1 : FVec Ideal S4000x1 .f32) (x0 : FVec Ideal S4000x10 .f32) (x2 : FVec Ideal S10x10 .f32)
    (x3 : FVec Ideal S1x10 .f32) (x4 : FVec Ideal S10x10 .f32) (x5 : FVec Ideal S1x10 .f32) (x6 : FVec Ideal S10x10 .f32)
    (x7 : FVec Ideal S1x10 .f32) (p : Fin 4000) (q : Fin 10) :
    k2_pay4 (F := Ideal) x1 x0 x2 x3 x4 x5 x6 x7 (ix2 p q)
      = layer (layer (hidden x0 (colOf x1) x2 (rowOf x3)) x4 (rowOf x5)) x6 (rowOf x7) (ix2 p q) := by
  unfold k2_pay4
  refine (denseRelu_apply _ x6 x7 p q).trans ?_
  rw [layer_apply]
  refine congrArg₂ max (congrArg₂ (· + ·) (Finset.sum_congr rfl fun k _ => congrArg (· * x6 (ix2 k q)) ?_) rfl) rfl
  refine (denseRelu_apply _ x4 x5 p k).trans ?_
  rw [layer_apply]
  refine congrArg₂ max (congrArg₂ (· + ·) (Finset.sum_congr rfl fun k' _ => congrArg (· * x4 (ix2 k' k)) ?_) rfl) rfl
  refine (denseRelu_apply _ x2 x3 p k').trans ?_
  rw [hidden_apply]
  refine congrArg₂ max (congrArg₂ (· + ·) (Finset.sum_congr rfl fun k'' _ => congrArg (· * x2 (ix2 k'' k')) ?_) rfl) rfl
  exact scaled_apply x0 x1 p k''

/-- The accumulate store at its one entry: what was there plus the sum down the tile's rows of the last dense layer. -/
theorem pay1_apply (H : FVec Ideal S4000x10 .f32) (x8 : FVec Ideal S10x1 .f32) (x9 acc : FVec Ideal S1x1 .f32) :
    k2_pay1 (F := Ideal) H x8 x9 acc (ix2 (0 : Fin 1) (0 : Fin 1))
      = acc (ix2 (0 : Fin 1) (0 : Fin 1))
        + ∑ r : Fin 4000, ((∑ k : Fin 10, H (ix2 r k) * x8 (ix2 k (0 : Fin 1))) + x9 (ix2 (0 : Fin 1) (0 : Fin 1))) := by
  unfold k2_pay1
  refine (addf_apply _ _ _).trans ?_
  rw [shapeCast_self]
  refine congrArg (acc (ix2 (0 : Fin 1) (0 : Fin 1)) + ·) ?_
  refine (shapeCast_a_1a_apply _ shapeCasts_S1_S1x1 (0 : Fin 1) (0 : Fin 1)).trans ?_
  refine (Cert.Lib.Column.colSum_apply _ 0x00000000#32 reduces_S4000x1_S1 (.inl rfl) rfl).trans ?_
  refine Finset.sum_congr rfl fun r _ => ?_
  rw [addf_apply, shapeCast_self, broadcastTo_1b_ab_apply]
  refine congrArg (· + x9 (ix2 (0 : Fin 1) (0 : Fin 1))) ?_
  exact Cert.Lib.PlainDot.matmul_zero_apply none H x8 r (0 : Fin 1)

/-- One grid point's store at its one entry: what was there plus the sum of the specification's per-node output over the
    tile's own rows. -/
theorem step_apply (x0 : FVec Ideal S4000x10 .f32) (x1 : FVec Ideal S4000x1 .f32) (x2 : FVec Ideal S10x10 .f32)
    (x3 : FVec Ideal S1x10 .f32) (x4 : FVec Ideal S10x10 .f32) (x5 : FVec Ideal S1x10 .f32) (x6 : FVec Ideal S10x10 .f32)
    (x7 : FVec Ideal S1x10 .f32) (x8 : FVec Ideal S10x1 .f32) (x9 acc : FVec Ideal S1x1 .f32) :
    k2_pay1 (F := Ideal) (k2_pay4 x1 x0 x2 x3 x4 x5 x6 x7) x8 x9 acc (ix2 (0 : Fin 1) (0 : Fin 1))
      = acc (ix2 (0 : Fin 1) (0 : Fin 1))
        + ∑ r : Fin 4000, score x0 (colOf x1) x2 (rowOf x3) x4 (rowOf x5) x6 (rowOf x7) x8 (oneOf x9) r := by
  refine (pay1_apply _ x8 x9 acc).trans ?_
  refine congrArg (acc (ix2 (0 : Fin 1) (0 : Fin 1)) + ·) (Finset.sum_congr rfl fun r _ => ?_)
  show _ = logit _ x8 (oneOf x9) r
  rw [logit_apply]
  exact congrArg₂ (· + ·)
    (Finset.sum_congr rfl fun k _ => congrArg (· * x8 (ix2 k (0 : Fin 1))) (pay4_apply x1 x0 x2 x3 x4 x5 x6 x7 r k)) rfl

/-- The per-node output reads one row of the table and one degree: two tables that agree on a row, with degrees that
    agree there, give the same output at that row. -/
theorem score_row {N' : Nat} (agg : (⟨2, ![N, 10]⟩ : Shape).Idx → EReal) (d : (⟨1, ![N]⟩ : Shape).Idx → EReal)
    (agg' : (⟨2, ![N', 10]⟩ : Shape).Idx → EReal) (d' : (⟨1, ![N']⟩ : Shape).Idx → EReal)
    (W2 : S10x10.Idx → EReal) (b2 : S10.Idx → EReal) (W3 : S10x10.Idx → EReal) (b3 : S10.Idx → EReal)
    (W4 : S10x10.Idx → EReal) (b4 : S10.Idx → EReal) (W5 : S10x1.Idx → EReal) (b5 : S1.Idx → EReal)
    (n : Fin N) (n' : Fin N') (ha : ∀ k : Fin 10, agg (ix2 n k) = agg' (ix2 n' k)) (hd : d (ix1 n) = d' (ix1 n')) :
    score agg d W2 b2 W3 b3 W4 b4 W5 b5 n = score agg' d' W2 b2 W3 b3 W4 b4 W5 b5 n' := by
  have e1 : ∀ q : Fin 10, hidden agg d W2 b2 (ix2 n q) = hidden agg' d' W2 b2 (ix2 n' q) := fun q => by
    rw [hidden_apply, hidden_apply, hd]; simp only [ha]
  have e2 : ∀ q : Fin 10, layer (hidden agg d W2 b2) W3 b3 (ix2 n q) = layer (hidden agg' d' W2 b2) W3 b3 (ix2 n' q) :=
    fun q => by rw [layer_apply, layer_apply]; simp only [e1]
  have e3 : ∀ q : Fin 10, layer (layer (hidden agg d W2 b2) W3 b3) W4 b4 (ix2 n q)
      = layer (layer (hidden agg' d' W2 b2) W3 b3) W4 b4 (ix2 n' q) :=
    fun q => by rw [layer_apply, layer_apply]; simp only [e2]
  show logit _ W5 b5 n = logit _ W5 b5 n'
  rw [logit_apply, logit_apply]; simp only [e3]

/-- Row `r` of tile `t`, among the million rows. -/
def row (t : Fin 250) (r : Fin 4000) : Fin 1000000 := ⟨4000 * t.val + r.val, by have := t.isLt; have := r.isLt; omega⟩

/-- A sum over the million rows is the sum over the 250 tiles of the sums over each tile's 4000 rows. -/
theorem sum_rows (f : Fin 1000000 → EReal) : ∑ n : Fin 1000000, f n = ∑ t : Fin 250, ∑ r : Fin 4000, f (row t r) :=
  sum_tiles (A := 250) (B := 4000) f

/-- Tile `s`'s sum of a per-row quantity, as a function of every natural number (zero past the last tile). -/
def tileSum (f : Fin 1000000 → EReal) (s : ℕ) : EReal := if h : s < 250 then ∑ r : Fin 4000, f (row ⟨s, h⟩ r) else 0

theorem tileSum_of_lt (f : Fin 1000000 → EReal) (t : Fin 250) : tileSum f t.val = ∑ r : Fin 4000, f (row t r) :=
  dif_pos t.isLt

/-- The sum over the million rows is the sum of the 250 tile sums. -/
theorem sum_eq_range (f : Fin 1000000 → EReal) : ∑ n : Fin 1000000, f n = ∑ s ∈ Finset.range 250, tileSum f s := by
  rw [sum_rows, ← Fin.sum_univ_eq_sum_range]
  exact Finset.sum_congr rfl fun t _ => (tileSum_of_lt f t).symm

/-- One grid point's store when its blocks are tile `t` of the table and of the degrees, and the whole weights and biases:
    what was there plus tile `t`'s sum of the per-node output. -/
theorem tile_apply (agg : S1000000x10.Idx → EReal) (d : S1000000.Idx → EReal)
    (W2 : S10x10.Idx → EReal) (b2 : S10.Idx → EReal) (W3 : S10x10.Idx → EReal) (b3 : S10.Idx → EReal)
    (W4 : S10x10.Idx → EReal) (b4 : S10.Idx → EReal) (W5 : S10x1.Idx → EReal) (b5 : S1.Idx → EReal) (t : Fin 250)
    (x0 : FVec Ideal S4000x10 .f32) (x1 : FVec Ideal S4000x1 .f32) (x2 : FVec Ideal S10x10 .f32)
    (x3 : FVec Ideal S1x10 .f32) (x4 : FVec Ideal S10x10 .f32) (x5 : FVec Ideal S1x10 .f32) (x6 : FVec Ideal S10x10 .f32)
    (x7 : FVec Ideal S1x10 .f32) (x8 : FVec Ideal S10x1 .f32) (x9 acc : FVec Ideal S1x1 .f32)
    (h0 : ∀ (p : Fin 4000) (k : Fin 10), x0 (ix2 p k) = agg (ix2 (row t p) k))
    (h1 : ∀ p : Fin 4000, x1 (ix2 p (0 : Fin 1)) = d (ix1 (row t p)))
    (h2 : x2 = W2) (h3 : ∀ q : Fin 10, x3 (ix2 (0 : Fin 1) q) = b2 (ix1 q))
    (h4 : x4 = W3) (h5 : ∀ q : Fin 10, x5 (ix2 (0 : Fin 1) q) = b3 (ix1 q))
    (h6 : x6 = W4) (h7 : ∀ q : Fin 10, x7 (ix2 (0 : Fin 1) q) = b4 (ix1 q))
    (h8 : x8 = W5) (h9 : x9 (ix2 (0 : Fin 1) (0 : Fin 1)) = b5 (ix1 (0 : Fin 1))) :
    k2_pay1 (F := Ideal) (k2_pay4 x1 x0 x2 x3 x4 x5 x6 x7) x8 x9 acc (ix2 (0 : Fin 1) (0 : Fin 1))
      = acc (ix2 (0 : Fin 1) (0 : Fin 1)) + tileSum (score agg d W2 b2 W3 b3 W4 b4 W5 b5) t.val := by
  subst h2 h4 h6 h8
  have e3 : rowOf x3 = b2 := funext fun i => by
    obtain ⟨a, rfl⟩ : ∃ a : Fin 10, i = ix1 a := ⟨i 0, eq_ix1 i⟩
    exact h3 a
  have e5 : rowOf x5 = b3 := funext fun i => by
    obtain ⟨a, rfl⟩ : ∃ a : Fin 10, i = ix1 a := ⟨i 0, eq_ix1 i⟩
    exact h5 a
  have e7 : rowOf x7 = b4 := funext fun i => by
    obtain ⟨a, rfl⟩ : ∃ a : Fin 10, i = ix1 a := ⟨i 0, eq_ix1 i⟩
    exact h7 a
  have e9 : oneOf x9 = b5 := funext fun i => by
    obtain ⟨a, rfl⟩ : ∃ a : Fin 1, i = ix1 a := ⟨i 0, eq_ix1 i⟩
    obtain rfl : a = 0 := Subsingleton.elim _ _
    exact h9
  rw [step_apply, tileSum_of_lt, e3, e5, e7, e9]
  refine congrArg (acc (ix2 (0 : Fin 1) (0 : Fin 1)) + ·) (Finset.sum_congr rfl fun r _ => ?_)
  exact score_row x0 (colOf x1) agg d x2 b2 x4 b3 x6 b4 x8 b5 r (row t r) (fun k => h0 r k) (h1 r)

end Tile

/-! ## The tiles' blocks, read off the arrays as the region finds them -/

theorem lt250 (t : Fin cfg2.N) : t.val < 250 := lt_of_lt_of_eq t.isLt N_2

/-- The printed index maps, decided over the grid: the table's and the degrees' block index is the point, on the row axis;
    every other window's block index is zero. -/
theorem idx01 : ∀ t : Fin cfg2.N, win2_0.index t (0 : Fin 2) = t.val ∧ win2_0.index t (1 : Fin 2) = 0
    ∧ win2_1.index t (0 : Fin 2) = t.val ∧ win2_1.index t (1 : Fin 2) = 0 :=
  (by decide +kernel : ∀ t : Fin grid2.N, win2_0.index t (0 : Fin 2) = t.val ∧ win2_0.index t (1 : Fin 2) = 0
    ∧ win2_1.index t (0 : Fin 2) = t.val ∧ win2_1.index t (1 : Fin 2) = 0)
theorem idx2 : ∀ t : Fin cfg2.N, win2_2.index t (0 : Fin 2) = 0 ∧ win2_2.index t (1 : Fin 2) = 0 :=
  (by decide +kernel : ∀ t : Fin grid2.N, win2_2.index t (0 : Fin 2) = 0 ∧ win2_2.index t (1 : Fin 2) = 0)
theorem idx3 : ∀ t : Fin cfg2.N, win2_3.index t (0 : Fin 2) = 0 ∧ win2_3.index t (1 : Fin 2) = 0 :=
  (by decide +kernel : ∀ t : Fin grid2.N, win2_3.index t (0 : Fin 2) = 0 ∧ win2_3.index t (1 : Fin 2) = 0)
theorem idx4 : ∀ t : Fin cfg2.N, win2_4.index t (0 : Fin 2) = 0 ∧ win2_4.index t (1 : Fin 2) = 0 :=
  (by decide +kernel : ∀ t : Fin grid2.N, win2_4.index t (0 : Fin 2) = 0 ∧ win2_4.index t (1 : Fin 2) = 0)
theorem idx5 : ∀ t : Fin cfg2.N, win2_5.index t (0 : Fin 2) = 0 ∧ win2_5.index t (1 : Fin 2) = 0 :=
  (by decide +kernel : ∀ t : Fin grid2.N, win2_5.index t (0 : Fin 2) = 0 ∧ win2_5.index t (1 : Fin 2) = 0)
theorem idx6 : ∀ t : Fin cfg2.N, win2_6.index t (0 : Fin 2) = 0 ∧ win2_6.index t (1 : Fin 2) = 0 :=
  (by decide +kernel : ∀ t : Fin grid2.N, win2_6.index t (0 : Fin 2) = 0 ∧ win2_6.index t (1 : Fin 2) = 0)
theorem idx7 : ∀ t : Fin cfg2.N, win2_7.index t (0 : Fin 2) = 0 ∧ win2_7.index t (1 : Fin 2) = 0 :=
  (by decide +kernel : ∀ t : Fin grid2.N, win2_7.index t (0 : Fin 2) = 0 ∧ win2_7.index t (1 : Fin 2) = 0)
theorem idx8 : ∀ t : Fin cfg2.N, win2_8.index t (0 : Fin 2) = 0 ∧ win2_8.index t (1 : Fin 2) = 0 :=
  (by decide +kernel : ∀ t : Fin grid2.N, win2_8.index t (0 : Fin 2) = 0 ∧ win2_8.index t (1 : Fin 2) = 0)
theorem idx9 : ∀ t : Fin cfg2.N, win2_9.index t (0 : Fin 2) = 0 ∧ win2_9.index t (1 : Fin 2) = 0 :=
  (by decide +kernel : ∀ t : Fin grid2.N, win2_9.index t (0 : Fin 2) = 0 ∧ win2_9.index t (1 : Fin 2) = 0)

section Run

open Cert.Gnn

variable (V : (c : Dev nD) → (b : Ref sig .tc) → Buf (Elt Ideal) ((c : Thread nD τ).loc b)) (c : Dev nD)

/-- The table's block at point `t`, at an entry: row `4000 t + p` of the table. -/
theorem blk0 (t : Fin cfg2.N) (p : Fin 4000) (k : Fin 10) :
    (iblk2 V c 0 t : Vec Ideal S4000x10 .f32) (ix2 p k) = V c main_v44 (ix2 (row ⟨t.val, lt250 t⟩ p) k) := by
  have hi := idx01 t
  unfold iblk2
  rw [View.read_apply]
  show V c main_v44 _ = V c main_v44 _
  congr 1
  funext a
  apply Fin.ext
  match a with
  | ⟨0, _⟩ => show win2_0.index t (0 : Fin 2) * 4000 + 1 * p.val = 4000 * t.val + p.val; rw [hi.1]; omega
  | ⟨1, _⟩ => show win2_0.index t (1 : Fin 2) * 10 + 1 * k.val = k.val; rw [hi.2.1]; omega

/-- The degrees' block at point `t`, at an entry: row `4000 t + p` of the column. -/
theorem blk1 (t : Fin cfg2.N) (p : Fin 4000) :
    (iblk2 V c 1 t : Vec Ideal S4000x1 .f32) (ix2 p (0 : Fin 1)) = V c main_v13 (ix2 (row ⟨t.val, lt250 t⟩ p) (0 : Fin 1)) := by
  have hi := idx01 t
  unfold iblk2
  rw [View.read_apply]
  show V c main_v13 _ = V c main_v13 _
  congr 1
  funext a
  apply Fin.ext
  match a with
  | ⟨0, _⟩ => show win2_1.index t (0 : Fin 2) * 4000 + 1 * p.val = 4000 * t.val + p.val; rw [hi.2.2.1]; omega
  | ⟨1, _⟩ => show win2_1.index t (1 : Fin 2) * 1 + 1 * 0 = 0; rw [hi.2.2.2]

/-- Window 2's block is its whole array at every point. -/
theorem blk2 (t : Fin cfg2.N) : (iblk2 V c 2 t : Vec Ideal S10x10 .f32) = V c main_arg12 := by
  have hi := idx2 t
  funext j
  unfold iblk2
  rw [View.read_apply]
  show V c main_arg12 _ = V c main_arg12 _
  congr 1
  funext a
  apply Fin.ext
  match a with
  | ⟨0, _⟩ => show win2_2.index t (0 : Fin 2) * 10 + 1 * (j 0).val = (j 0).val; rw [hi.1]; omega
  | ⟨1, _⟩ => show win2_2.index t (1 : Fin 2) * 10 + 1 * (j 1).val = (j 1).val; rw [hi.2]; omega

/-- Window 3's block is its whole array at every point. -/
theorem blk3 (t : Fin cfg2.N) : (iblk2 V c 3 t : Vec Ideal S1x10 .f32) = V c main_v45 := by
  have hi := idx3 t
  funext j
  unfold iblk2
  rw [View.read_apply]
  show V c main_v45 _ = V c main_v45 _
  congr 1
  funext a
  apply Fin.ext
  match a with
  | ⟨0, _⟩ => show win2_3.index t (0 : Fin 2) * 1 + 1 * (j 0).val = (j 0).val; rw [hi.1]; omega
  | ⟨1, _⟩ => show win2_3.index t (1 : Fin 2) * 10 + 1 * (j 1).val = (j 1).val; rw [hi.2]; omega

/-- Window 4's block is its whole array at every point. -/
theorem blk4 (t : Fin cfg2.N) : (iblk2 V c 4 t : Vec Ideal S10x10 .f32) = V c main_arg14 := by
  have hi := idx4 t
  funext j
  unfold iblk2
  rw [View.read_apply]
  show V c main_arg14 _ = V c main_arg14 _
  congr 1
  funext a
  apply Fin.ext
  match a with
  | ⟨0, _⟩ => show win2_4.index t (0 : Fin 2) * 10 + 1 * (j 0).val = (j 0).val; rw [hi.1]; omega
  | ⟨1, _⟩ => show win2_4.index t (1 : Fin 2) * 10 + 1 * (j 1).val = (j 1).val; rw [hi.2]; omega

/-- Window 5's block is its whole array at every point. -/
theorem blk5 (t : Fin cfg2.N) : (iblk2 V c 5 t : Vec Ideal S1x10 .f32) = V c main_v46 := by
  have hi := idx5 t
  funext j
  unfold iblk2
  rw [View.read_apply]
  show V c main_v46 _ = V c main_v46 _
  congr 1
  funext a
  apply Fin.ext
  match a with
  | ⟨0, _⟩ => show win2_5.index t (0 : Fin 2) * 1 + 1 * (j 0).val = (j 0).val; rw [hi.1]; omega
  | ⟨1, _⟩ => show win2_5.index t (1 : Fin 2) * 10 + 1 * (j 1).val = (j 1).val; rw [hi.2]; omega

/-- Window 6's block is its whole array at every point. -/
theorem blk6 (t : Fin cfg2.N) : (iblk2 V c 6 t : Vec Ideal S10x10 .f32) = V c main_arg16 := by
  have hi := idx6 t
  funext j
  unfold iblk2
  rw [View.read_apply]
  show V c main_arg16 _ = V c main_arg16 _
  congr 1
  funext a
  apply Fin.ext
  match a with
  | ⟨0, _⟩ => show win2_6.index t (0 : Fin 2) * 10 + 1 * (j 0).val = (j 0).val; rw [hi.1]; omega
  | ⟨1, _⟩ => show win2_6.index t (1 : Fin 2) * 10 + 1 * (j 1).val = (j 1).val; rw [hi.2]; omega

/-- Window 7's block is its whole array at every point. -/
theorem blk7 (t : Fin cfg2.N) : (iblk2 V c 7 t : Vec Ideal S1x10 .f32) = V c main_v47 := by
  have hi := idx7 t
  funext j
  unfold iblk2
  rw [View.read_apply]
  show V c main_v47 _ = V c main_v47 _
  congr 1
  funext a
  apply Fin.ext
  match a with
  | ⟨0, _⟩ => show win2_7.index t (0 : Fin 2) * 1 + 1 * (j 0).val = (j 0).val; rw [hi.1]; omega
  | ⟨1, _⟩ => show win2_7.index t (1 : Fin 2) * 10 + 1 * (j 1).val = (j 1).val; rw [hi.2]; omega

/-- Window 8's block is its whole array at every point. -/
theorem blk8 (t : Fin cfg2.N) : (iblk2 V c 8 t : Vec Ideal S10x1 .f32) = V c main_arg18 := by
  have hi := idx8 t
  funext j
  unfold iblk2
  rw [View.read_apply]
  show V c main_arg18 _ = V c main_arg18 _
  congr 1
  funext a
  apply Fin.ext
  match a with
  | ⟨0, _⟩ => show win2_8.index t (0 : Fin 2) * 10 + 1 * (j 0).val = (j 0).val; rw [hi.1]; omega
  | ⟨1, _⟩ => show win2_8.index t (1 : Fin 2) * 1 + 1 * (j 1).val = (j 1).val; rw [hi.2]; omega

/-- Window 9's block is its whole array at every point. -/
theorem blk9 (t : Fin cfg2.N) : (iblk2 V c 9 t : Vec Ideal S1x1 .f32) = V c main_v48 := by
  have hi := idx9 t
  funext j
  unfold iblk2
  rw [View.read_apply]
  show V c main_v48 _ = V c main_v48 _
  congr 1
  funext a
  apply Fin.ext
  match a with
  | ⟨0, _⟩ => show win2_9.index t (0 : Fin 2) * 1 + 1 * (j 0).val = (j 0).val; rw [hi.1]; omega
  | ⟨1, _⟩ => show win2_9.index t (1 : Fin 2) * 1 + 1 * (j 1).val = (j 1).val; rw [hi.2]; omega

/-! ## The carried block, tile after tile -/

/-- The last store, at an entry: times the reciprocal of a million. -/
theorem pay2_apply (X : FVec Ideal S1x1 .f32) (j : S1x1.Idx) : k2_pay2 (F := Ideal) X j = X j * invMillion := by
  unfold k2_pay2
  refine (mulf_apply _ _ _).trans ?_
  rw [shapeCast_self]
  refine congrArg (X j * ·) ?_
  exact IdealRules.named_const.ideal_named_scalar _ _ _ _ rfl

/-- One grid point's store from its own blocks: what was there plus the point's tile sum of the per-node output. -/
theorem blocks_step (d : S1000000.Idx → EReal) (b2 b3 b4 : S10.Idx → EReal) (b5 : S1.Idx → EReal)
    (hd : V c main_v13 = shapeCast S1000000x1 d shapeCasts_S1000000_S1000000x1)
    (hb2 : V c main_v45 = shapeCast S1x10 b2 shapeCasts_S10_S1x10)
    (hb3 : V c main_v46 = shapeCast S1x10 b3 shapeCasts_S10_S1x10)
    (hb4 : V c main_v47 = shapeCast S1x10 b4 shapeCasts_S10_S1x10)
    (hb5 : V c main_v48 = shapeCast S1x1 b5 shapeCasts_S1_S1x1) (t : Fin cfg2.N) (acc : FVec Ideal S1x1 .f32) :
    step (F := Ideal) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) acc (ix2 (0 : Fin 1) (0 : Fin 1))
      = acc (ix2 (0 : Fin 1) (0 : Fin 1)) + tileSum (score (V c main_v44) d (V c main_arg12) b2 (V c main_arg14) b3 (V c main_arg16) b4 (V c main_arg18) b5) t.val :=
  tile_apply (V c main_v44) d (V c main_arg12) b2 (V c main_arg14) b3 (V c main_arg16) b4 (V c main_arg18) b5 ⟨t.val, lt250 t⟩
    (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) acc
    (fun p k => blk0 V c t p k)
    (fun p => (blk1 V c t p).trans ((congrFun hd _).trans
      (Cert.Lib.Column.col_apply d shapeCasts_S1000000_S1000000x1 (row ⟨t.val, lt250 t⟩ p))))
    (blk2 V c t)
    (fun q => (congrFun (blk3 V c t) (ix2 (0 : Fin 1) q)).trans ((congrFun hb2 _).trans
      (shapeCast_a_1a_apply b2 shapeCasts_S10_S1x10 (0 : Fin 1) q)))
    (blk4 V c t)
    (fun q => (congrFun (blk5 V c t) (ix2 (0 : Fin 1) q)).trans ((congrFun hb3 _).trans
      (shapeCast_a_1a_apply b3 shapeCasts_S10_S1x10 (0 : Fin 1) q)))
    (blk6 V c t)
    (fun q => (congrFun (blk7 V c t) (ix2 (0 : Fin 1) q)).trans ((congrFun hb4 _).trans
      (shapeCast_a_1a_apply b4 shapeCasts_S10_S1x10 (0 : Fin 1) q)))
    (blk8 V c t)
    ((congrFun (blk9 V c t) (ix2 (0 : Fin 1) (0 : Fin 1))).trans ((congrFun hb5 _).trans
      (shapeCast_a_1a_apply b5 shapeCasts_S1_S1x1 (0 : Fin 1) (0 : Fin 1))))

/-- The first point leaves the zero word plus its tile sum. -/
theorem point_A (d : S1000000.Idx → EReal) (b2 b3 b4 : S10.Idx → EReal) (b5 : S1.Idx → EReal)
    (hd : V c main_v13 = shapeCast S1000000x1 d shapeCasts_S1000000_S1000000x1)
    (hb2 : V c main_v45 = shapeCast S1x10 b2 shapeCasts_S10_S1x10)
    (hb3 : V c main_v46 = shapeCast S1x10 b3 shapeCasts_S10_S1x10)
    (hb4 : V c main_v47 = shapeCast S1x10 b4 shapeCasts_S10_S1x10)
    (hb5 : V c main_v48 = shapeCast S1x1 b5 shapeCasts_S1_S1x1) (t : Fin cfg2.N) (h0 : t.val % 250 = 0) (h1 : ¬t.val % 250 = 249) :
    outsAt2 V c t.val t.isLt (ix2 (0 : Fin 1) (0 : Fin 1)) = z32 + tileSum (score (V c main_v44) d (V c main_arg12) b2 (V c main_arg14) b3 (V c main_arg16) b4 (V c main_arg18) b5) t.val :=
  (congrFun ((outsAt2_A V c t h0 h1).trans
    (out_A c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) ((hcond2_0 t).mpr h0) (fun h => h1 ((hcond2_1 t).mp h)) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t))) (ix2 (0 : Fin 1) (0 : Fin 1))).trans
    (blocks_step V c d b2 b3 b4 b5 hd hb2 hb3 hb4 hb5 t k2_pay3)

/-- A middle point leaves what the point before left plus its tile sum. -/
theorem point_B (d : S1000000.Idx → EReal) (b2 b3 b4 : S10.Idx → EReal) (b5 : S1.Idx → EReal)
    (hd : V c main_v13 = shapeCast S1000000x1 d shapeCasts_S1000000_S1000000x1)
    (hb2 : V c main_v45 = shapeCast S1x10 b2 shapeCasts_S10_S1x10)
    (hb3 : V c main_v46 = shapeCast S1x10 b3 shapeCasts_S10_S1x10)
    (hb4 : V c main_v47 = shapeCast S1x10 b4 shapeCasts_S10_S1x10)
    (hb5 : V c main_v48 = shapeCast S1x1 b5 shapeCasts_S1_S1x1) (t : Fin cfg2.N) (h0 : ¬t.val % 250 = 0) (h1 : ¬t.val % 250 = 249) :
    outsAt2 V c t.val t.isLt (ix2 (0 : Fin 1) (0 : Fin 1))
      = (outsAt2 V c (t.val - 1) (Nat.lt_of_le_of_lt (Nat.sub_le _ _) t.isLt)) (ix2 (0 : Fin 1) (0 : Fin 1)) + tileSum (score (V c main_v44) d (V c main_arg12) b2 (V c main_arg14) b3 (V c main_arg16) b4 (V c main_arg18) b5) t.val :=
  (congrFun ((outsAt2_B V c t h0 h1).trans
    (out_B c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (outsAt2 V c (t.val - 1) (Nat.lt_of_le_of_lt (Nat.sub_le _ _) t.isLt)))) (ix2 (0 : Fin 1) (0 : Fin 1))).trans
    (blocks_step V c d b2 b3 b4 b5 hd hb2 hb3 hb4 hb5 t (outsAt2 V c (t.val - 1) (Nat.lt_of_le_of_lt (Nat.sub_le _ _) t.isLt)))

/-- The last point leaves what the point before left plus its tile sum, times the reciprocal of a million. -/
theorem point_C (d : S1000000.Idx → EReal) (b2 b3 b4 : S10.Idx → EReal) (b5 : S1.Idx → EReal)
    (hd : V c main_v13 = shapeCast S1000000x1 d shapeCasts_S1000000_S1000000x1)
    (hb2 : V c main_v45 = shapeCast S1x10 b2 shapeCasts_S10_S1x10)
    (hb3 : V c main_v46 = shapeCast S1x10 b3 shapeCasts_S10_S1x10)
    (hb4 : V c main_v47 = shapeCast S1x10 b4 shapeCasts_S10_S1x10)
    (hb5 : V c main_v48 = shapeCast S1x1 b5 shapeCasts_S1_S1x1) (t : Fin cfg2.N) (h0 : ¬t.val % 250 = 0) (h1 : t.val % 250 = 249) :
    outsAt2 V c t.val t.isLt (ix2 (0 : Fin 1) (0 : Fin 1))
      = ((outsAt2 V c (t.val - 1) (Nat.lt_of_le_of_lt (Nat.sub_le _ _) t.isLt)) (ix2 (0 : Fin 1) (0 : Fin 1)) + tileSum (score (V c main_v44) d (V c main_arg12) b2 (V c main_arg14) b3 (V c main_arg16) b4 (V c main_arg18) b5) t.val) * invMillion :=
  (congrFun ((outsAt2_C V c t h0 h1).trans
    (out_C c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (outsAt2 V c (t.val - 1) (Nat.lt_of_le_of_lt (Nat.sub_le _ _) t.isLt)))) (ix2 (0 : Fin 1) (0 : Fin 1))).trans
    ((pay2_apply _ (ix2 (0 : Fin 1) (0 : Fin 1))).trans (congrArg (· * invMillion) (blocks_step V c d b2 b3 b4 b5 hd hb2 hb3 hb4 hb5 t (outsAt2 V c (t.val - 1) (Nat.lt_of_le_of_lt (Nat.sub_le _ _) t.isLt)))))

/-- After point `n`, up to the last but one, the block holds the zero word plus the tile sums of points `0 … n`. -/
theorem outsAt_eq (d : S1000000.Idx → EReal) (b2 b3 b4 : S10.Idx → EReal) (b5 : S1.Idx → EReal)
    (hd : V c main_v13 = shapeCast S1000000x1 d shapeCasts_S1000000_S1000000x1)
    (hb2 : V c main_v45 = shapeCast S1x10 b2 shapeCasts_S10_S1x10)
    (hb3 : V c main_v46 = shapeCast S1x10 b3 shapeCasts_S10_S1x10)
    (hb4 : V c main_v47 = shapeCast S1x10 b4 shapeCasts_S10_S1x10)
    (hb5 : V c main_v48 = shapeCast S1x1 b5 shapeCasts_S1_S1x1) : ∀ (n : ℕ) (h : n < cfg2.N), n ≤ 248 →
    outsAt2 V c n h (ix2 (0 : Fin 1) (0 : Fin 1)) = z32 + ∑ s ∈ Finset.range (n + 1), tileSum (score (V c main_v44) d (V c main_arg12) b2 (V c main_arg14) b3 (V c main_arg16) b4 (V c main_arg18) b5) s
  | 0, h, _ => by
    rw [Finset.sum_range_one]
    exact point_A V c d b2 b3 b4 b5 hd hb2 hb3 hb4 hb5 ⟨0, h⟩ rfl (by dsimp only; omega)
  | n + 1, h, hn => by
    have hB0 : ¬(⟨n + 1, h⟩ : Fin cfg2.N).val % 250 = 0 := by dsimp only; omega
    have hB1 : ¬(⟨n + 1, h⟩ : Fin cfg2.N).val % 250 = 249 := by dsimp only; omega
    rw [Finset.sum_range_succ _ (n + 1), ← add_assoc, ← outsAt_eq d b2 b3 b4 b5 hd hb2 hb3 hb4 hb5 n (Nat.lt_of_succ_lt h) (by omega)]
    exact point_B V c d b2 b3 b4 b5 hd hb2 hb3 hb4 hb5 ⟨n + 1, h⟩ hB0 hB1

/-- After the last point the block holds the mean of the per-node output over the million rows. -/
theorem outsAt_last (d : S1000000.Idx → EReal) (b2 b3 b4 : S10.Idx → EReal) (b5 : S1.Idx → EReal)
    (hd : V c main_v13 = shapeCast S1000000x1 d shapeCasts_S1000000_S1000000x1)
    (hb2 : V c main_v45 = shapeCast S1x10 b2 shapeCasts_S10_S1x10)
    (hb3 : V c main_v46 = shapeCast S1x10 b3 shapeCasts_S10_S1x10)
    (hb4 : V c main_v47 = shapeCast S1x10 b4 shapeCasts_S10_S1x10)
    (hb5 : V c main_v48 = shapeCast S1x1 b5 shapeCasts_S1_S1x1) (t : Fin cfg2.N) (h249 : t.val = 249) :
    outsAt2 V c t.val t.isLt (ix2 (0 : Fin 1) (0 : Fin 1)) = mean (score (V c main_v44) d (V c main_arg12) b2 (V c main_arg14) b3 (V c main_arg16) b4 (V c main_arg18) b5) := by
  have h0 : ¬t.val % 250 = 0 := by omega
  have h1 : t.val % 250 = 249 := by omega
  have hp : t.val - 1 ≤ 248 := by omega
  have e : t.val - 1 + 1 = 249 := by omega
  rw [point_C V c d b2 b3 b4 b5 hd hb2 hb3 hb4 hb5 t h0 h1, outsAt_eq V c d b2 b3 b4 b5 hd hb2 hb3 hb4 hb5 (t.val - 1) _ hp, e, h249, add_assoc,
    ← Finset.sum_range_succ _ 249]
  exact congrArg (fun x => (z32 + x) * invMillion) (sum_eq_range (score (V c main_v44) d (V c main_arg12) b2 (V c main_arg14) b3 (V c main_arg16) b4 (V c main_arg18) b5)).symm

/-! ## The result array -/

/-- A one-by-one block is the constant at its one entry. -/
theorem const_of_entry (f : S1x1.Idx → EReal) (v : EReal) (h : f (ix2 (0 : Fin 1) (0 : Fin 1)) = v) : f = fun _ => v := by
  funext j
  obtain ⟨a, b, rfl⟩ : ∃ (a : Fin 1) (b : Fin 1), j = ix2 a b := ⟨j 0, j 1, eq_ix2 j⟩
  obtain rfl : a = 0 := Subsingleton.elim _ _
  obtain rfl : b = 0 := Subsingleton.elim _ _
  exact h

/-- A staging block whose one entry is `v`, written back, is the block of the constant array `v`. -/
theorem cut_const (t : Fin cfg2.N) (X : Vec Ideal S1x1 .f32) (v : EReal) (hX : X (ix2 (0 : Fin 1) (0 : Fin 1)) = v) :
    (cfg2.win 10).cut (cfg2.grid.coords t) X
      = ((cfg2.win 10).blk t).view.read (Elt Ideal)
          (fun _ => v : Buf (Elt Ideal) ((cfg2.win 10).arr.view.loc (c.tc : Thread nD τ))) := by
  obtain rfl : X = fun _ => v := const_of_entry X v hX
  funext y
  rw [View.read_apply]
  rfl

/-- The last grid point. -/
abbrev tLast : Fin cfg2.N := ⟨249, by rw [show cfg2.N = 250 from N_2]; decide⟩

/-- The one write-back, at the last point, writes the mean. -/
theorem flushed_eq (d : S1000000.Idx → EReal) (b2 b3 b4 : S10.Idx → EReal) (b5 : S1.Idx → EReal)
    (hd : V c main_v13 = shapeCast S1000000x1 d shapeCasts_S1000000_S1000000x1)
    (hb2 : V c main_v45 = shapeCast S1x10 b2 shapeCasts_S10_S1x10)
    (hb3 : V c main_v46 = shapeCast S1x10 b3 shapeCasts_S10_S1x10)
    (hb4 : V c main_v47 = shapeCast S1x10 b4 shapeCasts_S10_S1x10)
    (hb5 : V c main_v48 = shapeCast S1x1 b5 shapeCasts_S1_S1x1) (t : Fin cfg2.N) (hf : (cfg2.win 10).flush t = true) :
    (dat2 V c).flushed 10 t
      = ((cfg2.win 10).blk t).view.read (Elt Ideal)
          (fun _ => mean (score (V c main_v44) d (V c main_arg12) b2 (V c main_arg14) b3 (V c main_arg16) b4 (V c main_arg18) b5) : Buf (Elt Ideal) ((cfg2.win 10).arr.view.loc (c.tc : Thread nD τ))) := by
  have h249 : t.val % 250 = 249 := (flush2_10 t).mp hf
  have hN := lt250 t
  show (cfg2.win 10).cut (cfg2.grid.coords t) ((dat2 V c).after 10 t) = _
  rw [after2_10]
  exact cut_const c t _ _ (outsAt_last V c d b2 b3 b4 b5 hd hb2 hb3 hb4 hb5 t (by omega))

/-- The result array of the region ends holding the mean of the per-node output over the million rows. -/
theorem final2 (d : S1000000.Idx → EReal) (b2 b3 b4 : S10.Idx → EReal) (b5 : S1.Idx → EReal)
    (hd : V c main_v13 = shapeCast S1000000x1 d shapeCasts_S1000000_S1000000x1)
    (hb2 : V c main_v45 = shapeCast S1x10 b2 shapeCasts_S10_S1x10)
    (hb3 : V c main_v46 = shapeCast S1x10 b3 shapeCasts_S10_S1x10)
    (hb4 : V c main_v47 = shapeCast S1x10 b4 shapeCasts_S10_S1x10)
    (hb5 : V c main_v48 = shapeCast S1x1 b5 shapeCasts_S1_S1x1) :
    (dat2 (F := Ideal) V c).arrAt 10 cfg2.N
      = fun _ => Cert.Gnn.mean (Cert.Gnn.score (V c main_v44) d (V c main_arg12) b2 (V c main_arg14) b3 (V c main_arg16) b4 (V c main_arg18) b5) :=
  (dat2 V c).arrAt_eq_of_cover 10 _ (flushed_eq V c d b2 b3 b4 b5 hd hb2 hb3 hb4 hb5) fun i =>
    ⟨tLast, (flush2_10 tLast).mpr rfl, by
      show i ∈ ((View.whole main_v49).slice (win2_10.rect tLast)).set
      rw [View.set_slice_whole, Rect.mem_set_unit]
      intro a
      have h0 : (i 0 : Nat) < 1 := (i 0).isLt
      have h1 : (i 1 : Nat) < 1 := (i 1).isLt
      match a with
      | ⟨0, _⟩ =>
        show win2_10.index tLast 0 * win2_10.size 0 ≤ (i 0 : Nat)
          ∧ (i 0 : Nat) < win2_10.index tLast 0 * win2_10.size 0 + win2_10.xsize (grid2.coords tLast) 0
        rw [show win2_10.index tLast 0 * win2_10.size 0 = 0 from by decide +kernel,
          show win2_10.xsize (grid2.coords tLast) 0 = 1 from by decide +kernel]
        omega
      | ⟨1, _⟩ =>
        show win2_10.index tLast 1 * win2_10.size 1 ≤ (i 1 : Nat)
          ∧ (i 1 : Nat) < win2_10.index tLast 1 * win2_10.size 1 + win2_10.xsize (grid2.coords tLast) 1
        rw [show win2_10.index tLast 1 * win2_10.size 1 = 0 from by decide +kernel,
          show win2_10.xsize (grid2.coords tLast) 1 = 1 from by decide +kernel]
        omega⟩

end Run

end Cert.KernelSide.Region2

end
-- ==== Proof.KernelRun.lean ====
/-
  The idealized kernel's run, with its result named.

  Every weakly fair execution of the program from a memory with zero counters terminates without a fault; at the end the
  result array holds what the last region's write-backs leave of it — the last stage of the fold of buffer contents through
  the host operations and the three regions — and every argument array is as launched. The launch is the library's theorem
  for a program of several regions among stretches of host operations, over the program's segments; the final state is read
  against the last boundary's contents at the result array as well as at the arguments.
-/
import proofs.«179143_j2843268349978_2_alg».proof.Proof.Gen.KernelIdeal.Frame

set_option maxRecDepth 16384

noncomputable section

namespace Cert.KernelSide

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result array ends at the last boundary's contents of it, the arguments as launched. -/
theorem run : θ_run defs (onTc (τ := τ) (main (F := F))) ⟨m, fun _ => 0, ρ⟩ (fun r => ∀ c : Dev nD,
      r.2.mem ((c.tc : Thread nD τ).loc main_v49) = W6 m ρ c (Proc.devRef .tc main_v49)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v49 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c),
       (h c _ (mem_uc main_arg14 (by decide))).trans (W6_main_arg14 m ρ c),
       (h c _ (mem_uc main_arg15 (by decide))).trans (W6_main_arg15 m ρ c),
       (h c _ (mem_uc main_arg16 (by decide))).trans (W6_main_arg16 m ρ c),
       (h c _ (mem_uc main_arg17 (by decide))).trans (W6_main_arg17 m ρ c),
       (h c _ (mem_uc main_arg18 (by decide))).trans (W6_main_arg18 m ρ c),
       (h c _ (mem_uc main_arg19 (by decide))).trans (W6_main_arg19 m ρ c)⟩)

end Cert.KernelSide

end
-- ==== Proof.KernelValue.lean ====
/-
  What the idealized kernel computes.

  The last region's table of one number is the mean of the per-node scores of the arrays it was entered with; those arrays,
  read back through the program, are the second pass along the edges over the constraint nodes' layer over the first pass
  over the embedding, the degree column and the reshaped bias vectors. A region's function over columns and rows that are
  reshaped vectors is the corresponding function of the vectors, so the result is the network's mean score as a function
  of the argument arrays, and every run of the program ends with it in the result array.
-/
import proofs.«179143_j2843268349978_2_alg».proof.Proof.Fold
import proofs.«179143_j2843268349978_2_alg».proof.Proof.Region2
import proofs.«179143_j2843268349978_2_alg».proof.Proof.KernelRun

set_option maxRecDepth 16384

noncomputable section

namespace Cert.KernelSide

open Idealize.ShloMosaic Idealize.ShloMosaic.TcCoe Idealize.SL.Sem Idealize.ShloMosaic.StableHlo
open Cert.KernelIdeal Cert.KernelIdeal.Gen Cert.Gnn

variable (m : (ℓ : Loc nD τ sig) → Buf (Elt Ideal) ℓ) (ρ : Dev nD → PrngReg)

/-- The network's mean score as a function of the argument arrays. -/
def value (c : Dev nD) : S1x1.Idx → EReal :=
  fun _ => mean (score
    (hop2 (conv (hop1 (embed (m ((c.tc : Thread nD τ).loc main_arg0)) (m ((c.tc : Thread nD τ).loc main_arg1)) (degVar (m ((c.tc : Thread nD τ).loc main_arg3))) (m ((c.tc : Thread nD τ).loc main_arg6)) (m ((c.tc : Thread nD τ).loc main_arg7)))
          (m ((c.tc : Thread nD τ).loc main_arg3)) (m ((c.tc : Thread nD τ).loc main_arg4)) (m ((c.tc : Thread nD τ).loc main_arg5)))
        (degCon (m ((c.tc : Thread nD τ).loc main_arg4))) (m ((c.tc : Thread nD τ).loc main_arg12)) (m ((c.tc : Thread nD τ).loc main_arg13)))
      (m ((c.tc : Thread nD τ).loc main_arg3)) (m ((c.tc : Thread nD τ).loc main_arg4)) (m ((c.tc : Thread nD τ).loc main_arg5)))
    (degVar (m ((c.tc : Thread nD τ).loc main_arg3))) (m ((c.tc : Thread nD τ).loc main_arg12)) (m ((c.tc : Thread nD τ).loc main_arg13)) (m ((c.tc : Thread nD τ).loc main_arg14)) (m ((c.tc : Thread nD τ).loc main_arg15))
    (m ((c.tc : Thread nD τ).loc main_arg16)) (m ((c.tc : Thread nD τ).loc main_arg17)) (m ((c.tc : Thread nD τ).loc main_arg18)) (m ((c.tc : Thread nD τ).loc main_arg19)))

/-- The result array at the program's end holds it. -/
theorem W6_value (c : Dev nD) : W6 m ρ c (Proc.devRef .tc main_v49) = value m c := by
  show W6 m ρ c (Proc.devRef .tc (Pipeline.arrRef spec2 (10 : Fin cfg2.W))) = _
  rw [W6_arr]
  obtain ⟨w2, w3, w4, w5⟩ := V5_weights m ρ c
  obtain ⟨hb2, hb3, hb4, hb5⟩ := V5_biases m ρ c
  rw [Region2.final2 (V5 m ρ) c (degVar (m ((c.tc : Thread nD τ).loc main_arg3))) (m ((c.tc : Thread nD τ).loc main_arg13)) (m ((c.tc : Thread nD τ).loc main_arg15)) (m ((c.tc : Thread nD τ).loc main_arg17)) (m ((c.tc : Thread nD τ).loc main_arg19))
    (V5_deg m ρ c) hb2 hb3 hb4 hb5]
  rw [V5_agg, w2, w3, w4, w5, Region0.G_spec, Region1.G_spec]
  rfl

/-- Every run ends with the mean score in the result array and the arguments as launched. -/
theorem run_value : θ_run defs (onTc (τ := τ) (main (F := Ideal))) ⟨m, fun _ => 0, ρ⟩ (fun r => ∀ c : Dev nD,
      r.2.mem ((c.tc : Thread nD τ).loc main_v49) = value m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun r h c => ⟨(h c).1.trans (W6_value m ρ c), (h c).2⟩) (run m ρ)

end Cert.KernelSide

end
-- ==== Proof.RefValue.lean ====
/-
  The reference program's result, as the mathematics of the two-hop graph network.

  The reference computes, from its argument arrays: the degree of every node (a count of edges, at least one); the
  embedding of the variable nodes (two scalars through a `2 × 10` layer, clipped at zero, scaled by the inverse square
  root of the degree); a pass along the edges to the constraint nodes (gather a row per edge, scale by the edge weight,
  sum per destination); the constraint-side layer; a pass back to the variable nodes; and the variable-side layers
  ending in the mean over the million nodes. The degree vectors and the two passes are named and kept closed. The
  three dense stages are each shown equal, as whole arrays, to the corresponding function of the mathematics, by
  reading every operation at an entry: a column or a row repeated over a table reads the vector's entry, the host's
  product reads as a sum over the ten (or two) contracted positions, the host's sum of a column reads as the initial
  value plus the sum of its entries, and the division by the word for a million is the multiplication by its reciprocal.
-/
import proofs.«179143_j2843268349978_2_alg».proof.Proof.Gen.ReferenceIdeal.Read
import proofs.«179143_j2843268349978_2_alg».proof.Proof.Spec
import proofs.«179143_j2843268349978_2_alg».proof.Proof.LibPlainDot
import Idealize.ShloMosaic.Lib.Pipeline.Value
import Idealize.ShloMosaic.Lib.ValueIdx
import Idealize.ShloMosaic.PureOps.Ideal.Laws

noncomputable section

open scoped BigOperators

namespace Cert.RefSide

open Cert.ReferenceIdeal Cert.ReferenceIdeal.Gen Idealize.ShloMosaic Idealize.ShloMosaic.TcCoe Idealize.SL.Sem
  Idealize.ShloMosaic.StableHlo Idealize.ShloMosaic.ValueIdx

/-! ## The layout operations and the host product, read at an entry -/

section ops

variable {α : Type} {N C : Nat}

/-- A vector of length `N` placed as an `N × 1` column and repeated along `C` columns reads, at `(p, q)`, the
    vector at `p`. -/
theorem bcastCol_apply (h1 : (⟨1, ![N]⟩ : Shape).BroadcastsInDim ⟨2, ![N, 1]⟩ (![0] : Fin 1 → Fin 2))
    (h2 : (⟨2, ![N, 1]⟩ : Shape).BroadcastsInDim ⟨2, ![N, C]⟩ (![0, 1] : Fin 2 → Fin 2))
    (v : (⟨1, ![N]⟩ : Shape).Idx → α) (p : Fin N) (q : Fin C) :
    broadcastInDim ⟨2, ![N, C]⟩ ![0, 1] h2 (broadcastInDim ⟨2, ![N, 1]⟩ ![0] h1 v) (ix2 p q) = v (ix1 p) := by
  have hp : p.val = if N = 1 then 0 else p.val := by
    split
    · have := p.isLt; omega
    · rfl
  refine (broadcastInDim_apply _ h2 _ (ix2 p q) (ix2 p (0 : Fin 1)) (fun a => ?_)).trans
    (broadcastInDim_apply _ h1 v (ix2 p (0 : Fin 1)) (ix1 p) (fun a => ?_))
  · match a with
    | ⟨0, _⟩ => exact hp
    | ⟨1, _⟩ => exact (if_pos rfl).symm
  · match a with
    | ⟨0, _⟩ => exact hp

/-- A vector of length `C` placed as a `1 × C` row reads, at `(r, q)`, the vector at `q`. -/
theorem bcastLead_apply (h1 : (⟨1, ![C]⟩ : Shape).BroadcastsInDim ⟨2, ![1, C]⟩ (![1] : Fin 1 → Fin 2))
    (b : (⟨1, ![C]⟩ : Shape).Idx → α) (r : Fin 1) (q : Fin C) :
    broadcastInDim ⟨2, ![1, C]⟩ ![1] h1 b (ix2 r q) = b (ix1 q) := by
  refine broadcastInDim_apply _ h1 b (ix2 r q) (ix1 q) (fun a => ?_)
  match a with
  | ⟨0, _⟩ =>
    show q.val = if C = 1 then 0 else q.val
    split
    · have := q.isLt; omega
    · rfl

/-- A vector of length `C` placed as a `1 × C` row and repeated down `N` rows reads, at `(p, q)`, the vector at
    `q`. -/
theorem bcastRow_apply (h1 : (⟨1, ![C]⟩ : Shape).BroadcastsInDim ⟨2, ![1, C]⟩ (![1] : Fin 1 → Fin 2))
    (h2 : (⟨2, ![1, C]⟩ : Shape).BroadcastsInDim ⟨2, ![N, C]⟩ (![0, 1] : Fin 2 → Fin 2))
    (b : (⟨1, ![C]⟩ : Shape).Idx → α) (p : Fin N) (q : Fin C) :
    broadcastInDim ⟨2, ![N, C]⟩ ![0, 1] h2 (broadcastInDim ⟨2, ![1, C]⟩ ![1] h1 b) (ix2 p q) = b (ix1 q) := by
  refine (broadcastInDim_apply _ h2 _ (ix2 p q) (ix2 (0 : Fin 1) q) (fun a => ?_)).trans (bcastLead_apply h1 b 0 q)
  match a with
  | ⟨0, _⟩ => exact (if_pos rfl).symm
  | ⟨1, _⟩ =>
    show q.val = if C = 1 then 0 else q.val
    split
    · have := q.isLt; omega
    · rfl

/-- A float word repeated over a whole array reads, everywhere, the extended real the word denotes. -/
theorem bcastWord_apply {t : Shape} (h : (⟨0, ![]⟩ : Shape).BroadcastsInDim t (![] : Fin 0 → Fin t.rank))
    (w : BitVec 32) (j : t.Idx) :
    broadcastInDim t ![] h (constant (F := Ideal) ⟨0, ![]⟩ .f32 w) j = Ideal.ofBits .f32 w :=
  broadcastInDim_apply _ h _ j (fun a => a.elim0) (fun a => a.elim0)

/-- The host's product of an `M × K` by a `K × N` array, for dimension numbers that are the plain ones, at entry
    `(p, q)`: the sum over `k` of the left operand at `(p, k)` times the right operand at `(k, q)`. -/
theorem hostDot_apply {M K : Nat} (D : DotDims ⟨2, ![M, K]⟩ ⟨2, ![K, C]⟩ ⟨2, ![M, C]⟩) (hD : D = DotDims.plain M K C)
    (l : FVec Ideal ⟨2, ![M, K]⟩ .f32) (r : FVec Ideal ⟨2, ![K, C]⟩ .f32) (p : Fin M) (q : Fin C) :
    Host.dotGeneral D none l r (ix2 p q) = ∑ k : Fin K, l (ix2 p k) * r (ix2 k q) := by
  subst hD
  exact Cert.Lib.PlainDot.dotGeneral_apply none _ l r p q

end ops

section more

variable {α : Type} {N : Nat}

/-- A vector of length `N` placed as an `N × 1` column reads, at `(p, r)`, the vector at `p`. -/
theorem bcastUnitCol_apply (h1 : (⟨1, ![N]⟩ : Shape).BroadcastsInDim ⟨2, ![N, 1]⟩ (![0] : Fin 1 → Fin 2))
    (v : (⟨1, ![N]⟩ : Shape).Idx → α) (p : Fin N) (r : Fin 1) :
    broadcastInDim ⟨2, ![N, 1]⟩ ![0] h1 v (ix2 p r) = v (ix1 p) := by
  refine broadcastInDim_apply _ h1 v (ix2 p r) (ix1 p) (fun a => ?_)
  match a with
  | ⟨0, _⟩ =>
    show p.val = if N = 1 then 0 else p.val
    split
    · have := p.isLt; omega
    · rfl

/-- Two `N × 1` columns joined side by side: column `0` of the result is the first. -/
theorem concat_left (h : Shape.Concatenates [(⟨2, ![N, 1]⟩ : Shape), ⟨2, ![N, 1]⟩] ⟨2, ![N, 2]⟩ 1)
    (A B : (⟨2, ![N, 1]⟩ : Shape).Idx → α) (p : Fin N) :
    concatenate ⟨2, ![N, 2]⟩ 1 [⟨⟨2, ![N, 1]⟩, A⟩, ⟨⟨2, ![N, 1]⟩, B⟩] h (ix2 p (0 : Fin 2)) = A (ix2 p (0 : Fin 1)) :=
  concatenate_pair_apply_left 1 A B h (ix2 p (0 : Fin 2)) rfl (ix2 p (0 : Fin 1))
    (fun b => by match b with | ⟨0, _⟩ => rfl | ⟨1, _⟩ => rfl)

/-- … and column `1` of the result is the second. -/
theorem concat_right (h : Shape.Concatenates [(⟨2, ![N, 1]⟩ : Shape), ⟨2, ![N, 1]⟩] ⟨2, ![N, 2]⟩ 1)
    (A B : (⟨2, ![N, 1]⟩ : Shape).Idx → α) (p : Fin N) :
    concatenate ⟨2, ![N, 2]⟩ 1 [⟨⟨2, ![N, 1]⟩, A⟩, ⟨⟨2, ![N, 1]⟩, B⟩] h (ix2 p (1 : Fin 2)) = B (ix2 p (0 : Fin 1)) :=
  concatenate_pair_apply_right 1 A B h (ix2 p (1 : Fin 2)) rfl rfl (ix2 p (0 : Fin 1))
    (fun b hb => by match b with | ⟨0, _⟩ => rfl | ⟨1, _⟩ => exact absurd rfl hb) rfl

end more

/-- The host's sum of a million-row column down its rows, from an initial value: the initial value plus the sum of the
    column's entries. -/
theorem colSum_apply (X : FVec Ideal S1000000x1 .f32) (z : FVec Ideal S_ .f32) :
    Host.reduceAdd X z reducesTo_S1000000x1_S1_d0 h_S_ (ix1 (0 : Fin 1))
      = z (Shape.Idx.first h_S_) + ∑ k : Fin 1000000, X (ix2 k (0 : Fin 1)) := by
  simp only [Host.reduceAdd, Ideal.hostReduceAdd_def]
  rw [Ideal.hostReduceAdd_single reducesTo_S1000000x1_S1_d0 (by decide)]
  refine congrArg (_ + ·) (Finset.sum_congr rfl fun k _ => ?_)
  exact congrArg X (funext fun a => Fin.ext (by match a with | ⟨0, _⟩ => rfl | ⟨1, _⟩ => rfl))

/-! ## The reference's own subterms, named

The degree vectors and the two passes along the edges are the host's scatter-add and gather applied to the
argument arrays; they are named here and never opened. -/

/-- The degree of every variable node: the count of the edges leaving it, at least one. -/
def degVar (src : S8000000.Idx → BitVec 32) : S1000000.Idx → EReal :=
  (maximumf (Host.scatterAdd scatter_S1000000_S8000000x1_S8000000_n_0_0_1 (broadcastInDim S1000000 ![] bcast_S_S1000000 (constant (F := Ideal) S_ .f32 0x00000000#32)) (broadcastInDim S8000000x1 ![0] bcast_S8000000_S8000000x1_0 src) (broadcastInDim S8000000 ![] bcast_S_S8000000 (constant (F := Ideal) S_ .f32 0x3F800000#32))) (broadcastInDim S1000000 ![] bcast_S_S1000000 (constant (F := Ideal) S_ .f32 0x3F800000#32)) : FVec Ideal S1000000 .f32)

/-- The degree of every constraint node: the count of the edges entering it, at least one. -/
def degCon (dst : S8000000.Idx → BitVec 32) : S500000.Idx → EReal :=
  (maximumf (Host.scatterAdd scatter_S500000_S8000000x1_S8000000_n_0_0_1 (broadcastInDim S500000 ![] bcast_S_S500000 (constant (F := Ideal) S_ .f32 0x00000000#32)) (broadcastInDim S8000000x1 ![0] bcast_S8000000_S8000000x1_0 dst) (broadcastInDim S8000000 ![] bcast_S_S8000000 (constant (F := Ideal) S_ .f32 0x3F800000#32))) (broadcastInDim S500000 ![] bcast_S_S500000 (constant (F := Ideal) S_ .f32 0x3F800000#32)) : FVec Ideal S500000 .f32)

/-- The first pass along the edges: each edge reads the row of its variable node, scales it by the edge weight, and
    the rows are summed per constraint node. -/
def hop1 (h : S1000000x10.Idx → EReal) (src dst : S8000000.Idx → BitVec 32) (w : S8000000.Idx → EReal) :
    S500000x10.Idx → EReal :=
  (Host.scatterAdd scatter_S500000x10_S8000000x1_S8000000x10_1_0_0_1 (broadcastInDim S500000x10 ![] bcast_S_S500000x10 (constant (F := Ideal) S_ .f32 0x00000000#32)) (broadcastInDim S8000000x1 ![0] bcast_S8000000_S8000000x1_0 dst) (mulf (Host.gather gather_S1000000x10_S8000000x1_S8000000x10_1_0_n_n_0_1_110 h (broadcastInDim S8000000x1 ![0] bcast_S8000000_S8000000x1_0 (select (cmpi .slt src (broadcastInDim S8000000 ![] bcast_S_S8000000 (constantI S_ 32 0#32))) (addi src (broadcastInDim S8000000 ![] bcast_S_S8000000 (constantI S_ 32 1000000#32))) src))) (broadcastInDim S8000000x10 ![0, 1] bcast_S8000000x1_S8000000x10_0_1 (broadcastInDim S8000000x1 ![0] bcast_S8000000_S8000000x1_0 w))) : FVec Ideal S500000x10 .f32)

/-- The second pass: each edge reads the row of its constraint node, scales it by the edge weight, and the rows are
    summed per variable node. -/
def hop2 (h : S500000x10.Idx → EReal) (src dst : S8000000.Idx → BitVec 32) (w : S8000000.Idx → EReal) :
    S1000000x10.Idx → EReal :=
  (Host.scatterAdd scatter_S1000000x10_S8000000x1_S8000000x10_1_0_0_1 (broadcastInDim S1000000x10 ![] bcast_S_S1000000x10 (constant (F := Ideal) S_ .f32 0x00000000#32)) (broadcastInDim S8000000x1 ![0] bcast_S8000000_S8000000x1_0 src) (mulf (Host.gather gather_S500000x10_S8000000x1_S8000000x10_1_0_n_n_0_1_110 h (broadcastInDim S8000000x1 ![0] bcast_S8000000_S8000000x1_0 (select (cmpi .slt dst (broadcastInDim S8000000 ![] bcast_S_S8000000 (constantI S_ 32 0#32))) (addi dst (broadcastInDim S8000000 ![] bcast_S_S8000000 (constantI S_ 32 500000#32))) dst))) (broadcastInDim S8000000x10 ![0, 1] bcast_S8000000x1_S8000000x10_0_1 (broadcastInDim S8000000x1 ![0] bcast_S8000000_S8000000x1_0 w))) : FVec Ideal S1000000x10 .f32)

/-- The reference's embedding of the variable nodes, as a function of its arrays and of the degree vector. -/
def embedT (c x d : FVec Ideal S1000000 .f32) (Wv : FVec Ideal S2x10 .f32) (bv : FVec Ideal S10 .f32) :
    FVec Ideal S1000000x10 .f32 :=
  mulf (maximumf (addf (Host.dotGeneral dot_S1000000x2_S2x10_S1000000x10_1_0_0_1_n_n none (concatenate S1000000x2 1 [⟨S1000000x1, (broadcastInDim S1000000x1 ![0] bcast_S1000000_S1000000x1_0 c)⟩, ⟨S1000000x1, (broadcastInDim S1000000x1 ![0] bcast_S1000000_S1000000x1_0 x)⟩] concatenates_S1000000x1_S1000000x1_S1000000x2_d1) Wv) (broadcastInDim S1000000x10 ![0, 1] bcast_S1x10_S1000000x10_0_1 (broadcastInDim S1x10 ![1] bcast_S10_S1x10_1 bv))) (broadcastInDim S1000000x10 ![] bcast_S_S1000000x10 (constant (F := Ideal) S_ .f32 0x00000000#32))) (broadcastInDim S1000000x10 ![0, 1] bcast_S1000000x1_S1000000x10_0_1 (broadcastInDim S1000000x1 ![0] bcast_S1000000_S1000000x1_0 (Host.rsqrt d)))

/-- The reference's constraint-side layer, as a function of the aggregated table and of the degree vector. -/
def convT (agg : FVec Ideal S500000x10 .f32) (d : FVec Ideal S500000 .f32) (W : FVec Ideal S10x10 .f32)
    (b : FVec Ideal S10 .f32) : FVec Ideal S500000x10 .f32 :=
  mulf (maximumf (addf (Host.dotGeneral dot_S500000x10_S10x10_S500000x10_1_0_0_1_n_n none (mulf agg (broadcastInDim S500000x10 ![0, 1] bcast_S500000x1_S500000x10_0_1 (broadcastInDim S500000x1 ![0] bcast_S500000_S500000x1_0 (Host.rsqrt d)))) W) (broadcastInDim S500000x10 ![0, 1] bcast_S1x10_S500000x10_0_1 (broadcastInDim S1x10 ![1] bcast_S10_S1x10_1 b))) (broadcastInDim S500000x10 ![] bcast_S_S500000x10 (constant (F := Ideal) S_ .f32 0x00000000#32))) (broadcastInDim S500000x10 ![0, 1] bcast_S500000x1_S500000x10_0_1 (broadcastInDim S500000x1 ![0] bcast_S500000_S500000x1_0 (Host.rsqrt d)))

/-- The reference's variable-side layers and the mean, as a function of the aggregated table and of the degree
    vector. -/
def tailT (agg : FVec Ideal S1000000x10 .f32) (d : FVec Ideal S1000000 .f32)
    (W2 : FVec Ideal S10x10 .f32) (b2 : FVec Ideal S10 .f32) (W3 : FVec Ideal S10x10 .f32) (b3 : FVec Ideal S10 .f32)
    (W4 : FVec Ideal S10x10 .f32) (b4 : FVec Ideal S10 .f32) (W5 : FVec Ideal S10x1 .f32) (b5 : FVec Ideal S1 .f32) :
    FVec Ideal S1x1 .f32 :=
  Host.divf (broadcastInDim S1x1 ![1] bcast_S1_S1x1_1 (Host.reduceAdd (addf (Host.dotGeneral dot_S1000000x10_S10x1_S1000000x1_1_0_0_1_n_n none (maximumf (addf (Host.dotGeneral dot_S1000000x10_S10x10_S1000000x10_1_0_0_1_n_n none (maximumf (addf (Host.dotGeneral dot_S1000000x10_S10x10_S1000000x10_1_0_0_1_n_n none (maximumf (addf (Host.dotGeneral dot_S1000000x10_S10x10_S1000000x10_1_0_0_1_n_n none (mulf agg (broadcastInDim S1000000x10 ![0, 1] bcast_S1000000x1_S1000000x10_0_1 (broadcastInDim S1000000x1 ![0] bcast_S1000000_S1000000x1_0 (Host.rsqrt d)))) W2) (broadcastInDim S1000000x10 ![0, 1] bcast_S1x10_S1000000x10_0_1 (broadcastInDim S1x10 ![1] bcast_S10_S1x10_1 b2))) (broadcastInDim S1000000x10 ![] bcast_S_S1000000x10 (constant (F := Ideal) S_ .f32 0x00000000#32))) W3) (broadcastInDim S1000000x10 ![0, 1] bcast_S1x10_S1000000x10_0_1 (broadcastInDim S1x10 ![1] bcast_S10_S1x10_1 b3))) (broadcastInDim S1000000x10 ![] bcast_S_S1000000x10 (constant (F := Ideal) S_ .f32 0x00000000#32))) W4) (broadcastInDim S1000000x10 ![0, 1] bcast_S1x10_S1000000x10_0_1 (broadcastInDim S1x10 ![1] bcast_S10_S1x10_1 b4))) (broadcastInDim S1000000x10 ![] bcast_S_S1000000x10 (constant (F := Ideal) S_ .f32 0x00000000#32))) W5) (broadcastInDim S1000000x1 ![0, 1] bcast_S1x1_S1000000x1_0_1 (broadcastInDim S1x1 ![1] bcast_S1_S1x1_1 b5))) (constant (F := Ideal) S_ .f32 0x00000000#32) reducesTo_S1000000x1_S1_d0 h_S_)) (broadcastInDim S1x1 ![] bcast_S_S1x1 (constant (F := Ideal) S_ .f32 0x49742400#32))

/-! ## The dense layers -/

section layers

variable {N : Nat}

/-- Scale the rows by the inverse square root of the degree, multiply by the weights, add the bias row, clip at zero:
    the hidden layer of the mathematics, for any number of rows. -/
theorem hiddenG_eq (D : DotDims ⟨2, ![N, 10]⟩ ⟨2, ![10, 10]⟩ ⟨2, ![N, 10]⟩) (hD : D = DotDims.plain N 10 10)
    (h1 : (⟨1, ![N]⟩ : Shape).BroadcastsInDim ⟨2, ![N, 1]⟩ (![0] : Fin 1 → Fin 2))
    (h2 : (⟨2, ![N, 1]⟩ : Shape).BroadcastsInDim ⟨2, ![N, 10]⟩ (![0, 1] : Fin 2 → Fin 2))
    (h3 : (⟨1, ![10]⟩ : Shape).BroadcastsInDim ⟨2, ![1, 10]⟩ (![1] : Fin 1 → Fin 2))
    (h4 : (⟨2, ![1, 10]⟩ : Shape).BroadcastsInDim ⟨2, ![N, 10]⟩ (![0, 1] : Fin 2 → Fin 2))
    (h5 : (⟨0, ![]⟩ : Shape).BroadcastsInDim ⟨2, ![N, 10]⟩ (![] : Fin 0 → Fin 2))
    (agg : FVec Ideal ⟨2, ![N, 10]⟩ .f32) (d : FVec Ideal ⟨1, ![N]⟩ .f32) (W : FVec Ideal ⟨2, ![10, 10]⟩ .f32)
    (b : FVec Ideal ⟨1, ![10]⟩ .f32) :
    maximumf (addf (Host.dotGeneral D none (mulf agg (broadcastInDim ⟨2, ![N, 10]⟩ ![0, 1] h2
          (broadcastInDim ⟨2, ![N, 1]⟩ ![0] h1 (Host.rsqrt d)))) W)
        (broadcastInDim ⟨2, ![N, 10]⟩ ![0, 1] h4 (broadcastInDim ⟨2, ![1, 10]⟩ ![1] h3 b)))
      (broadcastInDim ⟨2, ![N, 10]⟩ ![] h5 (constant (F := Ideal) ⟨0, ![]⟩ .f32 0x00000000#32))
      = Cert.Gnn.hidden agg d W b := by
  funext i
  obtain ⟨p, q, rfl⟩ : ∃ (p : Fin N) (q : Fin 10), i = ix2 p q := ⟨i 0, i 1, eq_ix2 i⟩
  show max (Host.dotGeneral D none _ W (ix2 p q) + broadcastInDim _ _ h4 _ (ix2 p q)) (broadcastInDim _ _ h5 _ (ix2 p q))
    = max ((∑ k : Fin 10, agg (ix2 p k) * Ideal.rsqrt (d (ix1 p)) * W (ix2 k q)) + b (ix1 q)) Cert.Gnn.z32
  rw [hostDot_apply D hD, bcastRow_apply h3 h4, bcastWord_apply h5]
  refine congrArg (fun s => max (s + b (ix1 q)) Cert.Gnn.z32) (Finset.sum_congr rfl fun k _ => ?_)
  show agg (ix2 p k) * broadcastInDim _ _ h2 _ (ix2 p k) * W (ix2 k q) = _
  rw [bcastCol_apply h1 h2]
  rfl

/-- Multiply by the weights, add the bias row, clip at zero: a dense layer of the mathematics. -/
theorem layerG_eq (D : DotDims ⟨2, ![N, 10]⟩ ⟨2, ![10, 10]⟩ ⟨2, ![N, 10]⟩) (hD : D = DotDims.plain N 10 10)
    (h3 : (⟨1, ![10]⟩ : Shape).BroadcastsInDim ⟨2, ![1, 10]⟩ (![1] : Fin 1 → Fin 2))
    (h4 : (⟨2, ![1, 10]⟩ : Shape).BroadcastsInDim ⟨2, ![N, 10]⟩ (![0, 1] : Fin 2 → Fin 2))
    (h5 : (⟨0, ![]⟩ : Shape).BroadcastsInDim ⟨2, ![N, 10]⟩ (![] : Fin 0 → Fin 2))
    (h : FVec Ideal ⟨2, ![N, 10]⟩ .f32) (W : FVec Ideal ⟨2, ![10, 10]⟩ .f32) (b : FVec Ideal ⟨1, ![10]⟩ .f32) :
    maximumf (addf (Host.dotGeneral D none h W)
        (broadcastInDim ⟨2, ![N, 10]⟩ ![0, 1] h4 (broadcastInDim ⟨2, ![1, 10]⟩ ![1] h3 b)))
      (broadcastInDim ⟨2, ![N, 10]⟩ ![] h5 (constant (F := Ideal) ⟨0, ![]⟩ .f32 0x00000000#32))
      = Cert.Gnn.layer h W b := by
  funext i
  obtain ⟨p, q, rfl⟩ : ∃ (p : Fin N) (q : Fin 10), i = ix2 p q := ⟨i 0, i 1, eq_ix2 i⟩
  show max (Host.dotGeneral D none h W (ix2 p q) + broadcastInDim _ _ h4 _ (ix2 p q)) (broadcastInDim _ _ h5 _ (ix2 p q))
    = max ((∑ k : Fin 10, h (ix2 p k) * W (ix2 k q)) + b (ix1 q)) Cert.Gnn.z32
  rw [hostDot_apply D hD, bcastRow_apply h3 h4, bcastWord_apply h5]

end layers

/-! ## The three stages of the reference -/

/-- The embedding: the two scalars of a node through the `2 × 10` weights plus the bias, clipped at zero, scaled by
    the inverse square root of the degree. -/
theorem embedT_eq (c x d : FVec Ideal S1000000 .f32) (Wv : FVec Ideal S2x10 .f32) (bv : FVec Ideal S10 .f32) :
    embedT c x d Wv bv = Cert.Gnn.embed c x d Wv bv := by
  funext i
  obtain ⟨p, q, rfl⟩ : ∃ (p : Fin 1000000) (q : Fin 10), i = ix2 p q := ⟨i 0, i 1, eq_ix2 i⟩
  unfold embedT
  show max (Host.dotGeneral dot_S1000000x2_S2x10_S1000000x10_1_0_0_1_n_n none _ Wv (ix2 p q)
        + broadcastInDim _ _ bcast_S1x10_S1000000x10_0_1 _ (ix2 p q)) (broadcastInDim _ _ bcast_S_S1000000x10 _ (ix2 p q))
      * broadcastInDim _ _ bcast_S1000000x1_S1000000x10_0_1 _ (ix2 p q)
    = max (c (ix1 p) * Wv (ix2 (0 : Fin 2) q) + x (ix1 p) * Wv (ix2 (1 : Fin 2) q) + bv (ix1 q)) Cert.Gnn.z32
      * Ideal.rsqrt (d (ix1 p))
  rw [hostDot_apply dot_S1000000x2_S2x10_S1000000x10_1_0_0_1_n_n rfl, bcastRow_apply bcast_S10_S1x10_1 bcast_S1x10_S1000000x10_0_1,
    bcastWord_apply bcast_S_S1000000x10, bcastCol_apply bcast_S1000000_S1000000x1_0 bcast_S1000000x1_S1000000x10_0_1,
    Fin.sum_univ_two, concat_left, concat_right, bcastUnitCol_apply, bcastUnitCol_apply]
  rfl

/-- The constraint side: the hidden layer, scaled once more by the inverse square root of the degree. -/
theorem convT_eq (agg : FVec Ideal S500000x10 .f32) (d : FVec Ideal S500000 .f32) (W : FVec Ideal S10x10 .f32)
    (b : FVec Ideal S10 .f32) : convT agg d W b = Cert.Gnn.conv agg d W b := by
  unfold convT
  rw [hiddenG_eq dot_S500000x10_S10x10_S500000x10_1_0_0_1_n_n rfl bcast_S500000_S500000x1_0 bcast_S500000x1_S500000x10_0_1
    bcast_S10_S1x10_1 bcast_S1x10_S500000x10_0_1 bcast_S_S500000x10 agg d W b]
  funext i
  obtain ⟨p, q, rfl⟩ : ∃ (p : Fin 500000) (q : Fin 10), i = ix2 p q := ⟨i 0, i 1, eq_ix2 i⟩
  exact congrArg (Cert.Gnn.hidden agg d W b (ix2 p q) * ·)
    (bcastCol_apply bcast_S500000_S500000x1_0 bcast_S500000x1_S500000x10_0_1 (Host.rsqrt d) p q)

/-- The variable side: the hidden layer, two more dense layers, the last layer to one number per node, and the mean of
    those numbers (the host's sum from the zero word, divided by the word for a million). -/
theorem tailT_eq (agg : FVec Ideal S1000000x10 .f32) (d : FVec Ideal S1000000 .f32)
    (W2 : FVec Ideal S10x10 .f32) (b2 : FVec Ideal S10 .f32) (W3 : FVec Ideal S10x10 .f32) (b3 : FVec Ideal S10 .f32)
    (W4 : FVec Ideal S10x10 .f32) (b4 : FVec Ideal S10 .f32) (W5 : FVec Ideal S10x1 .f32) (b5 : FVec Ideal S1 .f32) :
    tailT agg d W2 b2 W3 b3 W4 b4 W5 b5
      = fun _ => Cert.Gnn.mean (Cert.Gnn.score agg d W2 b2 W3 b3 W4 b4 W5 b5) := by
  unfold tailT
  rw [hiddenG_eq dot_S1000000x10_S10x10_S1000000x10_1_0_0_1_n_n rfl bcast_S1000000_S1000000x1_0
      bcast_S1000000x1_S1000000x10_0_1 bcast_S10_S1x10_1 bcast_S1x10_S1000000x10_0_1 bcast_S_S1000000x10 agg d W2 b2,
    layerG_eq dot_S1000000x10_S10x10_S1000000x10_1_0_0_1_n_n rfl bcast_S10_S1x10_1 bcast_S1x10_S1000000x10_0_1
      bcast_S_S1000000x10 _ W3 b3,
    layerG_eq dot_S1000000x10_S10x10_S1000000x10_1_0_0_1_n_n rfl bcast_S10_S1x10_1 bcast_S1x10_S1000000x10_0_1
      bcast_S_S1000000x10 _ W4 b4]
  funext j
  obtain ⟨r, s, rfl⟩ : ∃ (r : Fin 1) (s : Fin 1), j = ix2 r s := ⟨j 0, j 1, eq_ix2 j⟩
  obtain rfl : s = 0 := Subsingleton.elim _ _
  refine (congrArg₂ Ideal.div (bcastLead_apply bcast_S1_S1x1_1 _ r 0) (bcastWord_apply bcast_S_S1x1 _ _)).trans ?_
  rw [Cert.Gnn.div_million]
  refine congrArg (· * Cert.Gnn.invMillion) ((colSum_apply _ _).trans ?_)
  refine congrArg (Cert.Gnn.z32 + ·) (Finset.sum_congr rfl fun n _ => ?_)
  refine congrArg₂ (· + ·) (hostDot_apply dot_S1000000x10_S10x1_S1000000x1_1_0_0_1_n_n rfl _ W5 n 0)
    (bcastRow_apply bcast_S1_S1x1_1 bcast_S1x1_S1000000x1_0_1 b5 n 0)

/-! ## The reference's result -/

/-- The reference's result is the mean of the scores of the mathematics, computed from the argument arrays through the
    embedding, the first pass, the constraint side, the second pass and the variable side. -/
theorem result_eq (m : (ℓ : Loc nD τ sig) → Buf (Elt Ideal) ℓ) (c : Dev nD) :
    Cert.ReferenceIdeal.Value.res_main_v94 (F := Ideal) m c
      = fun _ => Cert.Gnn.mean (Cert.Gnn.score
          (hop2 (Cert.Gnn.conv (hop1 (Cert.Gnn.embed (m ((c.tc : Thread nD τ).loc main_arg0)) (m ((c.tc : Thread nD τ).loc main_arg1)) (degVar (m ((c.tc : Thread nD τ).loc main_arg3))) (m ((c.tc : Thread nD τ).loc main_arg6)) (m ((c.tc : Thread nD τ).loc main_arg7)))
              (m ((c.tc : Thread nD τ).loc main_arg3)) (m ((c.tc : Thread nD τ).loc main_arg4)) (m ((c.tc : Thread nD τ).loc main_arg5)))
            (degCon (m ((c.tc : Thread nD τ).loc main_arg4))) (m ((c.tc : Thread nD τ).loc main_arg12)) (m ((c.tc : Thread nD τ).loc main_arg13)))
            (m ((c.tc : Thread nD τ).loc main_arg3)) (m ((c.tc : Thread nD τ).loc main_arg4)) (m ((c.tc : Thread nD τ).loc main_arg5)))
          (degVar (m ((c.tc : Thread nD τ).loc main_arg3))) (m ((c.tc : Thread nD τ).loc main_arg12)) (m ((c.tc : Thread nD τ).loc main_arg13)) (m ((c.tc : Thread nD τ).loc main_arg14)) (m ((c.tc : Thread nD τ).loc main_arg15))
          (m ((c.tc : Thread nD τ).loc main_arg16)) (m ((c.tc : Thread nD τ).loc main_arg17)) (m ((c.tc : Thread nD τ).loc main_arg18)) (m ((c.tc : Thread nD τ).loc main_arg19))) := by
  have h0 : Cert.ReferenceIdeal.Value.res_main_v94 (F := Ideal) m c
      = tailT (hop2 (convT (hop1 (embedT (m ((c.tc : Thread nD τ).loc main_arg0)) (m ((c.tc : Thread nD τ).loc main_arg1)) (degVar (m ((c.tc : Thread nD τ).loc main_arg3))) (m ((c.tc : Thread nD τ).loc main_arg6)) (m ((c.tc : Thread nD τ).loc main_arg7)))
              (m ((c.tc : Thread nD τ).loc main_arg3)) (m ((c.tc : Thread nD τ).loc main_arg4)) (m ((c.tc : Thread nD τ).loc main_arg5)))
            (degCon (m ((c.tc : Thread nD τ).loc main_arg4))) (m ((c.tc : Thread nD τ).loc main_arg12)) (m ((c.tc : Thread nD τ).loc main_arg13)))
            (m ((c.tc : Thread nD τ).loc main_arg3)) (m ((c.tc : Thread nD τ).loc main_arg4)) (m ((c.tc : Thread nD τ).loc main_arg5)))
          (degVar (m ((c.tc : Thread nD τ).loc main_arg3))) (m ((c.tc : Thread nD τ).loc main_arg12)) (m ((c.tc : Thread nD τ).loc main_arg13)) (m ((c.tc : Thread nD τ).loc main_arg14)) (m ((c.tc : Thread nD τ).loc main_arg15))
          (m ((c.tc : Thread nD τ).loc main_arg16)) (m ((c.tc : Thread nD τ).loc main_arg17)) (m ((c.tc : Thread nD τ).loc main_arg18)) (m ((c.tc : Thread nD τ).loc main_arg19)) := rfl
  rw [h0, tailT_eq, convT_eq, embedT_eq]
  rfl

end Cert.RefSide

end
-- ==== Proof.lean ====
/-
  The certificate of a two-hop graph network over a million variable nodes, half a million constraint nodes and eight
  million weighted edges, ten features per node: a kernel of three tiled regions among host operations against a plain
  array program.

  Both programs embed the variable nodes, pass along the edges to the constraint nodes, apply a dense layer there, pass back,
  and on the variable nodes apply four dense layers and take the mean. The passes along the edges and the node degrees are
  the same host operations in both programs and are never opened. What differs is the arrangement of the node-wise
  arithmetic: the kernel works on tiles of four thousand rows — the embedding as two products and a sum where the plain
  program has a product with a two-row matrix, each dense layer as a matrix product per tile, the mean as a sum of the
  tiles' sums times the reciprocal of a million where the plain program sums all rows and divides by a million. Over
  the extended reals a sum may be regrouped freely, and dividing by a million is multiplying by its reciprocal on every
  extended real, so the two results are equal for all inputs; the inputs' finiteness is not used.

  The three frames are the generated ones (the plain program's is its generated run with the result dropped). The kernel's
  idealization differs from the kernel by one named constant, the reciprocal of a million.
-/
import proofs.«179143_j2843268349978_2_alg».proof.Defs
import proofs.«179143_j2843268349978_2_alg».proof.Proof.Gen.Kernel
import proofs.«179143_j2843268349978_2_alg».proof.Proof.Gen.Kernel.Frame
import proofs.«179143_j2843268349978_2_alg».proof.Proof.Gen.KernelIdeal
import proofs.«179143_j2843268349978_2_alg».proof.Proof.Gen.KernelIdeal.Frame
import proofs.«179143_j2843268349978_2_alg».proof.Proof.Gen.ReferenceIdeal
import proofs.«179143_j2843268349978_2_alg».proof.Proof.Gen.ReferenceIdeal.Run
import proofs.«179143_j2843268349978_2_alg».proof.Proof.Gen.ReferenceIdeal.Read
import proofs.«179143_j2843268349978_2_alg».proof.Proof.Gen.Pre_finite_inputs
import proofs.«179143_j2843268349978_2_alg».proof.Proof.KernelValue
import proofs.«179143_j2843268349978_2_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem

/-! ## The edge passes and the degrees are the same operations in both programs -/

theorem degVar_eq : Cert.RefSide.degVar = Cert.KernelSide.degVar := rfl
theorem degCon_eq : Cert.RefSide.degCon = Cert.KernelSide.degCon := rfl
theorem hop1_eq : Cert.RefSide.hop1 = Cert.KernelSide.hop1 := rfl
theorem hop2_eq : Cert.RefSide.hop2 = Cert.KernelSide.hop2 := rfl

/-! ## The claims -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The one rewrite of the idealization: the float word nearest to a millionth is named, and the name denotes the
    reciprocal of a million. -/
theorem preserves : Cert.preserves_Kernel_KernelIdeal :=
  IdealRules.named_const.statement Cert.KernelIdeal.κ "inv_1000000" .f32 0x358637BD#32 ((1 / 1000000 : ℝ) : EReal) rfl

/-- Both programs end with the network's mean score of the argument arrays in their result array. -/
theorem algebraic : Cert.algebraic_KernelIdeal_ReferenceIdeal := by
  intro m ρ m' ρ' _ hagree
  refine ⟨fun c => Cert.KernelSide.value m c, Cert.KernelSide.run_value m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11, a12, a13, a14, a15, a16, a17, a18, a19⟩ := hagree c
  rw [Cert.RefSide.result_eq, a0, a1, a3, a4, a5, a6, a7, a12, a13, a14, a15, a16, a17, a18, a19,
    degVar_eq, degCon_eq, hop1_eq, hop2_eq]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
